-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v12)) (v3 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_v16) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_v31) = v2 c
          ∧ r.2.mem ((c.tc : Thread Cert.ReferenceIdeal.nD Cert.ReferenceIdeal.τ).loc Cert.ReferenceIdeal.main_v77) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096x32 : Shape := ⟨3, ![64, 4096, 32]⟩
abbrev S64x32x3 : Shape := ⟨3, ![64, 32, 3]⟩
abbrev S64x32 : Shape := ⟨2, ![64, 32]⟩
abbrev S1x1x32 : Shape := ⟨3, ![1, 1, 32]⟩
abbrev S_ : Shape := ⟨0, ![]⟩

class Facts : Prop where
  bcast_S_S64x4096x32 : S_.BroadcastsInDim S64x4096x32 (![] : Fin 0 → Fin S64x4096x32.rank)
  reducesTo_S64x4096x32_S_d0_1_2 : S64x4096x32.ReducesTo [0, 1, 2] S_
  h_S_ : 0 < S_.numel
  bcast_S_S64x32x3 : S_.BroadcastsInDim S64x32x3 (![] : Fin 0 → Fin S64x32x3.rank)
  reducesTo_S64x32x3_S_d0_1_2 : S64x32x3.ReducesTo [0, 1, 2] S_
  bcast_S_S64x32 : S_.BroadcastsInDim S64x32 (![] : Fin 0 → Fin S64x32.rank)
  reducesTo_S64x32_S_d0_1 : S64x32.ReducesTo [0, 1] S_
  bcast_S_S1x1x32 : S_.BroadcastsInDim S1x1x32 (![] : Fin 0 → Fin S1x1x32.rank)
  reducesTo_S1x1x32_S_d0_1_2 : S1x1x32.ReducesTo [0, 1, 2] S_

variable [Facts]

def fn_part1 {F : FTy → Type} [FloatOps F] (main_arg4 : FVec F S1x1x32 .f32) (main_arg5 : FVec F S1x1x32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S1x1x32 .f32 := Host.absf main_arg4
  let main_cst_6 : FVec F S_ .f32 := constant S_ .f32 0x7F800000#32
  let main_v20 : FVec F S1x1x32 .f32 := broadcastInDim S1x1x32 ![] bcast_S_S1x1x32 main_cst_6
  let main_v21 : IVec S1x1x32 1 := cmpf .olt main_v19 main_v20
  let main_c_7 : IVec S_ 1 := constantI S_ 1 1#1
  let main_v22 : IVec S_ 1 := (fun x v => Host.reduce IntOp.andi x v reducesTo_S1x1x32_S_d0_1_2 h_S_) main_v21 main_c_7
  let main_v23 : IVec S_ 1 := andi main_v18 main_v22
  let main_v24 : FVec F S1x1x32 .f32 := Host.absf main_arg5
  let main_cst_8 : FVec F S_ .f32 := constant S_ .f32 0x7F800000#32
  let main_v25 : FVec F S1x1x32 .f32 := broadcastInDim S1x1x32 ![] bcast_S_S1x1x32 main_cst_8
  let main_v26 : IVec S1x1x32 1 := cmpf .olt main_v24 main_v25
  let main_c_9 : IVec S_ 1 := constantI S_ 1 1#1
  let main_v27 : IVec S_ 1 := (fun x v => Host.reduce IntOp.andi x v reducesTo_S1x1x32_S_d0_1_2 h_S_) main_v26 main_c_9
  let main_v28 : IVec S_ 1 := andi main_v23 main_v27
  main_v28

def fn {F : FTy → Type} [FloatOps F] (main_arg0 : FVec F S64x4096x32 .f32) (main_arg1 : FVec F S64x4096x32 .f32) (main_arg2 : FVec F S64x32x3 .f32) (main_arg3 : FVec F S64x32 .f32) (main_arg4 : FVec F S1x1x32 .f32) (main_arg5 : FVec F S1x1x32 .f32) : IVec S_ 1 :=
  let main_v0 : FVec F S64x4096x32 .f32 := Host.absf main_arg0
  let main_cst : FVec F S_ .f32 := constant S_ .f32 0x7F800000#32
  let main_v1 : FVec F S64x4096x32 .f32 := broadcastInDim S64x4096x32 ![] bcast_S_S64x4096x32 main_cst
  let main_v2 : IVec S64x4096x32 1 := cmpf .olt main_v0 main_v1
  let main_c : IVec S_ 1 := constantI S_ 1 1#1
  let main_v3 : IVec S_ 1 := (fun x v => Host.reduce IntOp.andi x v reducesTo_S64x4096x32_S_d0_1_2 h_S_) main_v2 main_c
  let main_v4 : FVec F S64x4096x32 .f32 := Host.absf main_arg1
  let main_cst_0 : FVec F S_ .f32 := constant S_ .f32 0x7F800000#32
  let main_v5 : FVec F S64x4096x32 .f32 := broadcastInDim S64x4096x32 ![] bcast_S_S64x4096x32 main_cst_0
  let main_v6 : IVec S64x4096x32 1 := cmpf .olt main_v4 main_v5
  let main_c_1 : IVec S_ 1 := constantI S_ 1 1#1
  let main_v7 : IVec S_ 1 := (fun x v => Host.reduce IntOp.andi x v reducesTo_S64x4096x32_S_d0_1_2 h_S_) main_v6 main_c_1
  let main_v8 : IVec S_ 1 := andi main_v3 main_v7
  let main_v9 : FVec F S64x32x3 .f32 := Host.absf main_arg2
  let main_cst_2 : FVec F S_ .f32 := constant S_ .f32 0x7F800000#32
  let main_v10 : FVec F S64x32x3 .f32 := broadcastInDim S64x32x3 ![] bcast_S_S64x32x3 main_cst_2
  let main_v11 : IVec S64x32x3 1 := cmpf .olt main_v9 main_v10
  let main_c_3 : IVec S_ 1 := constantI S_ 1 1#1
  let main_v12 : IVec S_ 1 := (fun x v => Host.reduce IntOp.andi x v reducesTo_S64x32x3_S_d0_1_2 h_S_) main_v11 main_c_3
  let main_v13 : IVec S_ 1 := andi main_v8 main_v12
  let main_v14 : FVec F S64x32 .f32 := Host.absf main_arg3
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg4 main_arg5 main_v13 main_v16
-- ==== Kernel.lean ====
abbrev S64x4096x32 : Shape := ⟨3, ![64, 4096, 32]⟩
abbrev S64x32x3 : Shape := ⟨3, ![64, 32, 3]⟩
abbrev S64x32 : Shape := ⟨2, ![64, 32]⟩
abbrev S1x1x32 : Shape := ⟨3, ![1, 1, 32]⟩
abbrev S64x1x32 : Shape := ⟨3, ![64, 1, 32]⟩
abbrev S1x3 : Shape := ⟨2, ![1, 3]⟩
abbrev S1x1 : Shape := ⟨2, ![1, 1]⟩
abbrev S1x4096x32 : Shape := ⟨3, ![1, 4096, 32]⟩
abbrev S1x32x3 : Shape := ⟨3, ![1, 32, 3]⟩
abbrev S4096x32 : Shape := ⟨2, ![4096, 32]⟩
abbrev S4096x3 : Shape := ⟨2, ![4096, 3]⟩
abbrev S3 : Shape := ⟨1, ![3]⟩
abbrev S4095x3 : Shape := ⟨2, ![4095, 3]⟩
abbrev S4096x1 : Shape := ⟨2, ![4096, 1]⟩
abbrev S4096x28 : Shape := ⟨2, ![4096, 28]⟩
abbrev S1 : Shape := ⟨1, ![1]⟩
abbrev S28 : Shape := ⟨1, ![28]⟩
abbrev S1x28 : Shape := ⟨2, ![1, 28]⟩
abbrev S1x1x3 : Shape := ⟨3, ![1, 1, 3]⟩
abbrev S32x3 : Shape := ⟨2, ![32, 3]⟩
abbrev S4096x1x3 : Shape := ⟨3, ![4096, 1, 3]⟩
abbrev S4096x32x3 : Shape := ⟨3, ![4096, 32, 3]⟩
abbrev S32 : Shape := ⟨1, ![32]⟩
abbrev S1x32 : Shape := ⟨2, ![1, 32]⟩
abbrev S_ : Shape := ⟨0, ![]⟩

abbrev nBuf : Space → Nat
  | .hbm => 45
  | .vmem => 15
  | .smem => 0
  | _ => 0

abbrev bufTy : (tb : Table) → Fin (tcTables nBuf tb) → BufTy
  | .hbm, ⟨0, _⟩ => ⟨S64x4096x32, .f32⟩
  | .hbm, ⟨1, _⟩ => ⟨S64x4096x32, .f32⟩
  | .hbm, ⟨2, _⟩ => ⟨S64x32x3, .f32⟩
  | .hbm, ⟨3, _⟩ => ⟨S64x32, .f32⟩
  | .hbm, ⟨4, _⟩ => ⟨S1x1x32, .f32⟩
  | .hbm, ⟨5, _⟩ => ⟨S1x1x32, .f32⟩
  | .hbm, ⟨6, _⟩ => ⟨S64x1x32, .f32⟩
  | .hbm, ⟨7, _⟩ => ⟨S1x3, .f32⟩
  | .hbm, ⟨8, _⟩ => ⟨S1x3, .f32⟩
  | .hbm, ⟨9, _⟩ => ⟨S1x3, .f32⟩
  | .hbm, ⟨10, _⟩ => ⟨S1x1, .f32⟩
  | .hbm, ⟨11, _⟩ => ⟨S1x1, .f32⟩
  | .hbm, ⟨12, _⟩ => ⟨S_, .f32⟩
  | .hbm, ⟨13, _⟩ => ⟨S1x3, .f32⟩
  | .hbm, ⟨14, _⟩ => ⟨S1x3, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1x3, .f32⟩
  | .hbm, ⟨19, _⟩ => ⟨S1x3, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S1x3, .f32⟩
  | .hbm, ⟨27, _⟩ => ⟨S1x3, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .local _ .vmem, ⟨0, _⟩ => ⟨S1x4096x32, .f32⟩
  | .local _ .vmem, ⟨1, _⟩ => ⟨S1x4096x32, .f32⟩
  | .local _ .vmem, ⟨2, _⟩ => ⟨S1x4096x32, .f32⟩
  | .local _ .vmem, ⟨3, _⟩ => ⟨S1x4096x32, .f32⟩
  | .local _ .vmem, ⟨4, _⟩ => ⟨S1x32x3, .f32⟩
  | .local _ .vmem, ⟨5, _⟩ => ⟨S1x32x3, .f32⟩
  | .local _ .vmem, ⟨6, _⟩ => ⟨S1x1x32, .f32⟩
  | .local _ .vmem, ⟨7, _⟩ => ⟨S1x1x32, .f32⟩
  | .local _ .vmem, ⟨8, _⟩ => ⟨S1x1x32, .f32⟩
  | .local _ .vmem, ⟨9, _⟩ => ⟨S1x1x32, .f32⟩
  | .local _ .vmem, ⟨10, _⟩ => ⟨S1x3, .f32⟩
  | .local _ .vmem, ⟨11, _⟩ => ⟨S1x3, .f32⟩
  | .local _ .vmem, ⟨12, _⟩ => ⟨S1x3, .f32⟩
  | .local _ .vmem, ⟨13, _⟩ => ⟨S1x1, .f32⟩
  | .local _ .vmem, ⟨14, _⟩ => ⟨S1x1, .f32⟩
  | _, _ => ⟨S64x4096x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_cst_3 : Ref sig .tc := ⟨.hbm, 22, rfl⟩
abbrev main_v8 : Ref sig .tc := ⟨.hbm, 23, rfl⟩
abbrev main_v9 : Ref sig .tc := ⟨.hbm, 24, rfl⟩
abbrev main_cst_4 : Ref sig .tc := ⟨.hbm, 25, rfl⟩
abbrev main_v10 : Ref sig .tc := ⟨.hbm, 26, rfl⟩
abbrev main_v11 : Ref sig .tc := ⟨.hbm, 27, rfl⟩
abbrev main_cst_5 : Ref sig .tc := ⟨.hbm, 28, rfl⟩
abbrev main_v12 : Ref sig .tc := ⟨.hbm, 29, rfl⟩
abbrev main_v13 : Ref sig .tc := ⟨.hbm, 30, rfl⟩
abbrev main_cst_6 : Ref sig .tc := ⟨.hbm, 31, rfl⟩
abbrev main_v14 : Ref sig .tc := ⟨.hbm, 32, rfl⟩
abbrev main_v15 : Ref sig .tc := ⟨.hbm, 33, rfl⟩
abbrev main_cst_7 : Ref sig .tc := ⟨.hbm, 34, rfl⟩
abbrev main_v16 : Ref sig .tc := ⟨.hbm, 35, rfl⟩
abbrev main_cst_8 : Ref sig .tc := ⟨.hbm, 36, rfl⟩
abbrev main_v17 : Ref sig .tc := ⟨.hbm, 37, rfl⟩
abbrev main_cst_9 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_10 : Ref sig .tc := ⟨.hbm, 42, rfl⟩
abbrev main_v21 : Ref sig .tc := ⟨.hbm, 43, rfl⟩
abbrev main_v22 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x4096x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x3 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

class Facts₀ : Prop where
  shapeCasts_S64x32_S64x1x32 : S64x32.ShapeCasts S64x1x32
  inb_S1x3_S1x3_0_0 : ∀ a, (![0, 0] : Fin 2 → Nat) a + S1x3.size a ≤ S1x3.size a
  h_S1x3 : 0 < S1x3.numel
  inb_S1x1_S1x1_0_0 : ∀ a, (![0, 0] : Fin 2 → Nat) a + S1x1.size a ≤ S1x1.size a
  h_S1x1 : 0 < S1x1.numel
  inb_S1x4096x32_S1x4096x32_0_0_0 : ∀ a, (![0, 0, 0] : Fin 3 → Nat) a + S1x4096x32.size a ≤ S1x4096x32.size a
  h_S1x4096x32 : 0 < S1x4096x32.numel
  shapeCasts_S1x4096x32_S4096x32 : S1x4096x32.ShapeCasts S4096x32
  slices_S4096x32_o0_1_S4096x3 : S4096x32.Slices ![0, 1] S4096x3
  shapeCasts_S1x3_S1x3 : S1x3.ShapeCasts S1x3
  reduces_S4096x3_S3 : S4096x3.Reduces [0] S3
  shapeCasts_S3_S1x3 : S3.ShapeCasts S1x3
  slices_S4096x3_o4095_0_S1x3 : S4096x3.Slices ![4095, 0] S1x3
  slices_S4096x3_o1_0_S4095x3 : S4096x3.Slices ![1, 0] S4095x3
  slices_S4096x3_o0_0_S4095x3 : S4096x3.Slices ![0, 0] S4095x3
  reduces_S4095x3_S3 : S4095x3.Reduces [0] S3
  slices_S4096x32_o0_0_S4096x1 : S4096x32.Slices ![0, 0] S4096x1
  slices_S4096x32_o0_4_S4096x28 : S4096x32.Slices ![0, 4] S4096x28
  reduces_S4096x1_S1 : S4096x1.Reduces [0] S1
  shapeCasts_S1_S1x1 : S1.ShapeCasts S1x1
  reduces_S4096x28_S28 : S4096x28.Reduces [0] S28
  shapeCasts_S28_S1x28 : S28.ShapeCasts S1x28
  reduces_S1x28_S1 : S1x28.Reduces [1] S1
  shapeCasts_S1x1_S1x1 : S1x1.ShapeCasts S1x1
  inb_S1x1x32_S1x1x32_0_0_0 : ∀ a, (![0, 0, 0] : Fin 3 → Nat) a + S1x1x32.size a ≤ S1x1x32.size a
  h_S1x1x32 : 0 < S1x1x32.numel
  slices_S1x1x32_o0_0_1_S1x1x3 : S1x1x32.Slices ![0, 0, 1] S1x1x3
  shapeCasts_S1x1x3_S3 : S1x1x3.ShapeCasts S3
  broadcasts_S1x3_S4096x3 : S1x3.Broadcasts S4096x3
  inb_S1x32x3_S1x32x3_0_0_0 : ∀ a, (![0, 0, 0] : Fin 3 → Nat) a + S1x32x3.size a ≤ S1x32x3.size a
  h_S1x32x3 : 0 < S1x32x3.numel
  shapeCasts_S1x32x3_S32x3 : S1x32x3.ShapeCasts S32x3
  shapeCasts_S4096x3_S4096x1x3 : S4096x3.ShapeCasts S4096x1x3
  shapeCasts_S32x3_S1x32x3 : S32x3.ShapeCasts S1x32x3
  broadcasts_S4096x1x3_S4096x32x3 : S4096x1x3.Broadcasts S4096x32x3
  broadcasts_S1x32x3_S4096x32x3 : S1x32x3.Broadcasts S4096x32x3
  reduces_S4096x32x3_S4096x32 : S4096x32x3.Reduces [2] S4096x32
  shapeCasts_S1x1x32_S1x1x32 : S1x1x32.ShapeCasts S1x1x32
  shapeCasts_S1x1x32_S32 : S1x1x32.ShapeCasts S32
  shapeCasts_S32_S1x32 : S32.ShapeCasts S1x32
  broadcasts_S1x32_S4096x32 : S1x32.Broadcasts S4096x32
  reduces_S4096x32_S32 : S4096x32.Reduces [0] S32
  reduces_S1x32_S1 : S1x32.Reduces [1] S1
  bcast_S_S1x3 : S_.BroadcastsInDim S1x3 (![] : Fin 0 → Fin S1x3.rank)
  reducesTo_S1x3_S_d0_1 : S1x3.ReducesTo [0, 1] S_
  h_S_ : 0 < S_.numel
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x32.size a ≤ S64x4096x32.size a
  hwx0_0 : ∀ i : grid0.Coords, EltTy.bits .f32 = 32 ∨ (Rect.block (s := S64x4096x32) S1x4096x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x32.size a ≤ S64x4096x32.size a
  hwx0_1 : ∀ i : grid0.Coords, EltTy.bits .f32 = 32 ∨ (Rect.block (s := S64x4096x32) S1x4096x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x3.size a ≤ S64x32x3.size a
  hwx0_2 : ∀ i : grid0.Coords, EltTy.bits .f32 = 32 ∨ (Rect.block (s := S64x32x3) S1x32x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x32.size a ≤ S64x1x32.size a
  hwx0_3 : ∀ i : grid0.Coords, EltTy.bits .f32 = 32 ∨ (Rect.block (s := S64x1x32) S1x1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1x32.size a ≤ S1x1x32.size a
  hwx0_4 : ∀ i : grid0.Coords, EltTy.bits .f32 = 32 ∨ (Rect.block (s := S1x1x32) S1x1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1x32.size a ≤ S1x1x32.size a
  hwx0_5 : ∀ i : grid0.Coords, EltTy.bits .f32 = 32 ∨ (Rect.block (s := S1x1x32) S1x1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x3.size a ≤ S1x3.size a
  hwx0_6 : ∀ i : grid0.Coords, EltTy.bits .f32 = 32 ∨ (Rect.block (s := S1x3) S1x3.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x3.size a ≤ S1x3.size a
  hwx0_7 : ∀ i : grid0.Coords, EltTy.bits .f32 = 32 ∨ (Rect.block (s := S1x3) S1x3.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x3.size a ≤ S1x3.size a
  hwx0_8 : ∀ i : grid0.Coords, EltTy.bits .f32 = 32 ∨ (Rect.block (s := S1x3) S1x3.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)

variable [Facts₀]

abbrev win0_0 : Pipeline.Window sig grid0 :=
  Pipeline.Window.ofSpec (Memref.whole main_arg0) S1x4096x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x32x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1_0) S1x3.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1_1) S1x3.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v1_2) S1x3.size cc0_transform_8 reads0_8 true true 1 stage0_8 sem0_8
    hrank0 hreads0_8 hinb0_8 nbuf0_8 (Memref.isWhole_whole _) hwx0_8 hstage0_8

abbrev win0_9 : Pipeline.Window sig grid0 :=
  Pipeline.Window.ofSpec (Memref.whole main_v1_3) S1x1.size cc0_transform_9 reads0_9 true true 1 stage0_9 sem0_9
    hrank0 hreads0_9 hinb0_9 nbuf0_9 (Memref.isWhole_whole _) hwx0_9 hstage0_9

abbrev win0_10 : Pipeline.Window sig grid0 :=
  Pipeline.Window.ofSpec (Memref.whole main_v1_4) S1x1.size cc0_transform_10 reads0_10 true true 1 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S64x4096x32 : Shape := ⟨3, ![64, 4096, 32]⟩
abbrev S64x32x3 : Shape := ⟨3, ![64, 32, 3]⟩
abbrev S64x32 : Shape := ⟨2, ![64, 32]⟩
abbrev S1x1x32 : Shape := ⟨3, ![1, 1, 32]⟩
abbrev S64x4096x3 : Shape := ⟨3, ![64, 4096, 3]⟩
abbrev S_ : Shape := ⟨0, ![]⟩
abbrev S3 : Shape := ⟨1, ![3]⟩
abbrev S64x1x3 : Shape := ⟨3, ![64, 1, 3]⟩
abbrev S64x3 : Shape := ⟨2, ![64, 3]⟩
abbrev S64x4095x3 : Shape := ⟨3, ![64, 4095, 3]⟩
abbrev S64x4096x1 : Shape := ⟨3, ![64, 4096, 1]⟩
abbrev S64x4096x28 : Shape := ⟨3, ![64, 4096, 28]⟩
abbrev S64x4096x29 : Shape := ⟨3, ![64, 4096, 29]⟩
abbrev S1x1x3 : Shape := ⟨3, ![1, 1, 3]⟩
abbrev S64x4096 : Shape := ⟨2, ![64, 4096]⟩
abbrev S64x1x32 : Shape := ⟨3, ![64, 1, 32]⟩

abbrev nBuf : Space → Nat
  | .hbm => 113
  | .vmem => 0
  | .smem => 0
  | _ => 0

abbrev bufTy : (tb : Table) → Fin (tcTables nBuf tb) → BufTy
  | .hbm, ⟨0, _⟩ => ⟨S64x4096x32, .f32⟩
  | .hbm, ⟨1, _⟩ => ⟨S64x4096x32, .f32⟩
  | .hbm, ⟨2, _⟩ => ⟨S64x32x3, .f32⟩
  | .hbm, ⟨3, _⟩ => ⟨S64x32, .f32⟩
  | .hbm, ⟨4, _⟩ => ⟨S1x1x32, .f32⟩
  | .hbm, ⟨5, _⟩ => ⟨S1x1x32, .f32⟩
  | .hbm, ⟨6, _⟩ => ⟨S64x4096x3, .f32⟩
  | .hbm, ⟨7, _⟩ => ⟨S64x4096x3, .f32⟩
  | .hbm, ⟨8, _⟩ => ⟨S64x4096x3, .f32⟩
  | .hbm, ⟨9, _⟩ => ⟨S64x4096x3, .f32⟩
  | .hbm, ⟨10, _⟩ => ⟨S_, .f32⟩
  | .hbm, ⟨11, _⟩ => ⟨S3, .f32⟩
  | .hbm, ⟨12, _⟩ => ⟨S_, .f32⟩
  | .hbm, ⟨13, _⟩ => ⟨S3, .f32⟩
  | .hbm, ⟨14, _⟩ => ⟨S3, .f32⟩
  | .hbm, ⟨15, _⟩ => ⟨S_, .f32⟩
  | .hbm, ⟨16, _⟩ => ⟨S_, .f32⟩
  | .hbm, ⟨17, _⟩ => ⟨S64x1x3, .f32⟩
  | .hbm, ⟨18, _⟩ => ⟨S64x3, .f32⟩
  | .hbm, ⟨19, _⟩ => ⟨S64x1x3, .f32⟩
  | .hbm, ⟨20, _⟩ => ⟨S64x3, .f32⟩
  | .hbm, ⟨21, _⟩ => ⟨S64x3, .f32⟩
  | .hbm, ⟨22, _⟩ => ⟨S64x3, .f32⟩
  | .hbm, ⟨23, _⟩ => ⟨S_, .f32⟩
  | .hbm, ⟨24, _⟩ => ⟨S3, .f32⟩
  | .hbm, ⟨25, _⟩ => ⟨S_, .f32⟩
  | .hbm, ⟨26, _⟩ => ⟨S3, .f32⟩
  | .hbm, ⟨27, _⟩ => ⟨S3, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S64x4095x3, .f32⟩
  | .hbm, ⟨34, _⟩ => ⟨S64x4095x3, .f32⟩
  | .hbm, ⟨35, _⟩ => ⟨S64x4095x3, .f32⟩
  | .hbm, ⟨36, _⟩ => ⟨S64x4095x3, .f32⟩
  | .hbm, ⟨37, _⟩ => ⟨S64x4095x3, .f32⟩
  | .hbm, ⟨38, _⟩ => ⟨S64x4095x3, .f32⟩
  | .hbm, ⟨39, _⟩ => ⟨S64x4095x3, .f32⟩
  | .hbm, ⟨40, _⟩ => ⟨S64x4095x3, .f32⟩
  | .hbm, ⟨41, _⟩ => ⟨S_, .f32⟩
  | .hbm, ⟨42, _⟩ => ⟨S3, .f32⟩
  | .hbm, ⟨43, _⟩ => ⟨S_, .f32⟩
  | .hbm, ⟨44, _⟩ => ⟨S3, .f32⟩
  | .hbm, ⟨45, _⟩ => ⟨S3, .f32⟩
  | .hbm, ⟨46, _⟩ => ⟨S_, .f32⟩
  | .hbm, ⟨47, _⟩ => ⟨S_, .f32⟩
  | .hbm, ⟨48, _⟩ => ⟨S64x4096x1, .f32⟩
  | .hbm, ⟨49, _⟩ => ⟨S64x4096x28, .f32⟩
  | .hbm, ⟨50, _⟩ => ⟨S64x4096x29, .f32⟩
  | .hbm, ⟨51, _⟩ => ⟨S64x4096x1, .f32⟩
  | .hbm, ⟨52, _⟩ => ⟨S64x4096x28, .f32⟩
  | .hbm, ⟨53, _⟩ => ⟨S64x4096x29, .f32⟩
  | .hbm, ⟨54, _⟩ => ⟨S64x4096x29, .f32⟩
  | .hbm, ⟨55, _⟩ => ⟨S64x4096x29, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S1x1x3, .f32⟩
  | .hbm, ⟨61, _⟩ => ⟨S3, .f32⟩
  | .hbm, ⟨62, _⟩ => ⟨S1x1x3, .f32⟩
  | .hbm, ⟨63, _⟩ => ⟨S64x4096x3, .f32⟩
  | .hbm, ⟨64, _⟩ => ⟨S64x4096x3, .f32⟩
  | .hbm, ⟨65, _⟩ => ⟨S1x1x3, .f32⟩
  | .hbm, ⟨66, _⟩ => ⟨S3, .f32⟩
  | .hbm, ⟨67, _⟩ => ⟨S1x1x3, .f32⟩
  | .hbm, ⟨68, _⟩ => ⟨S64x4096x3, .f32⟩
  | .hbm, ⟨69, _⟩ => ⟨S64x4096x3, .f32⟩
  | .hbm, ⟨70, _⟩ => ⟨S64x4096x3, .f32⟩
  | .hbm, ⟨71, _⟩ => ⟨S_, .f32⟩
  | .hbm, ⟨72, _⟩ => ⟨S64x4096, .f32⟩
  | .hbm, ⟨73, _⟩ => ⟨S64x32x3, .f32⟩
  | .hbm, ⟨74, _⟩ => ⟨S_, .f32⟩
  | .hbm, ⟨75, _⟩ => ⟨S64x32, .f32⟩
  | .hbm, ⟨76, _⟩ => ⟨S64x4096x32, .f32⟩
  | .hbm, ⟨77, _⟩ => ⟨S64x4096x1, .f32⟩
  | .hbm, ⟨78, _⟩ => ⟨S64x1x32, .f32⟩
  | .hbm, ⟨79, _⟩ => ⟨S64x4096x32, .f32⟩
  | .hbm, ⟨80, _⟩ => ⟨S64x4096x32, .f32⟩
  | .hbm, ⟨81, _⟩ => ⟨S64x4096x32, .f32⟩
  | .hbm, ⟨82, _⟩ => ⟨S_, .f32⟩
  | .hbm, ⟨83, _⟩ => ⟨S64x4096x32, .f32⟩
  | .hbm, ⟨84, _⟩ => ⟨S64x4096x32, .f32⟩
  | .hbm, ⟨85, _⟩ => ⟨S64x4096x32, .f32⟩
  | .hbm, ⟨86, _⟩ => ⟨S_, .f32⟩
  | .hbm, ⟨87, _⟩ => ⟨S64x4096x32, .f32⟩
  | .hbm, ⟨88, _⟩ => ⟨S64x4096x32, .f32⟩
  | .hbm, ⟨89, _⟩ => ⟨S64x4096x32, .f32⟩
  | .hbm, ⟨90, _⟩ => ⟨S64x1x32, .f32⟩
  | .hbm, ⟨91, _⟩ => ⟨S_, .f32⟩
  | .hbm, ⟨92, _⟩ => ⟨S64x1x32, .f32⟩
  | .hbm, ⟨93, _⟩ => ⟨S64x1x32, .f32⟩
  | .hbm, ⟨94, _⟩ => ⟨S64x4096x32, .f32⟩
  | .hbm, ⟨95, _⟩ => ⟨S64x4096x32, .f32⟩
  | .hbm, ⟨96, _⟩ => ⟨S_, .f32⟩
  | .hbm, ⟨97, _⟩ => ⟨S64x4096x32, .f32⟩
  | .hbm, ⟨98, _⟩ => ⟨S64x4096x32, .f32⟩
  | .hbm, ⟨99, _⟩ => ⟨S64x4096x32, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | _, _ => ⟨S64x4096x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_cst_10 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_11 : Ref sig .tc := ⟨.hbm, 71, rfl⟩
abbrev main_v53 : Ref sig .tc := ⟨.hbm, 72, rfl⟩
abbrev main_v54 : Ref sig .tc := ⟨.hbm, 73, rfl⟩
abbrev main_cst_12 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_13 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_14 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_15 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_16 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_17 : Ref sig .tc := ⟨.hbm, 100, rfl⟩
abbrev main_v76 : Ref sig .tc := ⟨.hbm, 101, rfl⟩
abbrev main_cst_18 : Ref sig .tc := ⟨.hbm, 102, rfl⟩
abbrev main_v77 : Ref sig .tc := ⟨.hbm, 103, rfl⟩
abbrev main_cst_19 : Ref sig .tc := ⟨.hbm, 104, rfl⟩
abbrev main_v78 : Ref sig .tc := ⟨.hbm, 105, rfl⟩
abbrev main_cst_20 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_21 : Ref sig .tc := ⟨.hbm, 110, rfl⟩
abbrev main_v82 : Ref sig .tc := ⟨.hbm, 111, rfl⟩
abbrev main_v83 : Ref sig .tc := ⟨.hbm, 112, rfl⟩

abbrev nD : Nat := 1
abbrev τ : Topo := Topo.v7x

variable {F : FTy → Type} [FloatOps F]

class Facts₀ : Prop where
  slices_S64x4096x32_S64x4096x3_0_0_1 : S64x4096x32.Slices ![0, 0, 1] S64x4096x3
  reducesTo_S64x4096x3_S3_d0_1 : S64x4096x3.ReducesTo [0, 1] S3
  h_S_ : 0 < S_.numel
  bcast_S_S3 : S_.BroadcastsInDim S3 (![] : Fin 0 → Fin S3.rank)
  reducesTo_S3_S_d0 : S3.ReducesTo [0] S_
  slices_S64x4096x3_S64x1x3_0_4095_0 : S64x4096x3.Slices ![0, 4095, 0] S64x1x3
  shapeCasts_S64x1x3_S64x3 : S64x1x3.ShapeCasts S64x3
  reducesTo_S64x3_S3_d0 : S64x3.ReducesTo [0] S3
  slices_S64x4096x3_S64x4095x3_0_1_0 : S64x4096x3.Slices ![0, 1, 0] S64x4095x3
  slices_S64x4096x3_S64x4095x3_0_0_0 : S64x4096x3.Slices ![0, 0, 0] S64x4095x3
  reducesTo_S64x4095x3_S3_d0_1 : S64x4095x3.ReducesTo [0, 1] S3
  slices_S64x4096x32_S64x4096x1_0_0_0 : S64x4096x32.Slices ![0, 0, 0] S64x4096x1
  slices_S64x4096x32_S64x4096x28_0_0_4 : S64x4096x32.Slices ![0, 0, 4] S64x4096x28
  concatenates_S64x4096x1_S64x4096x28_S64x4096x29_d2 : Shape.Concatenates [S64x4096x1, S64x4096x28] S64x4096x29 2
  reducesTo_S64x4096x29_S_d0_1_2 : S64x4096x29.ReducesTo [0, 1, 2] S_
  slices_S1x1x32_S1x1x3_0_0_1 : S1x1x32.Slices ![0, 0, 1] S1x1x3
  shapeCasts_S1x1x3_S3 : S1x1x3.ShapeCasts S3
  bcast_S3_S1x1x3_2 : S3.BroadcastsInDim S1x1x3 (![2] : Fin 1 → Fin S1x1x3.rank)
  bcast_S1x1x3_S64x4096x3_0_1_2 : S1x1x3.BroadcastsInDim S64x4096x3 (![0, 1, 2] : Fin 3 → Fin S64x4096x3.rank)
  reducesTo_S64x4096x3_S64x4096_d2 : S64x4096x3.ReducesTo [2] S64x4096
  reducesTo_S64x32x3_S64x32_d2 : S64x32x3.ReducesTo [2] S64x32
  bcast_S64x4096_S64x4096x1_0_1 : S64x4096.BroadcastsInDim S64x4096x1 (![0, 1] : Fin 2 → Fin S64x4096x1.rank)
  bcast_S64x32_S64x1x32_0_2 : S64x32.BroadcastsInDim S64x1x32 (![0, 2] : Fin 2 → Fin S64x1x32.rank)
  bcast_S64x4096x1_S64x4096x32_0_1_2 : S64x4096x1.BroadcastsInDim S64x4096x32 (![0, 1, 2] : Fin 3 → Fin S64x4096x32.rank)
  bcast_S64x1x32_S64x4096x32_0_1_2 : S64x1x32.BroadcastsInDim S64x4096x32 (![0, 1, 2] : Fin 3 → Fin S64x4096x32.rank)
  bcast_S_S64x4096x32 : S_.BroadcastsInDim S64x4096x32 (![] : Fin 0 → Fin S64x4096x32.rank)
  bcast_S_S64x1x32 : S_.BroadcastsInDim S64x1x32 (![] : Fin 0 → Fin S64x1x32.rank)
  reducesTo_S64x4096x32_S_d0_1_2 : S64x4096x32.ReducesTo [0, 1, 2] S_
  dot_S64x4096x3_S64x32x3_S64x4096x32_2_2_1_1_0_0_wf : DotDims.WF S64x4096x3 S64x32x3 S64x4096x32 [2] [2] [1] [1] [0] [0]

variable [Facts₀]

def dot_S64x4096x3_S64x32x3_S64x4096x32_2_2_1_1_0_0 : DotDims S64x4096x3 S64x32x3 S64x4096x32 where
  lhsContracting := [2]
  rhsContracting := [2]
  lhsNonContracting := [1]
  rhsNonContracting := [1]
  lhsBatch := [0]
  rhsBatch := [0]
  wf := dot_S64x4096x3_S64x32x3_S64x4096x32_2_2_1_1_0_0_wf

class Facts : Prop extends Facts₀ where

variable [Facts]
-- ==== Proof.KPieces.lean ====
/-
  What one run of the kernel's body leaves in each of the five accumulator buffers, as values: at the first grid point
  the body stores a zero block, reads it back and adds the point's term; at every later point it adds the point's term
  to what the buffer held. Each buffer is written by covering stores of its whole block, so what it ends with is the
  last store's value, a pure term of the point's input blocks and the buffer's previous contents.
-/
import proofs.«114594_j69492570849790_2_alg».proof.Defs
import proofs.«114594_j69492570849790_2_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KPieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At a later point the body leaves, in output 6's buffer holding `xo6`, its one covering store's value. -/
theorem out_B_6 (c : Dev nD) (i : grid0.Coords) (a1 : Memref sig .tc .vmem S1x4096x32 .f32) (h1 : a1.IsWhole) (a2 : Memref sig .tc .vmem S1x4096x32 .f32) (h2 : a2.IsWhole) (a3 : Memref sig .tc .vmem S1x32x3 .f32) (h3 : a3.IsWhole) (a4 : Memref sig .tc .vmem S1x1x32 .f32) (h4 : a4.IsWhole) (a5 : Memref sig .tc .vmem S1x1x32 .f32) (h5 : a5.IsWhole) (a6 : Memref sig .tc .vmem S1x1x32 .f32) (h6 : a6.IsWhole) (a7 : Memref sig .tc .vmem S1x3 .f32) (h7 : a7.IsWhole) (a8 : Memref sig .tc .vmem S1x3 .f32) (h8 : a8.IsWhole) (a9 : Memref sig .tc .vmem S1x3 .f32) (h9 : a9.IsWhole) (a10 : Memref sig .tc .vmem S1x1 .f32) (h10 : a10.IsWhole) (a11 : Memref sig .tc .vmem S1x1 .f32) (h11 : a11.IsWhole) (hc : ¬cond0_0 i) (x0 : Vec F S1x4096x32 .f32) (x1 : Vec F S1x4096x32 .f32) (x2 : Vec F S1x32x3 .f32) (x3 : Vec F S1x1x32 .f32) (x4 : Vec F S1x1x32 .f32) (x5 : Vec F S1x1x32 .f32) (xo6 : Vec F S1x3 .f32) (xo7 : Vec F S1x3 .f32) (xo8 : Vec F S1x3 .f32) (xo9 : Vec F S1x1 .f32) (xo10 : Vec F S1x1 .f32) :
    out0_B_6 c i a1 h1 a2 h2 a3 h3 a4 h4 a5 h5 a6 h6 a7 h7 a8 h8 a9 h9 a10 h10 a11 h11 hc x0 x1 x2 x3 x4 x5 xo6 xo7 xo8 xo9 xo10 = k0_pay11 x0 x1 xo6 := by
  unfold out0_B_6
  rw [View.read_writes_eq_canon _ _ _ (cover0_B_6 c i a1 h1 a2 h2 a3 h3 a4 h4 a5 h5 a6 h6 a7 h7 a8 h8 a9 h9 a10 h10 a11 h11 hc x0 x1 x2 x3 x4 x5 xo6 xo7 xo8 xo9 xo10)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, h11.read_unread, View.ld_unit_zero (S := S1x4096x32) hz3, View.ld_unit_zero (S := S1x32x3) hz3, View.ld_unit_zero (S := S1x1x32) hz3, View.ld_unit_zero (S := S1x3) hz2, View.ld_unit_zero (S := S1x1) hz2]

/-- At a later point the body leaves, in output 7's buffer holding `xo7`, its one covering store's value. -/
theorem out_B_7 (c : Dev nD) (i : grid0.Coords) (a1 : Memref sig .tc .vmem S1x4096x32 .f32) (h1 : a1.IsWhole) (a2 : Memref sig .tc .vmem S1x4096x32 .f32) (h2 : a2.IsWhole) (a3 : Memref sig .tc .vmem S1x32x3 .f32) (h3 : a3.IsWhole) (a4 : Memref sig .tc .vmem S1x1x32 .f32) (h4 : a4.IsWhole) (a5 : Memref sig .tc .vmem S1x1x32 .f32) (h5 : a5.IsWhole) (a6 : Memref sig .tc .vmem S1x1x32 .f32) (h6 : a6.IsWhole) (a7 : Memref sig .tc .vmem S1x3 .f32) (h7 : a7.IsWhole) (a8 : Memref sig .tc .vmem S1x3 .f32) (h8 : a8.IsWhole) (a9 : Memref sig .tc .vmem S1x3 .f32) (h9 : a9.IsWhole) (a10 : Memref sig .tc .vmem S1x1 .f32) (h10 : a10.IsWhole) (a11 : Memref sig .tc .vmem S1x1 .f32) (h11 : a11.IsWhole) (hc : ¬cond0_0 i) (x0 : Vec F S1x4096x32 .f32) (x1 : Vec F S1x4096x32 .f32) (x2 : Vec F S1x32x3 .f32) (x3 : Vec F S1x1x32 .f32) (x4 : Vec F S1x1x32 .f32) (x5 : Vec F S1x1x32 .f32) (xo6 : Vec F S1x3 .f32) (xo7 : Vec F S1x3 .f32) (xo8 : Vec F S1x3 .f32) (xo9 : Vec F S1x1 .f32) (xo10 : Vec F S1x1 .f32) :
    out0_B_7 c i a1 h1 a2 h2 a3 h3 a4 h4 a5 h5 a6 h6 a7 h7 a8 h8 a9 h9 a10 h10 a11 h11 hc x0 x1 x2 x3 x4 x5 xo6 xo7 xo8 xo9 xo10 = k0_pay12 x0 x1 xo7 := by
  unfold out0_B_7
  rw [View.read_writes_eq_canon _ _ _ (cover0_B_7 c i a1 h1 a2 h2 a3 h3 a4 h4 a5 h5 a6 h6 a7 h7 a8 h8 a9 h9 a10 h10 a11 h11 hc x0 x1 x2 x3 x4 x5 xo6 xo7 xo8 xo9 xo10)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, h11.read_unread, View.ld_unit_zero (S := S1x4096x32) hz3, View.ld_unit_zero (S := S1x32x3) hz3, View.ld_unit_zero (S := S1x1x32) hz3, View.ld_unit_zero (S := S1x3) hz2, View.ld_unit_zero (S := S1x1) hz2]

/-- At a later point the body leaves, in output 8's buffer holding `xo8`, its one covering store's value. -/
theorem out_B_8 (c : Dev nD) (i : grid0.Coords) (a1 : Memref sig .tc .vmem S1x4096x32 .f32) (h1 : a1.IsWhole) (a2 : Memref sig .tc .vmem S1x4096x32 .f32) (h2 : a2.IsWhole) (a3 : Memref sig .tc .vmem S1x32x3 .f32) (h3 : a3.IsWhole) (a4 : Memref sig .tc .vmem S1x1x32 .f32) (h4 : a4.IsWhole) (a5 : Memref sig .tc .vmem S1x1x32 .f32) (h5 : a5.IsWhole) (a6 : Memref sig .tc .vmem S1x1x32 .f32) (h6 : a6.IsWhole) (a7 : Memref sig .tc .vmem S1x3 .f32) (h7 : a7.IsWhole) (a8 : Memref sig .tc .vmem S1x3 .f32) (h8 : a8.IsWhole) (a9 : Memref sig .tc .vmem S1x3 .f32) (h9 : a9.IsWhole) (a10 : Memref sig .tc .vmem S1x1 .f32) (h10 : a10.IsWhole) (a11 : Memref sig .tc .vmem S1x1 .f32) (h11 : a11.IsWhole) (hc : ¬cond0_0 i) (x0 : Vec F S1x4096x32 .f32) (x1 : Vec F S1x4096x32 .f32) (x2 : Vec F S1x32x3 .f32) (x3 : Vec F S1x1x32 .f32) (x4 : Vec F S1x1x32 .f32) (x5 : Vec F S1x1x32 .f32) (xo6 : Vec F S1x3 .f32) (xo7 : Vec F S1x3 .f32) (xo8 : Vec F S1x3 .f32) (xo9 : Vec F S1x1 .f32) (xo10 : Vec F S1x1 .f32) :
    out0_B_8 c i a1 h1 a2 h2 a3 h3 a4 h4 a5 h5 a6 h6 a7 h7 a8 h8 a9 h9 a10 h10 a11 h11 hc x0 x1 x2 x3 x4 x5 xo6 xo7 xo8 xo9 xo10 = k0_pay15 (k0_pay13 xo8) (k0_pay14 x0 x1) := by
  unfold out0_B_8
  rw [View.read_writes_eq_canon _ _ _ (cover0_B_8 c i a1 h1 a2 h2 a3 h3 a4 h4 a5 h5 a6 h6 a7 h7 a8 h8 a9 h9 a10 h10 a11 h11 hc x0 x1 x2 x3 x4 x5 xo6 xo7 xo8 xo9 xo10)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, h11.read_unread, View.ld_unit_zero (S := S1x4096x32) hz3, View.ld_unit_zero (S := S1x32x3) hz3, View.ld_unit_zero (S := S1x1x32) hz3, View.ld_unit_zero (S := S1x3) hz2, View.ld_unit_zero (S := S1x1) hz2]

/-- At a later point the body leaves, in output 9's buffer holding `xo9`, its one covering store's value. -/
theorem out_B_9 (c : Dev nD) (i : grid0.Coords) (a1 : Memref sig .tc .vmem S1x4096x32 .f32) (h1 : a1.IsWhole) (a2 : Memref sig .tc .vmem S1x4096x32 .f32) (h2 : a2.IsWhole) (a3 : Memref sig .tc .vmem S1x32x3 .f32) (h3 : a3.IsWhole) (a4 : Memref sig .tc .vmem S1x1x32 .f32) (h4 : a4.IsWhole) (a5 : Memref sig .tc .vmem S1x1x32 .f32) (h5 : a5.IsWhole) (a6 : Memref sig .tc .vmem S1x1x32 .f32) (h6 : a6.IsWhole) (a7 : Memref sig .tc .vmem S1x3 .f32) (h7 : a7.IsWhole) (a8 : Memref sig .tc .vmem S1x3 .f32) (h8 : a8.IsWhole) (a9 : Memref sig .tc .vmem S1x3 .f32) (h9 : a9.IsWhole) (a10 : Memref sig .tc .vmem S1x1 .f32) (h10 : a10.IsWhole) (a11 : Memref sig .tc .vmem S1x1 .f32) (h11 : a11.IsWhole) (hc : ¬cond0_0 i) (x0 : Vec F S1x4096x32 .f32) (x1 : Vec F S1x4096x32 .f32) (x2 : Vec F S1x32x3 .f32) (x3 : Vec F S1x1x32 .f32) (x4 : Vec F S1x1x32 .f32) (x5 : Vec F S1x1x32 .f32) (xo6 : Vec F S1x3 .f32) (xo7 : Vec F S1x3 .f32) (xo8 : Vec F S1x3 .f32) (xo9 : Vec F S1x1 .f32) (xo10 : Vec F S1x1 .f32) :
    out0_B_9 c i a1 h1 a2 h2 a3 h3 a4 h4 a5 h5 a6 h6 a7 h7 a8 h8 a9 h9 a10 h10 a11 h11 hc x0 x1 x2 x3 x4 x5 xo6 xo7 xo8 xo9 xo10 = k0_pay16 (k0_pay7 x0) (k0_pay8 x1) xo9 := by
  unfold out0_B_9
  rw [View.read_writes_eq_canon _ _ _ (cover0_B_9 c i a1 h1 a2 h2 a3 h3 a4 h4 a5 h5 a6 h6 a7 h7 a8 h8 a9 h9 a10 h10 a11 h11 hc x0 x1 x2 x3 x4 x5 xo6 xo7 xo8 xo9 xo10)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, h11.read_unread, View.ld_unit_zero (S := S1x4096x32) hz3, View.ld_unit_zero (S := S1x32x3) hz3, View.ld_unit_zero (S := S1x1x32) hz3, View.ld_unit_zero (S := S1x3) hz2, View.ld_unit_zero (S := S1x1) hz2]

/-- At a later point the body leaves, in output 10's buffer holding `xo10`, its one covering store's value. -/
theorem out_B_10 (c : Dev nD) (i : grid0.Coords) (a1 : Memref sig .tc .vmem S1x4096x32 .f32) (h1 : a1.IsWhole) (a2 : Memref sig .tc .vmem S1x4096x32 .f32) (h2 : a2.IsWhole) (a3 : Memref sig .tc .vmem S1x32x3 .f32) (h3 : a3.IsWhole) (a4 : Memref sig .tc .vmem S1x1x32 .f32) (h4 : a4.IsWhole) (a5 : Memref sig .tc .vmem S1x1x32 .f32) (h5 : a5.IsWhole) (a6 : Memref sig .tc .vmem S1x1x32 .f32) (h6 : a6.IsWhole) (a7 : Memref sig .tc .vmem S1x3 .f32) (h7 : a7.IsWhole) (a8 : Memref sig .tc .vmem S1x3 .f32) (h8 : a8.IsWhole) (a9 : Memref sig .tc .vmem S1x3 .f32) (h9 : a9.IsWhole) (a10 : Memref sig .tc .vmem S1x1 .f32) (h10 : a10.IsWhole) (a11 : Memref sig .tc .vmem S1x1 .f32) (h11 : a11.IsWhole) (hc : ¬cond0_0 i) (x0 : Vec F S1x4096x32 .f32) (x1 : Vec F S1x4096x32 .f32) (x2 : Vec F S1x32x3 .f32) (x3 : Vec F S1x1x32 .f32) (x4 : Vec F S1x1x32 .f32) (x5 : Vec F S1x1x32 .f32) (xo6 : Vec F S1x3 .f32) (xo7 : Vec F S1x3 .f32) (xo8 : Vec F S1x3 .f32) (xo9 : Vec F S1x1 .f32) (xo10 : Vec F S1x1 .f32) :
    out0_B_10 c i a1 h1 a2 h2 a3 h3 a4 h4 a5 h5 a6 h6 a7 h7 a8 h8 a9 h9 a10 h10 a11 h11 hc x0 x1 x2 x3 x4 x5 xo6 xo7 xo8 xo9 xo10 = k0_pay1 (k0_pay17 (k0_pay9 x0) x4 x5) (k0_pay18 x2) x3 xo10 := by
  unfold out0_B_10
  rw [View.read_writes_eq_canon _ _ _ (cover0_B_10 c i a1 h1 a2 h2 a3 h3 a4 h4 a5 h5 a6 h6 a7 h7 a8 h8 a9 h9 a10 h10 a11 h11 hc x0 x1 x2 x3 x4 x5 xo6 xo7 xo8 xo9 xo10)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, h11.read_unread, View.ld_unit_zero (S := S1x4096x32) hz3, View.ld_unit_zero (S := S1x32x3) hz3, View.ld_unit_zero (S := S1x1x32) hz3, View.ld_unit_zero (S := S1x3) hz2, View.ld_unit_zero (S := S1x1) hz2]

/-- At the first point the body stores zeros in output 6's buffer, reads them back, and leaves the same value over them. -/
theorem out_A_6 (c : Dev nD) (i : grid0.Coords) (a1 : Memref sig .tc .vmem S1x4096x32 .f32) (h1 : a1.IsWhole) (a2 : Memref sig .tc .vmem S1x4096x32 .f32) (h2 : a2.IsWhole) (a3 : Memref sig .tc .vmem S1x32x3 .f32) (h3 : a3.IsWhole) (a4 : Memref sig .tc .vmem S1x1x32 .f32) (h4 : a4.IsWhole) (a5 : Memref sig .tc .vmem S1x1x32 .f32) (h5 : a5.IsWhole) (a6 : Memref sig .tc .vmem S1x1x32 .f32) (h6 : a6.IsWhole) (a7 : Memref sig .tc .vmem S1x3 .f32) (h7 : a7.IsWhole) (a8 : Memref sig .tc .vmem S1x3 .f32) (h8 : a8.IsWhole) (a9 : Memref sig .tc .vmem S1x3 .f32) (h9 : a9.IsWhole) (a10 : Memref sig .tc .vmem S1x1 .f32) (h10 : a10.IsWhole) (a11 : Memref sig .tc .vmem S1x1 .f32) (h11 : a11.IsWhole) (hc : cond0_0 i) (x0 : Vec F S1x4096x32 .f32) (x1 : Vec F S1x4096x32 .f32) (x2 : Vec F S1x32x3 .f32) (x3 : Vec F S1x1x32 .f32) (x4 : Vec F S1x1x32 .f32) (x5 : Vec F S1x1x32 .f32) :
    out0_A_6 c i a1 h1 a2 h2 a3 h3 a4 h4 a5 h5 a6 h6 a7 h7 a8 h8 a9 h9 a10 h10 a11 h11 hc x0 x1 x2 x3 x4 x5 = k0_pay11 x0 x1 (k0_pay2 (F := F)) := by
  unfold out0_A_6
  rw [View.read_writes_eq_canon _ _ _ (cover0_A_6 c i a1 h1 a2 h2 a3 h3 a4 h4 a5 h5 a6 h6 a7 h7 a8 h8 a9 h9 a10 h10 a11 h11 hc x0 x1 x2 x3 x4 x5)]
  unfold kernelRun0_A
  dsimp only
  sl_unfold_words
  rw [View.canon_cons_unit_zero (S := S1x3) hz2, View.readCov_unit_zero (S := S1x3) _ hz2]
  simp only [View.readAt_eq_ld, h1.read_unread, h2.read_unread, h3.read_unread, h4.read_unread, h5.read_unread, h6.read_unread, h7.read_unread, h8.read_unread, h9.read_unread, h10.read_unread, h11.read_unread, View.ld_unit_zero (S := S1x4096x32) hz3, View.ld_unit_zero (S := S1x32x3) hz3, View.ld_unit_zero (S := S1x1x32) hz3, View.ld_unit_zero (S := S1x3) hz2, View.ld_unit_zero (S := S1x1) hz2]

/-- At the first point the body stores zeros in output 7's buffer, reads them back, and leaves the same value over them. -/
theorem out_A_7 (c : Dev nD) (i : grid0.Coords) (a1 : Memref sig .tc .vmem S1x4096x32 .f32) (h1 : a1.IsWhole) (a2 : Memref sig .tc .vmem S1x4096x32 .f32) (h2 : a2.IsWhole) (a3 : Memref sig .tc .vmem S1x32x3 .f32) (h3 : a3.IsWhole) (a4 : Memref sig .tc .vmem S1x1x32 .f32) (h4 : a4.IsWhole) (a5 : Memref sig .tc .vmem S1x1x32 .f32) (h5 : a5.IsWhole) (a6 : Memref sig .tc .vmem S1x1x32 .f32) (h6 : a6.IsWhole) (a7 : Memref sig .tc .vmem S1x3 .f32) (h7 : a7.IsWhole) (a8 : Memref sig .tc .vmem S1x3 .f32) (h8 : a8.IsWhole) (a9 : Memref sig .tc .vmem S1x3 .f32) (h9 : a9.IsWhole) (a10 : Memref sig .tc .vmem S1x1 .f32) (h10 : a10.IsWhole) (a11 : Memref sig .tc .vmem S1x1 .f32) (h11 : a11.IsWhole) (hc : cond0_0 i) (x0 : Vec F S1x4096x32 .f32) (x1 : Vec F S1x4096x32 .f32) (x2 : Vec F S1x32x3 .f32) (x3 : Vec F S1x1x32 .f32) (x4 : Vec F S1x1x32 .f32) (x5 : Vec F S1x1x32 .f32) :
    out0_A_7 c i a1 h1 a2 h2 a3 h3 a4 h4 a5 h5 a6 h6 a7 h7 a8 h8 a9 h9 a10 h10 a11 h11 hc x0 x1 x2 x3 x4 x5 = k0_pay12 x0 x1 (k0_pay3 (F := F)) := by
  unfold out0_A_7
  rw [View.read_writes_eq_canon _ _ _ (cover0_A_7 c i a1 h1 a2 h2 a3 h3 a4 h4 a5 h5 a6 h6 a7 h7 a8 h8 a9 h9 a10 h10 a11 h11 hc x0 x1 x2 x3 x4 x5)]
  unfold kernelRun0_A
  dsimp only
  sl_unfold_words
  rw [View.canon_cons_unit_zero (S := S1x3) hz2, View.readCov_unit_zero (S := S1x3) _ hz2]
  simp only [View.readAt_eq_ld, h1.read_unread, h2.read_unread, h3.read_unread, h4.read_unread, h5.read_unread, h6.read_unread, h7.read_unread, h8.read_unread, h9.read_unread, h10.read_unread, h11.read_unread, View.ld_unit_zero (S := S1x4096x32) hz3, View.ld_unit_zero (S := S1x32x3) hz3, View.ld_unit_zero (S := S1x1x32) hz3, View.ld_unit_zero (S := S1x3) hz2, View.ld_unit_zero (S := S1x1) hz2]

/-- At the first point the body stores zeros in output 8's buffer, reads them back, and leaves the same value over them. -/
theorem out_A_8 (c : Dev nD) (i : grid0.Coords) (a1 : Memref sig .tc .vmem S1x4096x32 .f32) (h1 : a1.IsWhole) (a2 : Memref sig .tc .vmem S1x4096x32 .f32) (h2 : a2.IsWhole) (a3 : Memref sig .tc .vmem S1x32x3 .f32) (h3 : a3.IsWhole) (a4 : Memref sig .tc .vmem S1x1x32 .f32) (h4 : a4.IsWhole) (a5 : Memref sig .tc .vmem S1x1x32 .f32) (h5 : a5.IsWhole) (a6 : Memref sig .tc .vmem S1x1x32 .f32) (h6 : a6.IsWhole) (a7 : Memref sig .tc .vmem S1x3 .f32) (h7 : a7.IsWhole) (a8 : Memref sig .tc .vmem S1x3 .f32) (h8 : a8.IsWhole) (a9 : Memref sig .tc .vmem S1x3 .f32) (h9 : a9.IsWhole) (a10 : Memref sig .tc .vmem S1x1 .f32) (h10 : a10.IsWhole) (a11 : Memref sig .tc .vmem S1x1 .f32) (h11 : a11.IsWhole) (hc : cond0_0 i) (x0 : Vec F S1x4096x32 .f32) (x1 : Vec F S1x4096x32 .f32) (x2 : Vec F S1x32x3 .f32) (x3 : Vec F S1x1x32 .f32) (x4 : Vec F S1x1x32 .f32) (x5 : Vec F S1x1x32 .f32) :
    out0_A_8 c i a1 h1 a2 h2 a3 h3 a4 h4 a5 h5 a6 h6 a7 h7 a8 h8 a9 h9 a10 h10 a11 h11 hc x0 x1 x2 x3 x4 x5 = k0_pay15 (k0_pay13 (k0_pay4 (F := F))) (k0_pay14 x0 x1) := by
  unfold out0_A_8
  rw [View.read_writes_eq_canon _ _ _ (cover0_A_8 c i a1 h1 a2 h2 a3 h3 a4 h4 a5 h5 a6 h6 a7 h7 a8 h8 a9 h9 a10 h10 a11 h11 hc x0 x1 x2 x3 x4 x5)]
  unfold kernelRun0_A
  dsimp only
  sl_unfold_words
  rw [View.canon_cons_unit_zero (S := S1x3) hz2, View.readCov_unit_zero (S := S1x3) _ hz2]
  simp only [View.readAt_eq_ld, h1.read_unread, h2.read_unread, h3.read_unread, h4.read_unread, h5.read_unread, h6.read_unread, h7.read_unread, h8.read_unread, h9.read_unread, h10.read_unread, h11.read_unread, View.ld_unit_zero (S := S1x4096x32) hz3, View.ld_unit_zero (S := S1x32x3) hz3, View.ld_unit_zero (S := S1x1x32) hz3, View.ld_unit_zero (S := S1x3) hz2, View.ld_unit_zero (S := S1x1) hz2]

/-- At the first point the body stores zeros in output 9's buffer, reads them back, and leaves the same value over them. -/
theorem out_A_9 (c : Dev nD) (i : grid0.Coords) (a1 : Memref sig .tc .vmem S1x4096x32 .f32) (h1 : a1.IsWhole) (a2 : Memref sig .tc .vmem S1x4096x32 .f32) (h2 : a2.IsWhole) (a3 : Memref sig .tc .vmem S1x32x3 .f32) (h3 : a3.IsWhole) (a4 : Memref sig .tc .vmem S1x1x32 .f32) (h4 : a4.IsWhole) (a5 : Memref sig .tc .vmem S1x1x32 .f32) (h5 : a5.IsWhole) (a6 : Memref sig .tc .vmem S1x1x32 .f32) (h6 : a6.IsWhole) (a7 : Memref sig .tc .vmem S1x3 .f32) (h7 : a7.IsWhole) (a8 : Memref sig .tc .vmem S1x3 .f32) (h8 : a8.IsWhole) (a9 : Memref sig .tc .vmem S1x3 .f32) (h9 : a9.IsWhole) (a10 : Memref sig .tc .vmem S1x1 .f32) (h10 : a10.IsWhole) (a11 : Memref sig .tc .vmem S1x1 .f32) (h11 : a11.IsWhole) (hc : cond0_0 i) (x0 : Vec F S1x4096x32 .f32) (x1 : Vec F S1x4096x32 .f32) (x2 : Vec F S1x32x3 .f32) (x3 : Vec F S1x1x32 .f32) (x4 : Vec F S1x1x32 .f32) (x5 : Vec F S1x1x32 .f32) :
    out0_A_9 c i a1 h1 a2 h2 a3 h3 a4 h4 a5 h5 a6 h6 a7 h7 a8 h8 a9 h9 a10 h10 a11 h11 hc x0 x1 x2 x3 x4 x5 = k0_pay16 (k0_pay7 x0) (k0_pay8 x1) (k0_pay5 (F := F)) := by
  unfold out0_A_9
  rw [View.read_writes_eq_canon _ _ _ (cover0_A_9 c i a1 h1 a2 h2 a3 h3 a4 h4 a5 h5 a6 h6 a7 h7 a8 h8 a9 h9 a10 h10 a11 h11 hc x0 x1 x2 x3 x4 x5)]
  unfold kernelRun0_A
  dsimp only
  sl_unfold_words
  rw [View.canon_cons_unit_zero (S := S1x1) hz2, View.readCov_unit_zero (S := S1x1) _ hz2]
  simp only [View.readAt_eq_ld, h1.read_unread, h2.read_unread, h3.read_unread, h4.read_unread, h5.read_unread, h6.read_unread, h7.read_unread, h8.read_unread, h9.read_unread, h10.read_unread, h11.read_unread, View.ld_unit_zero (S := S1x4096x32) hz3, View.ld_unit_zero (S := S1x32x3) hz3, View.ld_unit_zero (S := S1x1x32) hz3, View.ld_unit_zero (S := S1x3) hz2, View.ld_unit_zero (S := S1x1) hz2]

/-- At the first point the body stores zeros in output 10's buffer, reads them back, and leaves the same value over them. -/
theorem out_A_10 (c : Dev nD) (i : grid0.Coords) (a1 : Memref sig .tc .vmem S1x4096x32 .f32) (h1 : a1.IsWhole) (a2 : Memref sig .tc .vmem S1x4096x32 .f32) (h2 : a2.IsWhole) (a3 : Memref sig .tc .vmem S1x32x3 .f32) (h3 : a3.IsWhole) (a4 : Memref sig .tc .vmem S1x1x32 .f32) (h4 : a4.IsWhole) (a5 : Memref sig .tc .vmem S1x1x32 .f32) (h5 : a5.IsWhole) (a6 : Memref sig .tc .vmem S1x1x32 .f32) (h6 : a6.IsWhole) (a7 : Memref sig .tc .vmem S1x3 .f32) (h7 : a7.IsWhole) (a8 : Memref sig .tc .vmem S1x3 .f32) (h8 : a8.IsWhole) (a9 : Memref sig .tc .vmem S1x3 .f32) (h9 : a9.IsWhole) (a10 : Memref sig .tc .vmem S1x1 .f32) (h10 : a10.IsWhole) (a11 : Memref sig .tc .vmem S1x1 .f32) (h11 : a11.IsWhole) (hc : cond0_0 i) (x0 : Vec F S1x4096x32 .f32) (x1 : Vec F S1x4096x32 .f32) (x2 : Vec F S1x32x3 .f32) (x3 : Vec F S1x1x32 .f32) (x4 : Vec F S1x1x32 .f32) (x5 : Vec F S1x1x32 .f32) :
    out0_A_10 c i a1 h1 a2 h2 a3 h3 a4 h4 a5 h5 a6 h6 a7 h7 a8 h8 a9 h9 a10 h10 a11 h11 hc x0 x1 x2 x3 x4 x5 = k0_pay1 (k0_pay17 (k0_pay9 x0) x4 x5) (k0_pay18 x2) x3 (k0_pay6 (F := F)) := by
  unfold out0_A_10
  rw [View.read_writes_eq_canon _ _ _ (cover0_A_10 c i a1 h1 a2 h2 a3 h3 a4 h4 a5 h5 a6 h6 a7 h7 a8 h8 a9 h9 a10 h10 a11 h11 hc x0 x1 x2 x3 x4 x5)]
  unfold kernelRun0_A
  dsimp only
  sl_unfold_words
  rw [View.canon_cons_unit_zero (S := S1x1) hz2, View.readCov_unit_zero (S := S1x1) _ hz2]
  simp only [View.readAt_eq_ld, h1.read_unread, h2.read_unread, h3.read_unread, h4.read_unread, h5.read_unread, h6.read_unread, h7.read_unread, h8.read_unread, h9.read_unread, h10.read_unread, h11.read_unread, View.ld_unit_zero (S := S1x4096x32) hz3, View.ld_unit_zero (S := S1x32x3) hz3, View.ld_unit_zero (S := S1x1x32) hz3, View.ld_unit_zero (S := S1x3) hz2, View.ld_unit_zero (S := S1x1) hz2]

end Cert.KPieces

end
-- ==== Proof.Spec.lean ====
/-
  The loss both programs compute, written once as functions of the six argument arrays over the extended reals.

  For a batch entry `b`, a time step `s` and a feature `f`, `P (b, s, f)` is the predicted trajectory and `G (b, s, f)`
  the true one; features 1, 2, 3 are the position's coordinates. Five sums are accumulated over the batch:
  the squared position error per coordinate (`posTerm`), the squared error at the last step (`lastTerm`), the squared
  error of the step-to-step differences (`velTerm`), the squared error of the 29 other features (`otherTerm`: feature 0,
  then features 4 … 31), and the obstacle penalty (`obsTerm`): the position is scaled and shifted per coordinate
  (`posDn`), its distance to each of the 32 obstacle centres is taken, and what the margin 2.2 · radius exceeds that
  distance by, clipped at zero, is squared and summed. The squared distance has two spellings: the sum of the squared
  coordinate differences (`dist2Diff`) and |p|² + |c|² − 2 p·c (`dist2Dot`); on finite entries they are the same
  number. The four results divide the sums by the element counts and combine them with fixed weights.
-/
import Idealize.ShloMosaic.PureOps.Ideal
import Idealize.ShloMosaic.PureOps.Ideal.Laws
import Idealize.ShloMosaic.Lib.ValueIdx

noncomputable section

namespace Cert.Loss

open Idealize.ShloMosaic Idealize.ShloMosaic.ValueIdx

abbrev Traj : Type := (⟨3, ![64, 4096, 32]⟩ : Shape).Idx → EReal
abbrev Centers : Type := (⟨3, ![64, 32, 3]⟩ : Shape).Idx → EReal
abbrev Radii : Type := (⟨2, ![64, 32]⟩ : Shape).Idx → EReal
abbrev Stats : Type := (⟨3, ![1, 1, 32]⟩ : Shape).Idx → EReal

/-- The feature holding position coordinate `j`: features 1, 2, 3. -/
def posF (j : Fin 3) : Fin 32 := ⟨j.val + 1, by omega⟩
/-- The `l`-th of the features after the position: features 4 … 31. -/
def restF (l : Fin 28) : Fin 32 := ⟨l.val + 4, by omega⟩
/-- Step `s + 1` and step `s` of the 4095 consecutive pairs of steps. -/
def nextS (s : Fin 4095) : Fin 4096 := ⟨s.val + 1, by omega⟩
def prevS (s : Fin 4095) : Fin 4096 := ⟨s.val, by omega⟩
/-- The last step. -/
def lastS : Fin 4096 := ⟨4095, by omega⟩

/-- A square, as the product both programs form. -/
def sq (x : EReal) : EReal := x * x

variable (P G : Traj) (C : Centers) (R : Radii) (M Sd : Stats)

/-- The error of feature `f` at `(b, s)`. -/
def err (b : Fin 64) (s : Fin 4096) (f : Fin 32) : EReal := P (ix3 b s f) - G (ix3 b s f)

def posTerm (b : Fin 64) (j : Fin 3) : EReal := ∑ s : Fin 4096, sq (err P G b s (posF j))

def lastTerm (b : Fin 64) (j : Fin 3) : EReal := sq (err P G b lastS (posF j))

def velTerm (b : Fin 64) (j : Fin 3) : EReal :=
  ∑ s : Fin 4095, sq ((P (ix3 b (nextS s) (posF j)) - P (ix3 b (prevS s) (posF j)))
    - (G (ix3 b (nextS s) (posF j)) - G (ix3 b (prevS s) (posF j))))

def otherTerm (b : Fin 64) : EReal :=
  (∑ s : Fin 4096, sq (err P G b s 0)) + ∑ l : Fin 28, ∑ s : Fin 4096, sq (err P G b s (restF l))

/-- The position at `(b, s)`, coordinate `d`, scaled by the deviation and shifted by the mean of its feature. -/
def posDn (b : Fin 64) (s : Fin 4096) (d : Fin 3) : EReal :=
  P (ix3 b s (posF d)) * Sd (ix3 0 0 (posF d)) + M (ix3 0 0 (posF d))

/-- The squared distance from that position to centre `k` of batch entry `b`, as a sum of squared differences. -/
def dist2Diff (b : Fin 64) (s : Fin 4096) (k : Fin 32) : EReal :=
  ∑ d : Fin 3, sq (posDn P M Sd b s d - C (ix3 b k d))

/-- The number 2 as the reference writes it. -/
def two : EReal := Ideal.ofBits .f32 0x40000000#32

/-- The same squared distance as |p|² + |c|² − 2 p·c. -/
def dist2Dot (b : Fin 64) (s : Fin 4096) (k : Fin 32) : EReal :=
  ((∑ d : Fin 3, posDn P M Sd b s d * posDn P M Sd b s d) + ∑ d : Fin 3, C (ix3 b k d) * C (ix3 b k d))
    - two * ∑ d : Fin 3, posDn P M Sd b s d * C (ix3 b k d)

/-- The safety factor 2.2 as both programs write it (the same binary word). -/
def margin : EReal := Ideal.ofBits .f32 0x400CCCCD#32

/-- The penalty at centre `k` of batch entry `b` for a squared distance `d2`. -/
def penalty (b : Fin 64) (k : Fin 32) (d2 : EReal) : EReal :=
  max (margin * R (ix2 b k) - Ideal.sqrt (max d2 0)) 0

/-- The obstacle term of batch entry `b` for a given spelling `D` of the squared distance. -/
def obsTerm (D : Fin 64 → Fin 4096 → Fin 32 → EReal) (b : Fin 64) : EReal :=
  ∑ k : Fin 32, ∑ s : Fin 4096, sq (penalty R b k (D b s k))

/-! ## The sums over the batch and the four results -/

def posSum (j : Fin 3) : EReal := ∑ b : Fin 64, posTerm P G b j
def lastSum (j : Fin 3) : EReal := ∑ b : Fin 64, lastTerm P G b j
def velSum (j : Fin 3) : EReal := ∑ b : Fin 64, velTerm P G b j
def otherSum : EReal := ∑ b : Fin 64, otherTerm P G b
def obsSum (D : Fin 64 → Fin 4096 → Fin 32 → EReal) : EReal := ∑ b : Fin 64, obsTerm R D b

/-- The divisors and weights, as the binary words both programs hold: 64 · 4096, 64, 64 · 4095, 64 · 4096 · 29, 10, 2, 1/2. -/
def nBS : EReal := Ideal.ofBits .f32 0x48800000#32
def nB : EReal := Ideal.ofBits .f32 0x42800000#32
def nBV : EReal := Ideal.ofBits .f32 0x487FF000#32
def nOther : EReal := Ideal.ofBits .f32 0x4AE80000#32
def ten : EReal := Ideal.ofBits .f32 0x41200000#32
def half : EReal := Ideal.ofBits .f32 0x3F000000#32

def posMse : EReal := ∑ j : Fin 3, Ideal.div (posSum P G j) nBS
def lastMse : EReal := ∑ j : Fin 3, Ideal.div (lastSum P G j) nB
def positionLoss : EReal := posMse P G + ten * lastMse P G
def velLoss : EReal := ∑ j : Fin 3, Ideal.div (velSum P G j) nBV
def otherLoss : EReal := Ideal.div (otherSum P G) nOther
def obstacleLoss (obs : EReal) : EReal := Ideal.div obs nBS
def totalLoss (obs : EReal) : EReal :=
  ((two * positionLoss P G + half * velLoss P G) + otherLoss P G) + ten * obstacleLoss obs

end Cert.Loss

end
-- ==== Proof.LibFirstAxis.lean ====
/-
  A sum over the FIRST axis of a rank-2 array, read at an index written by coordinates, for any extents: at column `u`
  it is the `Fin`-indexed sum over the rows `k` of the entries `(k, u)`. (The last-axis form — a row sum — has the same
  shape with the roles of the axes exchanged; this is the column sum that follows it when a whole matrix is totalled in
  two steps.)
-/
import Idealize.ShloMosaic.Lib.Pipeline.Value
import Idealize.ShloMosaic.Lib.ValueIdx
import Idealize.ShloMosaic.PureOps.Ideal.Laws

namespace Cert.LibFirstAxis

open Idealize.ShloMosaic Idealize.ShloMosaic.ValueIdx

/-- The reduced index of a sum over the first axis of an `[a, b]` array, with the coordinate put back: `(k, u)`. -/
theorem lift_first2 {a b : ℕ} (h : (⟨2, ![a, b]⟩ : Shape).Reduces [0] (⟨1, ![b]⟩ : Shape)) (u : Fin b)
    (k : Fin ((⟨2, ![a, b]⟩ : Shape).size 0)) : h.lift (ix1 u) k = ix2 (⟨k.val, k.isLt⟩ : Fin a) u := by
  funext ax; apply Fin.ext
  fin_cases ax <;> rfl

/-- The sum over the first axis of an `[a, b]` array at the ideal values, at `u`: the sum over `k` of the entries `(k, u)`. -/
theorem sum_first2_apply {a b : ℕ} {φ : FTy} (src : FVec Ideal ⟨2, ![a, b]⟩ φ) (acc : BitVec φ.bits)
    (h : (⟨2, ![a, b]⟩ : Shape).Reduces [0] (⟨1, ![b]⟩ : Shape)) (hφ : FKind.Formats φ) (hacc : acc = FKind.add.neutral φ hφ)
    (u : Fin b) :
    multiReduction .add [0] ⟨1, ![b]⟩ src acc h hφ hacc (ix1 u) = ∑ k : Fin a, src (ix2 k u) :=
  (Ideal.multiReduction_add_single src acc h hφ hacc (ix1 u)).trans
    (Finset.sum_congr rfl fun k _ => congrArg src (lift_first2 h u k))

end Cert.LibFirstAxis
-- ==== Proof.LibKeepdims.lean ====
/-
  Reductions over one axis of a rank-2 or rank-3 array, and the layout operations that put the reduced axis back as a
  unit axis and spread it again, read at an index written by coordinates, for any extents. A sum over an axis is the
  `Fin`-indexed sum over that axis's coordinates; a maximum is the fold of `max` over them from the accumulator's
  value.
-/
import Idealize.ShloMosaic.Lib.Pipeline.Value
import Idealize.ShloMosaic.Lib.ValueIdx
import Idealize.ShloMosaic.Lib.ValueLayout
import Idealize.ShloMosaic.PureOps.Ideal.Laws

namespace Cert.LibKeepdims

open Idealize.ShloMosaic Idealize.ShloMosaic.ValueIdx

variable {α : Type}

/-! ## Layout -/

/-- An `[a, c]` array cast to `[a, 1, c]` reads, at `(p, u, k)`, the operand at `(p, k)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (k : Fin c) :
    shapeCast ⟨3, ![a, 1, c]⟩ x h (ix3 p u k) = x (ix2 p k) :=
  shapeCast_apply x h _ _ (by
    have hu : u.val = 0 := by omega
    rw [Shape.rowMajor_val_two, Shape.rowMajor_val_three]
    show p.val * c + k.val = (p.val * 1 + u.val) * c + k.val
    rw [hu, Nat.mul_one, Nat.add_zero])

/-- An `[a, b]` array cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- An `[a, 1, c]` array broadcast to `[a, b, c]` reads, at `(p, q, k)`, the operand at `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- An `[a, b, 1]` array broadcast to `[a, b, c]` reads, at `(p, q, k)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-! ## The reduced index with the coordinate put back -/

theorem lift_mid3 {a b c : ℕ} (h : (⟨3, ![a, b, c]⟩ : Shape).Reduces [1] (⟨2, ![a, c]⟩ : Shape)) (p : Fin a) (k : Fin c)
    (q : Fin ((⟨3, ![a, b, c]⟩ : Shape).size 1)) : h.lift (ix2 p k) q = ix3 p (⟨q.val, q.isLt⟩ : Fin b) k := by
  funext ax; apply Fin.ext
  fin_cases ax <;> rfl

theorem lift_last3 {a b c : ℕ} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext ax; apply Fin.ext
  fin_cases ax <;> rfl

theorem lift_last2 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext ax; apply Fin.ext
  fin_cases ax <;> rfl

/-! ## Sums and maxima over one axis, at the ideal values -/

variable {φ : FTy}

/-- The sum over the middle axis of an `[a, b, c]` array, at `(p, k)`: the sum over `q` of the entries `(p, q, k)`. -/
theorem sum_mid3_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.add.neutral φ hφ)
    (p : Fin a) (k : Fin c) :
    multiReduction .add [1] ⟨2, ![a, c]⟩ src acc h hφ hacc (ix2 p k) = ∑ q : Fin b, src (ix3 p q k) :=
  (Ideal.multiReduction_add_single src acc h hφ hacc (ix2 p k)).trans
    (Finset.sum_congr rfl fun q _ => congrArg src (lift_mid3 h p k q))

/-- The sum over the last axis of an `[a, b, c]` array, at `(p, q)`: the sum over `k` of the entries `(p, q, k)`. -/
theorem sum_last3_apply {a b c : ℕ} (src : FVec Ideal ⟨3, ![a, b, c]⟩ φ) (acc : BitVec φ.bits)
    (h : (⟨3, ![a, b, c]⟩ : Shape).Reduces [2] (⟨2, ![a, b]⟩ : Shape)) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) :=
  (Ideal.multiReduction_add_single src acc h hφ hacc (ix2 p q)).trans
    (Finset.sum_congr rfl fun k _ => congrArg src (lift_last3 h p q k))

/-- The sum over the last axis of an `[a, b]` array, at `p`: the sum over `k` of the entries `(p, k)`. -/
theorem sum_last2_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_last2 h p k))

/-- The maximum over the middle axis of an `[a, b, c]` array, at `(p, k)`: the fold of `max`, from the accumulator's
    value, over the entries `(p, q, k)`. -/
theorem max_mid3_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.maximumf.neutral φ hφ)
    (p : Fin a) (k : Fin c) :
    multiReduction .maximumf [1] ⟨2, ![a, c]⟩ src acc h hφ hacc (ix2 p k)
      = (Finset.univ : Finset (Fin b)).fold max (Ideal.ofBits φ acc) (fun q : Fin b => src (ix3 p q k)) := by
  refine (Ideal.multiReduction_maximumf_single src acc h hφ hacc (ix2 p k)).trans ?_
  have hf : (src ∘ h.lift (ix2 p k)) = fun q : Fin b => src (ix3 p q k) := funext fun q => congrArg src (lift_mid3 h p k q)
  exact congrArg (fun f => Finset.fold max (Ideal.ofBits φ acc) f (Finset.univ : Finset (Fin b))) hf

/-- The maximum over the last axis of an `[a, b]` array, at `p`: the fold of `max`, from the accumulator's value, over
    the entries `(p, k)`. -/
theorem max_last2_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k : Fin b => src (ix2 p k)) := by
  refine (Ideal.multiReduction_maximumf_single src acc h hφ hacc (ix1 p)).trans ?_
  have hf : (src ∘ h.lift (ix1 p)) = fun k : Fin b => src (ix2 p k) := funext fun k => congrArg src (lift_last2 h p k)
  exact congrArg (fun f => Finset.fold max (Ideal.ofBits φ acc) f (Finset.univ : Finset (Fin b))) hf

/-! ## The pointwise transcendentals at an index -/

theorem exp_apply {s : Shape} (x : FVec Ideal s φ) (i : s.Idx) : exp x i = Ideal.exp (x i) := rfl
theorem log_apply {s : Shape} (x : FVec Ideal s φ) (i : s.Idx) : log x i = Ideal.log (x i) := rfl

end Cert.LibKeepdims
-- ==== Proof.LibLayout3.lean ====
/-
  Layout operations on rank-3 vectors read at an index written by coordinates, for any extents: two leading axes merged
  into one by a shape cast (and split again), a leading unit axis broadcast over many, and one row broadcast over a
  whole [c, a, b] box. Each is the general read-at-an-index lemma with its arithmetic side condition discharged.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a, b, c]` array cast to `[n, c]` (so `n = a · b`) reads, at row `r = p · b + q` and column `k`, the operand at
    `(p, q, k)`: both have row-major position `(p · b + q) · c + k`. -/
theorem shapeCast_abc_nc_apply {a b c n : ℕ} (x : (⟨3, ![a, b, c]⟩ : Shape).Idx → α)
    (h : (⟨3, ![a, b, c]⟩ : Shape).ShapeCasts ⟨2, ![n, c]⟩) (r : Fin n) (k : Fin c) (p : Fin a) (q : Fin b)
    (hr : r.val = p.val * b + q.val) :
    shapeCast ⟨2, ![n, c]⟩ x h (ix2 r k) = x (ix3 p q k) :=
  shapeCast_apply x h _ _ (by
    rw [Shape.rowMajor_val_three, Shape.rowMajor_val_two]
    show (p.val * b + q.val) * c + k.val = r.val * c + k.val
    rw [hr])

/-- An `[n, c]` array cast to `[a, b, c]` reads, at `(p, q, k)`, the operand at row `r = p · b + q`, column `k`. -/
theorem shapeCast_nc_abc_apply {a b c n : ℕ} (y : (⟨2, ![n, c]⟩ : Shape).Idx → α)
    (h : (⟨2, ![n, c]⟩ : Shape).ShapeCasts ⟨3, ![a, b, c]⟩) (p : Fin a) (q : Fin b) (k : Fin c) (r : Fin n)
    (hr : r.val = p.val * b + q.val) :
    shapeCast ⟨3, ![a, b, c]⟩ y h (ix3 p q k) = y (ix2 r k) :=
  shapeCast_apply y h _ _ (by
    rw [Shape.rowMajor_val_two, Shape.rowMajor_val_three]
    show r.val * c + k.val = (p.val * b + q.val) * c + k.val
    rw [hr])

/-- A `[1, a, b]` array broadcast to `[c, a, b]` reads, at `(p, i, j)`, the operand's one slab at `(i, j)`. -/
theorem broadcastTo_1ab_cab_apply {a b c : ℕ} (v : (⟨3, ![1, a, b]⟩ : Shape).Idx → α)
    (h : (⟨3, ![1, a, b]⟩ : Shape).Broadcasts ⟨3, ![c, a, b]⟩) (p : Fin c) (i : Fin a) (j : Fin b) :
    broadcastTo ⟨3, ![c, a, b]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- A `[1, 1, b]` array broadcast to `[c, a, b]` reads, at `(p, i, j)`, the operand's one row at `j`. -/
theorem broadcastTo_11b_cab_apply {a b c : ℕ} (v : (⟨3, ![1, 1, b]⟩ : Shape).Idx → α)
    (h : (⟨3, ![1, 1, b]⟩ : Shape).Broadcasts ⟨3, ![c, a, b]⟩) (p : Fin c) (i : Fin a) (j : Fin b) :
    broadcastTo ⟨3, ![c, a, b]⟩ v h (ix3 p i j) = v (ix3 (0 : Fin 1) (0 : Fin 1) j) := by
  refine broadcastTo_apply v h (ix3 p i j) (ix3 (0 : Fin 1) (0 : Fin 1) j) fun ax => ?_
  match ax with
  | ⟨0, _⟩ => rfl
  | ⟨1, _⟩ => rfl
  | ⟨2, _⟩ =>
    show j.val = if b = 1 then 0 else j.val
    split
    · have := j.isLt; omega
    · rfl

end Idealize.ShloMosaic.ValueIdx
-- ==== Proof.LibSums3.lean ====
/-
  Finite sums over array indices and three small layout reads, for any extents. A sum over a rank-3 index set is the
  threefold sum over its coordinates, a sum over a rank-1 index set the sum over its one coordinate, and a sum over the
  indices of a `[1, a]` array the sum over its `a` columns. The host's float sum over the FIRST TWO axes of an
  `[a, b, c]` array, read at `j`, is the initial value plus the double sum over the first two coordinates of the entries
  `(p, q, j)` (the library reads a sum over one axis, or a total over every axis; this is the case between them). A
  `[1, 1, a]` array cast to `[a]` reads, at `i`, the entry `(0, 0, i)`, and a `[1, 1]` array cast to a scalar reads its one entry.
-/
import Idealize.ShloMosaic.PureOps.Ideal
import Idealize.ShloMosaic.PureOps.Ideal.Laws
import Idealize.ShloMosaic.Lib.Pipeline.Value
import Idealize.ShloMosaic.Lib.ValueIdx

noncomputable section

namespace Cert.LibSums3

open Idealize.ShloMosaic Idealize.ShloMosaic.ValueIdx

/-! ## Sums over index sets -/

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- So a sum over it is the threefold sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]
  rfl

/-- A sum over the indices of a `[1, a]` array is the sum over its `a` columns. -/
theorem sum_idx_1a {M : Type*} [AddCommMonoid M] {a : Nat} (f : (⟨2, ![1, a]⟩ : Shape).Idx → M) :
    ∑ i, f i = ∑ j : Fin a, f (ix2 (0 : Fin 1) j) := by
  rw [sum_idx2]
  exact Fin.sum_univ_one _

/-- The host's float sum over the first two axes of an `[a, b, c]` array, at `j`: the initial value plus the double sum
    over the first two coordinates of the entries `(p, q, j)`. -/
theorem hostSum_first2of3 {a b c : ℕ} (x : (⟨3, ![a, b, c]⟩ : Shape).Idx → EReal) (init : EReal)
    (h' : (⟨3, ![a, b, c]⟩ : Shape).ReducesTo [0, 1] (⟨1, ![c]⟩ : Shape)) (j : Fin c) :
    Ideal.hostReduceAdd h' x init (ix1 j) = init + ∑ p : Fin a, ∑ q : Fin b, x (ix3 p q j) := by
  unfold Ideal.hostReduceAdd
  refine congrArg (init + ·) ?_
  rw [Finset.sum_filter, sum_idx3]
  refine Finset.sum_congr rfl fun p _ => Finset.sum_congr rfl fun q _ => ?_
  have key : ∀ r : Fin c, (h'.drop (ix3 p q r) = ix1 j) ↔ r = j := fun r => by
    have hv : ∀ r' : Fin c, ((h'.drop (ix3 p q r') 0 : Fin _) : ℕ) = r'.val := fun r' => rfl
    constructor
    · intro e
      have e0 : ((h'.drop (ix3 p q r) 0 : Fin _) : ℕ) = j.val := by rw [e]; rfl
      exact Fin.ext ((hv r).symm.trans e0)
    · rintro rfl
      funext d
      match d with
      | ⟨0, _⟩ => exact Fin.ext (hv r)
  simp only [key, Finset.sum_ite_eq', Finset.mem_univ, if_true]

/-! ## Two casts that drop unit axes -/

/-- A `[1, 1, a]` array cast to `[a]` reads, at `i`, the operand at `(0, 0, i)`. -/
theorem shapeCast_11a_a_apply {α : Type} {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    omega)

/-- A `[1, 1]` array cast to a scalar reads its one entry. -/
theorem shapeCast_11_scalar_apply {α : Type} (x : (⟨2, ![1, 1]⟩ : Shape).Idx → α)
    (h : (⟨2, ![1, 1]⟩ : Shape).ShapeCasts ⟨0, ![]⟩) (i : (⟨0, ![]⟩ : Shape).Idx) :
    shapeCast ⟨0, ![]⟩ x h i = x (ix2 (0 : Fin 1) (0 : Fin 1)) := by
  unfold shapeCast
  refine congrArg x ?_
  exact (eq_ix2 _).trans (congrArg₂ ix2 (Subsingleton.elim _ _) (Subsingleton.elim _ _))

end Cert.LibSums3

end
-- ==== Proof.KPayload.lean ====
/-
  The five values the body stores, read at an index over the extended reals. Each is the buffer's previous entry plus
  the point's term of the loss: a column sum of squared position errors, the squared error of the last row, a column
  sum of squared differences of consecutive rows, the total squared error of feature 0 and of features 4 … 31, and the
  total squared penalty over the 32 centres and the 4096 rows. The point's blocks enter through hypotheses that say
  which entries of the whole arrays they hold, so the conclusions are stated with the loss's own terms.
-/
import proofs.«114594_j69492570849790_2_alg».proof.Proof.Gen.KernelIdeal.Skeleton
import proofs.«114594_j69492570849790_2_alg».proof.Proof.Spec
import proofs.«114594_j69492570849790_2_alg».proof.Proof.LibFirstAxis
import proofs.«114594_j69492570849790_2_alg».proof.Proof.LibKeepdims
import proofs.«114594_j69492570849790_2_alg».proof.Proof.LibLayout3
import proofs.«114594_j69492570849790_2_alg».proof.Proof.LibSums3
import Idealize.ShloMosaic.Lib.Pipeline.Value
import Idealize.ShloMosaic.Lib.ValueIdx
import Idealize.ShloMosaic.Lib.ValueLayout
import Idealize.ShloMosaic.PureOps.Ideal.Laws

noncomputable section

namespace Cert.KPayload

open Cert.KernelIdeal Cert.KernelIdeal.Gen Cert.Loss Cert.LibSums3 Idealize.ShloMosaic Idealize.ShloMosaic.ValueIdx

/-! ## Small reads -/

/-- The square of a vector's entry, when the entry is known. -/
theorem sq_apply {s : Shape} (w : FVec Ideal s .f32) (i : s.Idx) (y : EReal) (h : w i = y) : mulf w w i = Loss.sq y := by
  show w i * w i = y * y
  rw [h]

/-- The last-axis window `[1, 1, 32] → [1, 1, 3]` from offset 1 reads coordinate `d` at feature `d + 1`. -/
theorem statSlice_apply (x : FVec Ideal S1x1x32 .f32) (h : S1x1x32.Slices ![0, 0, 1] S1x1x3) (d : Fin 3) :
    extractStridedSlice S1x1x3 ![0, 0, 1] x h (ix3 (0 : Fin 1) (0 : Fin 1) d) = x (ix3 (0 : Fin 1) (0 : Fin 1) (posF d)) :=
  extractStridedSlice_apply _ _ _ _ _ (fun ax => by
    match ax with
    | ⟨0, _⟩ => rfl
    | ⟨1, _⟩ => rfl
    | ⟨2, _⟩ => show d.val + 1 = 1 + d.val; omega)

/-- A trajectory block with its unit batch axis dropped. -/
theorem pay7_apply (x : Vec Ideal S1x4096x32 .f32) (s : Fin 4096) (f : Fin 32) :
    k0_pay7 (F := Ideal) x (ix2 s f) = x (ix3 (0 : Fin 1) s f) := by
  unfold k0_pay7
  exact shapeCast_1ab_ab_apply x _ s f

theorem pay8_apply (x : Vec Ideal S1x4096x32 .f32) (s : Fin 4096) (f : Fin 32) :
    k0_pay8 (F := Ideal) x (ix2 s f) = x (ix3 (0 : Fin 1) s f) := by
  unfold k0_pay8
  exact shapeCast_1ab_ab_apply x _ s f

/-- The position columns of a trajectory block: coordinate `j` is feature `j + 1`. -/
theorem pay9_apply (x : Vec Ideal S1x4096x32 .f32) (s : Fin 4096) (j : Fin 3) :
    k0_pay9 (F := Ideal) x (ix2 s j) = x (ix3 (0 : Fin 1) s (posF j)) := by
  unfold k0_pay9
  refine (slice2_axis1_apply 1 (k0_pay7 x) _ s j (posF j) (by show j.val + 1 = 1 + j.val; omega)).trans ?_
  exact pay7_apply x s (posF j)

theorem pay10_apply (x : Vec Ideal S1x4096x32 .f32) (s : Fin 4096) (j : Fin 3) :
    k0_pay10 (F := Ideal) x (ix2 s j) = x (ix3 (0 : Fin 1) s (posF j)) := by
  unfold k0_pay10
  refine (slice2_axis1_apply 1 (k0_pay8 x) _ s j (posF j) (by show j.val + 1 = 1 + j.val; omega)).trans ?_
  exact pay8_apply x s (posF j)

variable (x0 x1 : Vec Ideal S1x4096x32 .f32) (P G : Traj) (b : Fin 64)

/-! ## The position, last-step and velocity terms -/

/-- The first accumulator: the column sums of the squared position errors of the point's rows. -/
theorem pos_apply (acc : Vec Ideal S1x3 .f32)
    (h0 : ∀ s f, x0 (ix3 (0 : Fin 1) s f) = P (ix3 b s f)) (h1 : ∀ s f, x1 (ix3 (0 : Fin 1) s f) = G (ix3 b s f)) (j : Fin 3) :
    k0_pay11 (F := Ideal) x0 x1 acc (ix2 (0 : Fin 1) j) = acc (ix2 (0 : Fin 1) j) + posTerm P G b j := by
  unfold k0_pay11
  try dsimp only
  refine (addf_apply _ _ _).trans ?_
  refine congrArg₂ (· + ·) ?_ ?_
  · exact congrFun (shapeCast_self acc _) _
  · refine (shapeCast_a_1a_apply _ _ (0 : Fin 1) j).trans ?_
    refine (Cert.LibFirstAxis.sum_first2_apply _ _ _ _ _ j).trans ?_
    unfold posTerm
    refine Finset.sum_congr rfl fun s _ => ?_
    refine sq_apply _ _ _ ?_
    refine (subf_apply _ _ _).trans ?_
    rw [pay9_apply, pay10_apply, h0, h1]
    rfl

/-- The second accumulator: the squared position error of the point's last row. -/
theorem last_apply (acc : Vec Ideal S1x3 .f32)
    (h0 : ∀ s f, x0 (ix3 (0 : Fin 1) s f) = P (ix3 b s f)) (h1 : ∀ s f, x1 (ix3 (0 : Fin 1) s f) = G (ix3 b s f)) (j : Fin 3) :
    k0_pay12 (F := Ideal) x0 x1 acc (ix2 (0 : Fin 1) j) = acc (ix2 (0 : Fin 1) j) + lastTerm P G b j := by
  unfold k0_pay12
  try dsimp only
  refine (addf_apply _ _ _).trans ?_
  refine congrArg₂ (· + ·) ?_ ?_
  · exact congrFun (shapeCast_self acc _) _
  · unfold lastTerm
    refine sq_apply _ _ _ ?_
    refine (subf_apply _ _ _).trans ?_
    refine congrArg₂ (· - ·) ?_ ?_
    · refine (slice2_axis0_apply 4095 _ _ (0 : Fin 1) j lastS rfl).trans ?_
      rw [pay9_apply, h0]
    · refine (slice2_axis0_apply 4095 _ _ (0 : Fin 1) j lastS rfl).trans ?_
      rw [pay10_apply, h1]

/-- The third accumulator: the column sums of the squared errors of the differences of consecutive rows. -/
theorem vel_apply (acc : Vec Ideal S1x3 .f32)
    (h0 : ∀ s f, x0 (ix3 (0 : Fin 1) s f) = P (ix3 b s f)) (h1 : ∀ s f, x1 (ix3 (0 : Fin 1) s f) = G (ix3 b s f)) (j : Fin 3) :
    k0_pay15 (F := Ideal) (k0_pay13 acc) (k0_pay14 x0 x1) (ix2 (0 : Fin 1) j) = acc (ix2 (0 : Fin 1) j) + velTerm P G b j := by
  unfold k0_pay15 k0_pay13 k0_pay14
  try dsimp only
  refine (addf_apply _ _ _).trans ?_
  refine congrArg₂ (· + ·) ?_ ?_
  · exact congrFun (shapeCast_self acc _) _
  · refine (shapeCast_a_1a_apply _ _ (0 : Fin 1) j).trans ?_
    refine (Cert.LibFirstAxis.sum_first2_apply _ _ _ _ _ j).trans ?_
    unfold velTerm
    refine Finset.sum_congr rfl fun s _ => ?_
    refine sq_apply _ _ _ ?_
    refine (subf_apply _ _ _).trans ?_
    refine congrArg₂ (· - ·) ?_ ?_
    · refine (subf_apply _ _ _).trans ?_
      refine congrArg₂ (· - ·) ?_ ?_
      · refine (slice2_axis0_apply 1 _ _ s j (nextS s) (by show s.val + 1 = 1 + s.val; omega)).trans ?_
        rw [pay9_apply, h0]
      · refine (slice2_axis0_apply 0 _ _ s j (prevS s) (by show s.val = 0 + s.val; omega)).trans ?_
        rw [pay9_apply, h0]
    · refine (subf_apply _ _ _).trans ?_
      refine congrArg₂ (· - ·) ?_ ?_
      · refine (slice2_axis0_apply 1 _ _ s j (nextS s) (by show s.val + 1 = 1 + s.val; omega)).trans ?_
        rw [pay10_apply, h1]
      · refine (slice2_axis0_apply 0 _ _ s j (prevS s) (by show s.val = 0 + s.val; omega)).trans ?_
        rw [pay10_apply, h1]

/-! ## The other features -/

/-- The fourth accumulator: the squared errors of feature 0 and of features 4 … 31, summed over the point's rows. -/
theorem other_apply (acc : Vec Ideal S1x1 .f32)
    (h0 : ∀ s f, x0 (ix3 (0 : Fin 1) s f) = P (ix3 b s f)) (h1 : ∀ s f, x1 (ix3 (0 : Fin 1) s f) = G (ix3 b s f)) :
    k0_pay16 (F := Ideal) (k0_pay7 x0) (k0_pay8 x1) acc (ix2 (0 : Fin 1) (0 : Fin 1))
      = acc (ix2 (0 : Fin 1) (0 : Fin 1)) + otherTerm P G b := by
  unfold k0_pay16
  try dsimp only
  refine (addf_apply _ _ _).trans ?_
  refine congrArg₂ (· + ·) ?_ ?_
  · exact congrFun (shapeCast_self acc _) _
  · refine (addf_apply _ _ _).trans ?_
    unfold otherTerm
    refine congrArg₂ (· + ·) ?_ ?_
    · refine (shapeCast_a_1a_apply _ _ (0 : Fin 1) (0 : Fin 1)).trans ?_
      refine (Cert.LibFirstAxis.sum_first2_apply _ _ _ _ _ (0 : Fin 1)).trans ?_
      refine Finset.sum_congr rfl fun s _ => ?_
      refine sq_apply _ _ _ ?_
      refine (subf_apply _ _ _).trans ?_
      refine congrArg₂ (· - ·) ?_ ?_
      · refine (slice2_axis1_apply 0 _ _ s (0 : Fin 1) (0 : Fin 32) rfl).trans ?_
        rw [pay7_apply, h0]
      · refine (slice2_axis1_apply 0 _ _ s (0 : Fin 1) (0 : Fin 32) rfl).trans ?_
        rw [pay8_apply, h1]
    · refine (shapeCast_a_1a_apply _ _ (0 : Fin 1) (0 : Fin 1)).trans ?_
      refine (Cert.LibKeepdims.sum_last2_apply _ _ _ _ _ (0 : Fin 1)).trans ?_
      refine Finset.sum_congr rfl fun l _ => ?_
      refine (shapeCast_a_1a_apply _ _ (0 : Fin 1) l).trans ?_
      refine (Cert.LibFirstAxis.sum_first2_apply _ _ _ _ _ l).trans ?_
      refine Finset.sum_congr rfl fun s _ => ?_
      refine sq_apply _ _ _ ?_
      refine (subf_apply _ _ _).trans ?_
      refine congrArg₂ (· - ·) ?_ ?_
      · refine (slice2_axis1_apply 4 _ _ s l (restF l) (by show l.val + 4 = 4 + l.val; omega)).trans ?_
        rw [pay7_apply, h0]
      · refine (slice2_axis1_apply 4 _ _ s l (restF l) (by show l.val + 4 = 4 + l.val; omega)).trans ?_
        rw [pay8_apply, h1]

/-! ## The obstacle term -/

/-- The scaled and shifted position, repeated over the 32 centres. -/
theorem pay17_apply (v7 : FVec Ideal S4096x3 .f32) (x4 x5 : Vec Ideal S1x1x32 .f32) (s : Fin 4096) (k : Fin 32) (d : Fin 3) :
    k0_pay17 (F := Ideal) v7 x4 x5 (ix3 s k d)
      = v7 (ix2 s d) * x5 (ix3 (0 : Fin 1) (0 : Fin 1) (posF d)) + x4 (ix3 (0 : Fin 1) (0 : Fin 1) (posF d)) := by
  unfold k0_pay17
  try dsimp only
  refine (Cert.LibKeepdims.broadcastTo_a1c_abc_apply _ _ s k d).trans ?_
  refine (Cert.LibKeepdims.shapeCast_ac_a1c_apply _ _ s (0 : Fin 1) d).trans ?_
  refine (addf_apply _ _ _).trans ?_
  refine congrArg₂ (· + ·) ?_ ?_
  · refine (mulf_apply _ _ _).trans ?_
    refine congrArg₂ (· * ·) rfl ?_
    refine (broadcastTo_1b_ab_apply _ _ s d).trans ?_
    refine (shapeCast_a_1a_apply _ _ (0 : Fin 1) d).trans ?_
    refine (shapeCast_11a_a_apply _ _ d).trans ?_
    exact statSlice_apply x5 _ d
  · refine (broadcastTo_1b_ab_apply _ _ s d).trans ?_
    refine (shapeCast_a_1a_apply _ _ (0 : Fin 1) d).trans ?_
    refine (shapeCast_11a_a_apply _ _ d).trans ?_
    exact statSlice_apply x4 _ d

/-- The point's centres, repeated over the 4096 rows. -/
theorem pay18_apply (x2 : Vec Ideal S1x32x3 .f32) (s : Fin 4096) (k : Fin 32) (d : Fin 3) :
    k0_pay18 (F := Ideal) x2 (ix3 s k d) = x2 (ix3 (0 : Fin 1) k d) := by
  unfold k0_pay18
  try dsimp only
  refine (broadcastTo_1ab_cab_apply _ _ s k d).trans ?_
  refine (shapeCast_ab_1ab_apply _ _ (0 : Fin 1) k d).trans ?_
  exact shapeCast_1ab_ab_apply x2 _ k d

/-- The fifth accumulator: the squared penalties, summed over the point's rows and then over its centres. -/
theorem obs_apply (x2 : Vec Ideal S1x32x3 .f32) (x3 x4 x5 : Vec Ideal S1x1x32 .f32) (acc : Vec Ideal S1x1 .f32)
    (C : Centers) (R : Radii) (M Sd : Stats)
    (h0 : ∀ s f, x0 (ix3 (0 : Fin 1) s f) = P (ix3 b s f))
    (h2 : ∀ k d, x2 (ix3 (0 : Fin 1) k d) = C (ix3 b k d))
    (h3 : ∀ k, x3 (ix3 (0 : Fin 1) (0 : Fin 1) k) = R (ix2 b k))
    (h4 : ∀ f, x4 (ix3 (0 : Fin 1) (0 : Fin 1) f) = M (ix3 (0 : Fin 1) (0 : Fin 1) f))
    (h5 : ∀ f, x5 (ix3 (0 : Fin 1) (0 : Fin 1) f) = Sd (ix3 (0 : Fin 1) (0 : Fin 1) f)) :
    k0_pay1 (F := Ideal) (k0_pay17 (k0_pay9 x0) x4 x5) (k0_pay18 x2) x3 acc (ix2 (0 : Fin 1) (0 : Fin 1))
      = acc (ix2 (0 : Fin 1) (0 : Fin 1)) + obsTerm R (dist2Diff P C M Sd) b := by
  unfold k0_pay1
  try dsimp only
  refine (addf_apply _ _ _).trans ?_
  refine congrArg₂ (· + ·) ?_ ?_
  · exact congrFun (shapeCast_self acc _) _
  · refine (shapeCast_a_1a_apply _ _ (0 : Fin 1) (0 : Fin 1)).trans ?_
    refine (Cert.LibKeepdims.sum_last2_apply _ _ _ _ _ (0 : Fin 1)).trans ?_
    unfold obsTerm
    refine Finset.sum_congr rfl fun k _ => ?_
    refine (shapeCast_a_1a_apply _ _ (0 : Fin 1) k).trans ?_
    refine (Cert.LibFirstAxis.sum_first2_apply _ _ _ _ _ k).trans ?_
    refine Finset.sum_congr rfl fun s _ => ?_
    refine sq_apply _ _ _ ?_
    unfold penalty
    refine (maximumf_apply _ _ _).trans ?_
    refine congrArg₂ max ?_ Ideal.ofBits_zero_f32
    refine (subf_apply _ _ _).trans ?_
    refine congrArg₂ (· - ·) ?_ ?_
    · refine (broadcastTo_1b_ab_apply _ _ s k).trans ?_
      refine (mulf_apply _ _ _).trans ?_
      refine congrArg₂ (· * ·) rfl ?_
      refine (shapeCast_a_1a_apply _ _ (0 : Fin 1) k).trans ?_
      refine (shapeCast_11a_a_apply _ _ k).trans ?_
      exact (congrFun (shapeCast_self x3 _) _).trans (h3 k)
    · refine congrArg Ideal.sqrt ?_
      refine (maximumf_apply _ _ _).trans ?_
      refine congrArg₂ max ?_ Ideal.ofBits_zero_f32
      refine (Cert.LibKeepdims.sum_last3_apply _ _ _ _ _ s k).trans ?_
      unfold dist2Diff
      refine Finset.sum_congr rfl fun d _ => ?_
      refine sq_apply _ _ _ ?_
      refine (subf_apply _ _ _).trans ?_
      refine congrArg₂ (· - ·) ?_ ?_
      · refine (pay17_apply _ x4 x5 s k d).trans ?_
        rw [pay9_apply, h0, h5, h4]
        rfl
      · exact (pay18_apply x2 s k d).trans (h2 k d)

end Cert.KPayload

end
-- ==== Proof.KAccum.lean ====
/-
  The five accumulators over the 64 grid points. Point `t` stages batch entry `t` of the two trajectories, of the
  centres and of the radii, and the one block of the means and of the deviations; at point 0 each accumulator is the
  point's term and at every later point the point's term is added to it, so after the last point each holds the sum of
  the terms over the batch. The one block of each output array is the array itself and is written back once, after
  the last point.
-/
import proofs.«114594_j69492570849790_2_alg».proof.Proof.KPieces
import proofs.«114594_j69492570849790_2_alg».proof.Proof.KPayload
import proofs.«114594_j69492570849790_2_alg».proof.Proof.Spec
import proofs.«114594_j69492570849790_2_alg».proof.Proof.LibKeepdims
import Idealize.ShloMosaic.Lib.Pipeline.Value
import Idealize.ShloMosaic.Lib.StableHlo.Run
import Idealize.ShloMosaic.Lib.Tactic
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KAccum

open Cert.KernelIdeal Cert.KernelIdeal.Gen Cert.Loss

variable (m : (ℓ : Loc nD τ sig) → Buf (Elt Ideal) ℓ)

/-- The six argument arrays on core `c`. -/
abbrev aP (c : Dev nD) : Traj := m ((c : Thread nD τ).loc main_arg0)
abbrev aG (c : Dev nD) : Traj := m ((c : Thread nD τ).loc main_arg1)
abbrev aC (c : Dev nD) : Centers := m ((c : Thread nD τ).loc main_arg2)
abbrev aR (c : Dev nD) : Radii := m ((c : Thread nD τ).loc main_arg3)
abbrev aM (c : Dev nD) : Stats := m ((c : Thread nD τ).loc main_arg4)
abbrev aS (c : Dev nD) : Stats := m ((c : Thread nD τ).loc main_arg5)

/-! ## Which entries a point's blocks hold -/

/-- The block index maps over the grid: the first four inputs move with the point along the batch axis, the last two stay. -/
theorem idxIn : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 3) = 0 ∧ win0_4.index t (1 : Fin 3) = 0 ∧ win0_4.index t (2 : Fin 3) = 0
    ∧ win0_5.index t (0 : Fin 3) = 0 ∧ win0_5.index t (1 : Fin 3) = 0 ∧ win0_5.index t (2 : Fin 3) = 0 :=
  (by decide +kernel : ∀ t : Fin grid0.N, _)

/-- The batch entry a point works on. -/
def bOf (t : Fin cfg0.N) : Fin 64 := ⟨t.val, lt_of_lt_of_eq t.isLt N_0⟩

theorem blk0 (c : Dev nD) (t : Fin cfg0.N) : ∀ (s : Fin 4096) (f : Fin 32), (iblk m c 0 t : Vec Ideal S1x4096x32 .f32) (ix3 (0 : Fin 1) s f) = aP m c (ix3 (bOf t) s f) := by
  intro s  f
  obtain ⟨e0, e1, e2, -⟩ := idxIn t
  show V m c main_arg0 (((cfg0.win 0).blk t).view.emb (ix3 (0 : Fin 1) s f)) = _
  rw [V_main_arg0]
  refine congrArg (m ((c : Thread nD τ).loc main_arg0)) ?_
  funext a; apply Fin.ext
  match a with
  | ⟨0, _⟩ => show win0_0.index t (0 : Fin 3) * 1 + 1 * 0 = t.val; omega
  | ⟨1, _⟩ => show win0_0.index t (1 : Fin 3) * 4096 + 1 * s.val = s.val; omega
  | ⟨2, _⟩ => show win0_0.index t (2 : Fin 3) * 32 + 1 * f.val = f.val; omega

theorem blk1 (c : Dev nD) (t : Fin cfg0.N) : ∀ (s : Fin 4096) (f : Fin 32), (iblk m c 1 t : Vec Ideal S1x4096x32 .f32) (ix3 (0 : Fin 1) s f) = aG m c (ix3 (bOf t) s f) := by
  intro s  f
  obtain ⟨-, -, -, e0, e1, e2, -⟩ := idxIn t
  show V m c main_arg1 (((cfg0.win 1).blk t).view.emb (ix3 (0 : Fin 1) s f)) = _
  rw [V_main_arg1]
  refine congrArg (m ((c : Thread nD τ).loc main_arg1)) ?_
  funext a; apply Fin.ext
  match a with
  | ⟨0, _⟩ => show win0_1.index t (0 : Fin 3) * 1 + 1 * 0 = t.val; omega
  | ⟨1, _⟩ => show win0_1.index t (1 : Fin 3) * 4096 + 1 * s.val = s.val; omega
  | ⟨2, _⟩ => show win0_1.index t (2 : Fin 3) * 32 + 1 * f.val = f.val; omega

theorem blk2 (c : Dev nD) (t : Fin cfg0.N) : ∀ (k : Fin 32) (d : Fin 3), (iblk m c 2 t : Vec Ideal S1x32x3 .f32) (ix3 (0 : Fin 1) k d) = aC m c (ix3 (bOf t) k d) := by
  intro k  d
  obtain ⟨-, -, -, -, -, -, e0, e1, e2, -⟩ := idxIn t
  show V m c main_arg2 (((cfg0.win 2).blk t).view.emb (ix3 (0 : Fin 1) k d)) = _
  rw [V_main_arg2]
  refine congrArg (m ((c : Thread nD τ).loc main_arg2)) ?_
  funext a; apply Fin.ext
  match a with
  | ⟨0, _⟩ => show win0_2.index t (0 : Fin 3) * 1 + 1 * 0 = t.val; omega
  | ⟨1, _⟩ => show win0_2.index t (1 : Fin 3) * 32 + 1 * k.val = k.val; omega
  | ⟨2, _⟩ => show win0_2.index t (2 : Fin 3) * 3 + 1 * d.val = d.val; omega

/-- The radii reach the kernel with a unit axis put in the middle. -/
theorem V_v0 (c : Dev nD) :
    (V m c main_v0 : S64x1x32.Idx → EReal) = shapeCast S64x1x32 (m ((c : Thread nD τ).loc main_arg3)) shapeCasts_S64x32_S64x1x32 := by
  show StableHlo.after hostOps0 (fun b => m (c, b)) (Proc.devRef .tc main_v0) = _
  after_results
  rfl

theorem blk3 (c : Dev nD) (t : Fin cfg0.N) : ∀ (k : Fin 32), (iblk m c 3 t : Vec Ideal S1x1x32 .f32) (ix3 (0 : Fin 1) (0 : Fin 1) k) = aR m c (ix2 (bOf t) k) := by
  intro k
  obtain ⟨-, -, -, -, -, -, -, -, -, e0, e1, e2, -⟩ := idxIn t
  show V m c main_v0 (((cfg0.win 3).blk t).view.emb (ix3 (0 : Fin 1) (0 : Fin 1) k)) = _
  rw [V_v0]
  have hi : ((cfg0.win 3).blk t).view.emb (ix3 (0 : Fin 1) (0 : Fin 1) k) = ix3 (bOf t) (0 : Fin 1) k := by
    funext a; apply Fin.ext
    match a with
    | ⟨0, _⟩ => show win0_3.index t (0 : Fin 3) * 1 + 1 * 0 = t.val; omega
    | ⟨1, _⟩ => show win0_3.index t (1 : Fin 3) * 1 + 1 * 0 = 0; omega
    | ⟨2, _⟩ => show win0_3.index t (2 : Fin 3) * 32 + 1 * k.val = k.val; omega
  rw [hi]
  exact Cert.LibKeepdims.shapeCast_ac_a1c_apply _ _ (bOf t) (0 : Fin 1) k

theorem blk4 (c : Dev nD) (t : Fin cfg0.N) : ∀ (f : Fin 32), (iblk m c 4 t : Vec Ideal S1x1x32 .f32) (ix3 (0 : Fin 1) (0 : Fin 1) f) = aM m c (ix3 (0 : Fin 1) (0 : Fin 1) f) := by
  intro f
  obtain ⟨-, -, -, -, -, -, -, -, -, -, -, -, e0, e1, e2, -⟩ := idxIn t
  show V m c main_arg4 (((cfg0.win 4).blk t).view.emb (ix3 (0 : Fin 1) (0 : Fin 1) f)) = _
  rw [V_main_arg4]
  refine congrArg (m ((c : Thread nD τ).loc main_arg4)) ?_
  funext a; apply Fin.ext
  match a with
  | ⟨0, _⟩ => show win0_4.index t (0 : Fin 3) * 1 + 1 * 0 = 0; omega
  | ⟨1, _⟩ => show win0_4.index t (1 : Fin 3) * 1 + 1 * 0 = 0; omega
  | ⟨2, _⟩ => show win0_4.index t (2 : Fin 3) * 32 + 1 * f.val = f.val; omega

theorem blk5 (c : Dev nD) (t : Fin cfg0.N) : ∀ (f : Fin 32), (iblk m c 5 t : Vec Ideal S1x1x32 .f32) (ix3 (0 : Fin 1) (0 : Fin 1) f) = aS m c (ix3 (0 : Fin 1) (0 : Fin 1) f) := by
  intro f
  obtain ⟨-, -, -, -, -, -, -, -, -, -, -, -, -, -, -, e0, e1, e2⟩ := idxIn t
  show V m c main_arg5 (((cfg0.win 5).blk t).view.emb (ix3 (0 : Fin 1) (0 : Fin 1) f)) = _
  rw [V_main_arg5]
  refine congrArg (m ((c : Thread nD τ).loc main_arg5)) ?_
  funext a; apply Fin.ext
  match a with
  | ⟨0, _⟩ => show win0_5.index t (0 : Fin 3) * 1 + 1 * 0 = 0; omega
  | ⟨1, _⟩ => show win0_5.index t (1 : Fin 3) * 1 + 1 * 0 = 0; omega
  | ⟨2, _⟩ => show win0_5.index t (2 : Fin 3) * 32 + 1 * f.val = f.val; omega

/-! ## One point -/

/-- At the first point each accumulator ends at the point's term. -/
theorem stepA (c : Dev nD) (t : Fin cfg0.N) (h0 : t.val % 64 = 0) :
    (∀ j : Fin 3, (outsAt0 m c t.val t.isLt).1 (ix2 (0 : Fin 1) j) = posTerm (aP m c) (aG m c) (bOf t) j)
    ∧ (∀ j : Fin 3, (outsAt0 m c t.val t.isLt).2.1 (ix2 (0 : Fin 1) j) = lastTerm (aP m c) (aG m c) (bOf t) j)
    ∧ (∀ j : Fin 3, (outsAt0 m c t.val t.isLt).2.2.1 (ix2 (0 : Fin 1) j) = velTerm (aP m c) (aG m c) (bOf t) j)
    ∧ (outsAt0 m c t.val t.isLt).2.2.2.1 (ix2 (0 : Fin 1) (0 : Fin 1)) = otherTerm (aP m c) (aG m c) (bOf t)
    ∧ (outsAt0 m c t.val t.isLt).2.2.2.2 (ix2 (0 : Fin 1) (0 : Fin 1)) = obsTerm (aR m c) (dist2Diff (aP m c) (aC m c) (aM m c) (aS m c)) (bOf t) := by
  rw [outsAt0_A m c t h0]
  dsimp only
  refine ⟨fun j => ?_, fun j => ?_, fun j => ?_, ?_, ?_⟩
  · refine (congrFun (Cert.KPieces.out_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (iblk m c 0 t) (iblk m c 1 t) (iblk m c 2 t) (iblk m c 3 t) (iblk m c 4 t) (iblk m c 5 t)) _).trans ?_
    refine (Cert.KPayload.pos_apply (x0 := iblk m c 0 t) (x1 := iblk m c 1 t) (P := aP m c) (G := aG m c) (b := bOf t) (acc := (k0_pay2 (F := Ideal))) (h0 := blk0 m c t) (h1 := blk1 m c t) (j := j)).trans ?_
    show Ideal.ofBits .f32 0x00000000#32 + _ = _
    rw [Ideal.ofBits_zero_f32, zero_add]
  · refine (congrFun (Cert.KPieces.out_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (iblk m c 0 t) (iblk m c 1 t) (iblk m c 2 t) (iblk m c 3 t) (iblk m c 4 t) (iblk m c 5 t)) _).trans ?_
    refine (Cert.KPayload.last_apply (x0 := iblk m c 0 t) (x1 := iblk m c 1 t) (P := aP m c) (G := aG m c) (b := bOf t) (acc := (k0_pay3 (F := Ideal))) (h0 := blk0 m c t) (h1 := blk1 m c t) (j := j)).trans ?_
    show Ideal.ofBits .f32 0x00000000#32 + _ = _
    rw [Ideal.ofBits_zero_f32, zero_add]
  · refine (congrFun (Cert.KPieces.out_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (iblk m c 0 t) (iblk m c 1 t) (iblk m c 2 t) (iblk m c 3 t) (iblk m c 4 t) (iblk m c 5 t)) _).trans ?_
    refine (Cert.KPayload.vel_apply (x0 := iblk m c 0 t) (x1 := iblk m c 1 t) (P := aP m c) (G := aG m c) (b := bOf t) (acc := (k0_pay4 (F := Ideal))) (h0 := blk0 m c t) (h1 := blk1 m c t) (j := j)).trans ?_
    show Ideal.ofBits .f32 0x00000000#32 + _ = _
    rw [Ideal.ofBits_zero_f32, zero_add]
  · refine (congrFun (Cert.KPieces.out_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (iblk m c 0 t) (iblk m c 1 t) (iblk m c 2 t) (iblk m c 3 t) (iblk m c 4 t) (iblk m c 5 t)) _).trans ?_
    refine (Cert.KPayload.other_apply (x0 := iblk m c 0 t) (x1 := iblk m c 1 t) (P := aP m c) (G := aG m c) (b := bOf t) (acc := (k0_pay5 (F := Ideal))) (h0 := blk0 m c t) (h1 := blk1 m c t)).trans ?_
    show Ideal.ofBits .f32 0x00000000#32 + _ = _
    rw [Ideal.ofBits_zero_f32, zero_add]
  · refine (congrFun (Cert.KPieces.out_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (iblk m c 0 t) (iblk m c 1 t) (iblk m c 2 t) (iblk m c 3 t) (iblk m c 4 t) (iblk m c 5 t)) _).trans ?_
    refine (Cert.KPayload.obs_apply (x0 := iblk m c 0 t) (P := aP m c) (b := bOf t) (x2 := iblk m c 2 t) (x3 := iblk m c 3 t) (x4 := iblk m c 4 t) (x5 := iblk m c 5 t) (acc := (k0_pay6 (F := Ideal))) (C := aC m c) (R := aR m c) (M := aM m c) (Sd := aS m c) (h0 := blk0 m c t) (h2 := blk2 m c t) (h3 := blk3 m c t) (h4 := blk4 m c t) (h5 := blk5 m c t)).trans ?_
    show Ideal.ofBits .f32 0x00000000#32 + _ = _
    rw [Ideal.ofBits_zero_f32, zero_add]

/-- At a later point each accumulator ends at what the point before left plus the point's term. -/
theorem stepB (c : Dev nD) (t : Fin cfg0.N) (h0 : ¬t.val % 64 = 0) :
    (∀ j : Fin 3, (outsAt0 m c t.val t.isLt).1 (ix2 (0 : Fin 1) j) = (outsAt0 m c (t.val - 1) (Nat.lt_of_le_of_lt (Nat.sub_le _ _) t.isLt)).1 (ix2 (0 : Fin 1) j) + posTerm (aP m c) (aG m c) (bOf t) j)
    ∧ (∀ j : Fin 3, (outsAt0 m c t.val t.isLt).2.1 (ix2 (0 : Fin 1) j) = (outsAt0 m c (t.val - 1) (Nat.lt_of_le_of_lt (Nat.sub_le _ _) t.isLt)).2.1 (ix2 (0 : Fin 1) j) + lastTerm (aP m c) (aG m c) (bOf t) j)
    ∧ (∀ j : Fin 3, (outsAt0 m c t.val t.isLt).2.2.1 (ix2 (0 : Fin 1) j) = (outsAt0 m c (t.val - 1) (Nat.lt_of_le_of_lt (Nat.sub_le _ _) t.isLt)).2.2.1 (ix2 (0 : Fin 1) j) + velTerm (aP m c) (aG m c) (bOf t) j)
    ∧ (outsAt0 m c t.val t.isLt).2.2.2.1 (ix2 (0 : Fin 1) (0 : Fin 1)) = (outsAt0 m c (t.val - 1) (Nat.lt_of_le_of_lt (Nat.sub_le _ _) t.isLt)).2.2.2.1 (ix2 (0 : Fin 1) (0 : Fin 1)) + otherTerm (aP m c) (aG m c) (bOf t)
    ∧ (outsAt0 m c t.val t.isLt).2.2.2.2 (ix2 (0 : Fin 1) (0 : Fin 1)) = (outsAt0 m c (t.val - 1) (Nat.lt_of_le_of_lt (Nat.sub_le _ _) t.isLt)).2.2.2.2 (ix2 (0 : Fin 1) (0 : Fin 1)) + obsTerm (aR m c) (dist2Diff (aP m c) (aC m c) (aM m c) (aS m c)) (bOf t) := by
  rw [outsAt0_B m c t h0]
  dsimp only
  refine ⟨fun j => ?_, fun j => ?_, fun j => ?_, ?_, ?_⟩
  · refine (congrFun (Cert.KPieces.out_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) _).trans ?_
    exact Cert.KPayload.pos_apply (x0 := iblk m c 0 t) (x1 := iblk m c 1 t) (P := aP m c) (G := aG m c) (b := bOf t) (acc := (outsAt0 m c (t.val - 1) (Nat.lt_of_le_of_lt (Nat.sub_le _ _) t.isLt)).1) (h0 := blk0 m c t) (h1 := blk1 m c t) (j := j)
  · refine (congrFun (Cert.KPieces.out_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) _).trans ?_
    exact Cert.KPayload.last_apply (x0 := iblk m c 0 t) (x1 := iblk m c 1 t) (P := aP m c) (G := aG m c) (b := bOf t) (acc := (outsAt0 m c (t.val - 1) (Nat.lt_of_le_of_lt (Nat.sub_le _ _) t.isLt)).2.1) (h0 := blk0 m c t) (h1 := blk1 m c t) (j := j)
  · refine (congrFun (Cert.KPieces.out_B_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) _).trans ?_
    exact Cert.KPayload.vel_apply (x0 := iblk m c 0 t) (x1 := iblk m c 1 t) (P := aP m c) (G := aG m c) (b := bOf t) (acc := (outsAt0 m c (t.val - 1) (Nat.lt_of_le_of_lt (Nat.sub_le _ _) t.isLt)).2.2.1) (h0 := blk0 m c t) (h1 := blk1 m c t) (j := j)
  · refine (congrFun (Cert.KPieces.out_B_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) _).trans ?_
    exact Cert.KPayload.other_apply (x0 := iblk m c 0 t) (x1 := iblk m c 1 t) (P := aP m c) (G := aG m c) (b := bOf t) (acc := (outsAt0 m c (t.val - 1) (Nat.lt_of_le_of_lt (Nat.sub_le _ _) t.isLt)).2.2.2.1) (h0 := blk0 m c t) (h1 := blk1 m c t)
  · refine (congrFun (Cert.KPieces.out_B_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) _).trans ?_
    exact Cert.KPayload.obs_apply (x0 := iblk m c 0 t) (P := aP m c) (b := bOf t) (x2 := iblk m c 2 t) (x3 := iblk m c 3 t) (x4 := iblk m c 4 t) (x5 := iblk m c 5 t) (acc := (outsAt0 m c (t.val - 1) (Nat.lt_of_le_of_lt (Nat.sub_le _ _) t.isLt)).2.2.2.2) (C := aC m c) (R := aR m c) (M := aM m c) (Sd := aS m c) (h0 := blk0 m c t) (h2 := blk2 m c t) (h3 := blk3 m c t) (h4 := blk4 m c t) (h5 := blk5 m c t)

end Cert.KAccum

end
-- ==== Proof.KInduct.lean ====
/-
  The accumulators after every point. By induction on the point, the accumulator after point `n` is the sum of the
  terms of points 0 … n: the first point leaves its own term, and every later point adds its term to what the point
  before left.
-/
import proofs.«114594_j69492570849790_2_alg».proof.Proof.KAccum

noncomputable section

open Idealize.ShloMosaic Idealize.ShloMosaic.TcCoe Idealize.SL.Sem Idealize.ShloMosaic.ValueIdx
open Idealize.ShloMosaic.Pipeline (Dat)

namespace Cert.KAccum

open Cert.KernelIdeal Cert.KernelIdeal.Gen Cert.Loss

variable (m : (ℓ : Loc nD τ sig) → Buf (Elt Ideal) ℓ)

/-- The point's terms as sequences over the naturals (zero beyond the 64 points), for sums over ranges. -/
def posT (c : Dev nD) (j : Fin 3) (n : ℕ) : EReal := if h : n < 64 then posTerm (aP m c) (aG m c) ⟨n, h⟩ j else 0
def lastT (c : Dev nD) (j : Fin 3) (n : ℕ) : EReal := if h : n < 64 then lastTerm (aP m c) (aG m c) ⟨n, h⟩ j else 0
def velT (c : Dev nD) (j : Fin 3) (n : ℕ) : EReal := if h : n < 64 then velTerm (aP m c) (aG m c) ⟨n, h⟩ j else 0
def otherT (c : Dev nD) (n : ℕ) : EReal := if h : n < 64 then otherTerm (aP m c) (aG m c) ⟨n, h⟩ else 0
def obsT (c : Dev nD) (n : ℕ) : EReal := if h : n < 64 then obsTerm (aR m c) (dist2Diff (aP m c) (aC m c) (aM m c) (aS m c)) ⟨n, h⟩ else 0

theorem posT_at (c : Dev nD) (t : Fin cfg0.N) (j : Fin 3) : posT m c j t.val = posTerm (aP m c) (aG m c) (bOf t) j := dif_pos (bOf t).isLt
theorem lastT_at (c : Dev nD) (t : Fin cfg0.N) (j : Fin 3) : lastT m c j t.val = lastTerm (aP m c) (aG m c) (bOf t) j := dif_pos (bOf t).isLt
theorem velT_at (c : Dev nD) (t : Fin cfg0.N) (j : Fin 3) : velT m c j t.val = velTerm (aP m c) (aG m c) (bOf t) j := dif_pos (bOf t).isLt
theorem otherT_at (c : Dev nD) (t : Fin cfg0.N) : otherT m c t.val = otherTerm (aP m c) (aG m c) (bOf t) := dif_pos (bOf t).isLt
theorem obsT_at (c : Dev nD) (t : Fin cfg0.N) : obsT m c t.val = obsTerm (aR m c) (dist2Diff (aP m c) (aC m c) (aM m c) (aS m c)) (bOf t) := dif_pos (bOf t).isLt

/-- After point `n` each accumulator holds the sum of the terms of points 0 … n. -/
theorem acc_eq (c : Dev nD) : ∀ (n : ℕ) (h : n < cfg0.N),
    (∀ j : Fin 3, (outsAt0 m c n h).1 (ix2 (0 : Fin 1) j) = ∑ k ∈ Finset.range (n + 1), posT m c j k)
    ∧ (∀ j : Fin 3, (outsAt0 m c n h).2.1 (ix2 (0 : Fin 1) j) = ∑ k ∈ Finset.range (n + 1), lastT m c j k)
    ∧ (∀ j : Fin 3, (outsAt0 m c n h).2.2.1 (ix2 (0 : Fin 1) j) = ∑ k ∈ Finset.range (n + 1), velT m c j k)
    ∧ (outsAt0 m c n h).2.2.2.1 (ix2 (0 : Fin 1) (0 : Fin 1)) = ∑ k ∈ Finset.range (n + 1), otherT m c k
    ∧ (outsAt0 m c n h).2.2.2.2 (ix2 (0 : Fin 1) (0 : Fin 1)) = ∑ k ∈ Finset.range (n + 1), obsT m c k
  | 0, h => by
    obtain ⟨a6, a7, a8, a9, a10⟩ := stepA m c ⟨0, h⟩ rfl
    refine ⟨fun j => ?_, fun j => ?_, fun j => ?_, ?_, ?_⟩
    · rw [Finset.sum_range_one]; exact (a6 j).trans (posT_at m c ⟨0, h⟩ j).symm
    · rw [Finset.sum_range_one]; exact (a7 j).trans (lastT_at m c ⟨0, h⟩ j).symm
    · rw [Finset.sum_range_one]; exact (a8 j).trans (velT_at m c ⟨0, h⟩ j).symm
    · rw [Finset.sum_range_one]; exact a9.trans (otherT_at m c ⟨0, h⟩).symm
    · rw [Finset.sum_range_one]; exact a10.trans (obsT_at m c ⟨0, h⟩).symm
  | n + 1, h => by
    have hB : ¬(⟨n + 1, h⟩ : Fin cfg0.N).val % 64 = 0 := by
      have hN : cfg0.N = 64 := N_0
      have := h
      dsimp only
      omega
    obtain ⟨b6, b7, b8, b9, b10⟩ := stepB m c ⟨n + 1, h⟩ hB
    obtain ⟨i6, i7, i8, i9, i10⟩ := acc_eq c n (Nat.lt_of_succ_lt h)
    refine ⟨fun j => ?_, fun j => ?_, fun j => ?_, ?_, ?_⟩
    · rw [Finset.sum_range_succ _ (n + 1)]
      exact (b6 j).trans (congrArg₂ (· + ·) (i6 j) (posT_at m c ⟨n + 1, h⟩ j).symm)
    · rw [Finset.sum_range_succ _ (n + 1)]
      exact (b7 j).trans (congrArg₂ (· + ·) (i7 j) (lastT_at m c ⟨n + 1, h⟩ j).symm)
    · rw [Finset.sum_range_succ _ (n + 1)]
      exact (b8 j).trans (congrArg₂ (· + ·) (i8 j) (velT_at m c ⟨n + 1, h⟩ j).symm)
    · rw [Finset.sum_range_succ _ (n + 1)]
      exact b9.trans (congrArg₂ (· + ·) i9 (otherT_at m c ⟨n + 1, h⟩).symm)
    · rw [Finset.sum_range_succ _ (n + 1)]
      exact b10.trans (congrArg₂ (· + ·) i10 (obsT_at m c ⟨n + 1, h⟩).symm)

end Cert.KAccum

end
-- ==== Proof.KFinal.lean ====
/-
  The five output arrays after the run. Each output array is one block, the same at every point, written back after
  the last point only; so the array ends holding what its accumulator holds after the last point, which is the sum of
  the point terms over the whole batch.
-/
import proofs.«114594_j69492570849790_2_alg».proof.Proof.KInduct

noncomputable section

open Idealize.ShloMosaic Idealize.ShloMosaic.TcCoe Idealize.SL.Sem Idealize.ShloMosaic.ValueIdx
open Idealize.ShloMosaic.Pipeline (Dat)

namespace Cert.KAccum

open Cert.KernelIdeal Cert.KernelIdeal.Gen Cert.Loss

variable (m : (ℓ : Loc nD τ sig) → Buf (Elt Ideal) ℓ)

/-! ## After the last point -/

/-- The last point's position, kept as a name so that the recursion over the points is never run out to it. -/
def nL : ℕ := 63
theorem nL_eq : nL = 63 := rfl
theorem hL : nL < cfg0.N := by rw [nL_eq, show cfg0.N = 64 from N_0]; decide
attribute [irreducible] nL

/-- The last point. -/
abbrev tL : Fin cfg0.N := ⟨nL, hL⟩

theorem res6_apply (c : Dev nD) (j : Fin 3) : (outsAt0 m c tL.val tL.isLt).1 (ix2 (0 : Fin 1) j) = posSum (aP m c) (aG m c) j := by
  rw [(acc_eq m c tL.val tL.isLt).1 j]
  show ∑ k ∈ Finset.range (nL + 1), _ = _
  rw [nL_eq, Finset.sum_range]
  exact Finset.sum_congr rfl fun b _ => dif_pos b.isLt

theorem res7_apply (c : Dev nD) (j : Fin 3) : (outsAt0 m c tL.val tL.isLt).2.1 (ix2 (0 : Fin 1) j) = lastSum (aP m c) (aG m c) j := by
  rw [(acc_eq m c tL.val tL.isLt).2.1 j]
  show ∑ k ∈ Finset.range (nL + 1), _ = _
  rw [nL_eq, Finset.sum_range]
  exact Finset.sum_congr rfl fun b _ => dif_pos b.isLt

theorem res8_apply (c : Dev nD) (j : Fin 3) : (outsAt0 m c tL.val tL.isLt).2.2.1 (ix2 (0 : Fin 1) j) = velSum (aP m c) (aG m c) j := by
  rw [(acc_eq m c tL.val tL.isLt).2.2.1 j]
  show ∑ k ∈ Finset.range (nL + 1), _ = _
  rw [nL_eq, Finset.sum_range]
  exact Finset.sum_congr rfl fun b _ => dif_pos b.isLt

theorem res9_apply (c : Dev nD) : (outsAt0 m c tL.val tL.isLt).2.2.2.1 (ix2 (0 : Fin 1) (0 : Fin 1)) = otherSum (aP m c) (aG m c) := by
  rw [(acc_eq m c tL.val tL.isLt).2.2.2.1]
  show ∑ k ∈ Finset.range (nL + 1), _ = _
  rw [nL_eq, Finset.sum_range]
  exact Finset.sum_congr rfl fun b _ => dif_pos b.isLt

theorem res10_apply (c : Dev nD) : (outsAt0 m c tL.val tL.isLt).2.2.2.2 (ix2 (0 : Fin 1) (0 : Fin 1)) = obsSum (aR m c) (dist2Diff (aP m c) (aC m c) (aM m c) (aS m c)) := by
  rw [(acc_eq m c tL.val tL.isLt).2.2.2.2]
  show ∑ k ∈ Finset.range (nL + 1), _ = _
  rw [nL_eq, Finset.sum_range]
  exact Finset.sum_congr rfl fun b _ => dif_pos b.isLt

/-! ## The output arrays -/

/-- The output windows' block index never moves. -/
theorem idxOut : ∀ t : Fin cfg0.N,
    win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

/-- Output 0's array after the run, in closed form. -/
abbrev out6 (c : Dev nD) : Buf (Elt Ideal) ((c : Thread nD τ).loc main_v1_0) := fun i => posSum (aP m c) (aG m c) ⟨(i 1).val, (i 1).isLt⟩

theorem flushed6 (c : Dev nD) (t : Fin cfg0.N) (hf : (cfg0.win 6).flush t = true) :
    (dats m 0 c).flushed 6 t = ((cfg0.win 6).blk t).view.read (Elt Ideal) (out6 m c) := by
  have hN : cfg0.N = 64 := N_0
  have h63' : t.val = nL := by rw [nL_eq]; have := (flush0_6 t).mp hf; have := t.isLt; omega
  obtain rfl : t = tL := Fin.ext h63'
  have hi := idxOut tL
  funext j
  show (dats m 0 c).after 6 tL ((cfg0.win 6).xinj (grid0.coords tL) j) = out6 m c (((cfg0.win 6).blk tL).view.emb j)
  rw [after0_6]
  have hj0 : (j 0).val < 1 := (j 0).isLt
  have hj1 : (j 1).val < 3 := (j 1).isLt
  have e1 : (cfg0.win 6).xinj (grid0.coords tL) j = ix2 (0 : Fin 1) (⟨(j 1).val, hj1⟩ : Fin 3) := by
    funext a; apply Fin.ext
    match a with
    | ⟨0, _⟩ => show (j 0).val = 0; omega
    | ⟨1, _⟩ => rfl
  rw [e1, res6_apply m c ⟨(j 1).val, hj1⟩]
  refine congrArg (posSum (aP m c) (aG m c)) (Fin.ext ?_)
  show (j 1).val = win0_6.index tL (1 : Fin 2) * 3 + 1 * (j 1).val
  rw [hi.2.1]; omega

theorem final6 (c : Dev nD) : (dats m 0 c).arrAt 6 cfg0.N = out6 m c :=
  (dats m 0 c).arrAt_eq_of_cover 6 (out6 m c) (flushed6 m c) fun i =>
    ⟨tL, (flush0_6 tL).mpr (by show nL % 64 = 63; rw [nL_eq]), by
      show i ∈ ((View.whole main_v1_0).slice (win0_6.rect tL)).set
      rw [View.set_slice_whole, Rect.mem_set_unit]
      intro a
      have h0 : (i 0 : Nat) < 1 := (i 0).isLt
      have h1 : (i 1 : Nat) < 3 := (i 1).isLt
      match a with
      | ⟨0, _⟩ => show win0_6.index tL 0 * win0_6.size 0 ≤ (i 0 : Nat) ∧ (i 0 : Nat) < win0_6.index tL 0 * win0_6.size 0 + win0_6.xsize (grid0.coords tL) 0
                  rw [show win0_6.index tL 0 * win0_6.size 0 = 0 from by decide +kernel, show win0_6.xsize (grid0.coords tL) 0 = 1 from by decide +kernel]; omega
      | ⟨1, _⟩ => show win0_6.index tL 1 * win0_6.size 1 ≤ (i 1 : Nat) ∧ (i 1 : Nat) < win0_6.index tL 1 * win0_6.size 1 + win0_6.xsize (grid0.coords tL) 1
                  rw [show win0_6.index tL 1 * win0_6.size 1 = 0 from by decide +kernel, show win0_6.xsize (grid0.coords tL) 1 = 3 from by decide +kernel]; omega⟩

/-- Output 1's array after the run, in closed form. -/
abbrev out7 (c : Dev nD) : Buf (Elt Ideal) ((c : Thread nD τ).loc main_v1_1) := fun i => lastSum (aP m c) (aG m c) ⟨(i 1).val, (i 1).isLt⟩

theorem flushed7 (c : Dev nD) (t : Fin cfg0.N) (hf : (cfg0.win 7).flush t = true) :
    (dats m 0 c).flushed 7 t = ((cfg0.win 7).blk t).view.read (Elt Ideal) (out7 m c) := by
  have hN : cfg0.N = 64 := N_0
  have h63' : t.val = nL := by rw [nL_eq]; have := (flush0_7 t).mp hf; have := t.isLt; omega
  obtain rfl : t = tL := Fin.ext h63'
  have hi := idxOut tL
  funext j
  show (dats m 0 c).after 7 tL ((cfg0.win 7).xinj (grid0.coords tL) j) = out7 m c (((cfg0.win 7).blk tL).view.emb j)
  rw [after0_7]
  have hj0 : (j 0).val < 1 := (j 0).isLt
  have hj1 : (j 1).val < 3 := (j 1).isLt
  have e1 : (cfg0.win 7).xinj (grid0.coords tL) j = ix2 (0 : Fin 1) (⟨(j 1).val, hj1⟩ : Fin 3) := by
    funext a; apply Fin.ext
    match a with
    | ⟨0, _⟩ => show (j 0).val = 0; omega
    | ⟨1, _⟩ => rfl
  rw [e1, res7_apply m c ⟨(j 1).val, hj1⟩]
  refine congrArg (lastSum (aP m c) (aG m c)) (Fin.ext ?_)
  show (j 1).val = win0_7.index tL (1 : Fin 2) * 3 + 1 * (j 1).val
  rw [hi.2.2.2.1]; omega

theorem final7 (c : Dev nD) : (dats m 0 c).arrAt 7 cfg0.N = out7 m c :=
  (dats m 0 c).arrAt_eq_of_cover 7 (out7 m c) (flushed7 m c) fun i =>
    ⟨tL, (flush0_7 tL).mpr (by show nL % 64 = 63; rw [nL_eq]), by
      show i ∈ ((View.whole main_v1_1).slice (win0_7.rect tL)).set
      rw [View.set_slice_whole, Rect.mem_set_unit]
      intro a
      have h0 : (i 0 : Nat) < 1 := (i 0).isLt
      have h1 : (i 1 : Nat) < 3 := (i 1).isLt
      match a with
      | ⟨0, _⟩ => show win0_7.index tL 0 * win0_7.size 0 ≤ (i 0 : Nat) ∧ (i 0 : Nat) < win0_7.index tL 0 * win0_7.size 0 + win0_7.xsize (grid0.coords tL) 0
                  rw [show win0_7.index tL 0 * win0_7.size 0 = 0 from by decide +kernel, show win0_7.xsize (grid0.coords tL) 0 = 1 from by decide +kernel]; omega
      | ⟨1, _⟩ => show win0_7.index tL 1 * win0_7.size 1 ≤ (i 1 : Nat) ∧ (i 1 : Nat) < win0_7.index tL 1 * win0_7.size 1 + win0_7.xsize (grid0.coords tL) 1
                  rw [show win0_7.index tL 1 * win0_7.size 1 = 0 from by decide +kernel, show win0_7.xsize (grid0.coords tL) 1 = 3 from by decide +kernel]; omega⟩

/-- Output 2's array after the run, in closed form. -/
abbrev out8 (c : Dev nD) : Buf (Elt Ideal) ((c : Thread nD τ).loc main_v1_2) := fun i => velSum (aP m c) (aG m c) ⟨(i 1).val, (i 1).isLt⟩

theorem flushed8 (c : Dev nD) (t : Fin cfg0.N) (hf : (cfg0.win 8).flush t = true) :
    (dats m 0 c).flushed 8 t = ((cfg0.win 8).blk t).view.read (Elt Ideal) (out8 m c) := by
  have hN : cfg0.N = 64 := N_0
  have h63' : t.val = nL := by rw [nL_eq]; have := (flush0_8 t).mp hf; have := t.isLt; omega
  obtain rfl : t = tL := Fin.ext h63'
  have hi := idxOut tL
  funext j
  show (dats m 0 c).after 8 tL ((cfg0.win 8).xinj (grid0.coords tL) j) = out8 m c (((cfg0.win 8).blk tL).view.emb j)
  rw [after0_8]
  have hj0 : (j 0).val < 1 := (j 0).isLt
  have hj1 : (j 1).val < 3 := (j 1).isLt
  have e1 : (cfg0.win 8).xinj (grid0.coords tL) j = ix2 (0 : Fin 1) (⟨(j 1).val, hj1⟩ : Fin 3) := by
    funext a; apply Fin.ext
    match a with
    | ⟨0, _⟩ => show (j 0).val = 0; omega
    | ⟨1, _⟩ => rfl
  rw [e1, res8_apply m c ⟨(j 1).val, hj1⟩]
  refine congrArg (velSum (aP m c) (aG m c)) (Fin.ext ?_)
  show (j 1).val = win0_8.index tL (1 : Fin 2) * 3 + 1 * (j 1).val
  rw [hi.2.2.2.2.2.1]; omega

theorem final8 (c : Dev nD) : (dats m 0 c).arrAt 8 cfg0.N = out8 m c :=
  (dats m 0 c).arrAt_eq_of_cover 8 (out8 m c) (flushed8 m c) fun i =>
    ⟨tL, (flush0_8 tL).mpr (by show nL % 64 = 63; rw [nL_eq]), by
      show i ∈ ((View.whole main_v1_2).slice (win0_8.rect tL)).set
      rw [View.set_slice_whole, Rect.mem_set_unit]
      intro a
      have h0 : (i 0 : Nat) < 1 := (i 0).isLt
      have h1 : (i 1 : Nat) < 3 := (i 1).isLt
      match a with
      | ⟨0, _⟩ => show win0_8.index tL 0 * win0_8.size 0 ≤ (i 0 : Nat) ∧ (i 0 : Nat) < win0_8.index tL 0 * win0_8.size 0 + win0_8.xsize (grid0.coords tL) 0
                  rw [show win0_8.index tL 0 * win0_8.size 0 = 0 from by decide +kernel, show win0_8.xsize (grid0.coords tL) 0 = 1 from by decide +kernel]; omega
      | ⟨1, _⟩ => show win0_8.index tL 1 * win0_8.size 1 ≤ (i 1 : Nat) ∧ (i 1 : Nat) < win0_8.index tL 1 * win0_8.size 1 + win0_8.xsize (grid0.coords tL) 1
                  rw [show win0_8.index tL 1 * win0_8.size 1 = 0 from by decide +kernel, show win0_8.xsize (grid0.coords tL) 1 = 3 from by decide +kernel]; omega⟩

/-- Output 3's array after the run, in closed form. -/
abbrev out9 (c : Dev nD) : Buf (Elt Ideal) ((c : Thread nD τ).loc main_v1_3) := fun _ => otherSum (aP m c) (aG m c)

theorem flushed9 (c : Dev nD) (t : Fin cfg0.N) (hf : (cfg0.win 9).flush t = true) :
    (dats m 0 c).flushed 9 t = ((cfg0.win 9).blk t).view.read (Elt Ideal) (out9 m c) := by
  have hN : cfg0.N = 64 := N_0
  have h63' : t.val = nL := by rw [nL_eq]; have := (flush0_9 t).mp hf; have := t.isLt; omega
  obtain rfl : t = tL := Fin.ext h63'
  have hi := idxOut tL
  funext j
  show (dats m 0 c).after 9 tL ((cfg0.win 9).xinj (grid0.coords tL) j) = out9 m c (((cfg0.win 9).blk tL).view.emb j)
  rw [after0_9]
  have hj0 : (j 0).val < 1 := (j 0).isLt
  have hj1 : (j 1).val < 1 := (j 1).isLt
  have e1 : (cfg0.win 9).xinj (grid0.coords tL) j = ix2 (0 : Fin 1) (0 : Fin 1) := by
    funext a; apply Fin.ext
    match a with
    | ⟨0, _⟩ => show (j 0).val = 0; omega
    | ⟨1, _⟩ => show (j 1).val = 0; omega
  rw [e1, res9_apply m c]

theorem final9 (c : Dev nD) : (dats m 0 c).arrAt 9 cfg0.N = out9 m c :=
  (dats m 0 c).arrAt_eq_of_cover 9 (out9 m c) (flushed9 m c) fun i =>
    ⟨tL, (flush0_9 tL).mpr (by show nL % 64 = 63; rw [nL_eq]), by
      show i ∈ ((View.whole main_v1_3).slice (win0_9.rect tL)).set
      rw [View.set_slice_whole, Rect.mem_set_unit]
      intro a
      have h0 : (i 0 : Nat) < 1 := (i 0).isLt
      have h1 : (i 1 : Nat) < 1 := (i 1).isLt
      match a with
      | ⟨0, _⟩ => show win0_9.index tL 0 * win0_9.size 0 ≤ (i 0 : Nat) ∧ (i 0 : Nat) < win0_9.index tL 0 * win0_9.size 0 + win0_9.xsize (grid0.coords tL) 0
                  rw [show win0_9.index tL 0 * win0_9.size 0 = 0 from by decide +kernel, show win0_9.xsize (grid0.coords tL) 0 = 1 from by decide +kernel]; omega
      | ⟨1, _⟩ => show win0_9.index tL 1 * win0_9.size 1 ≤ (i 1 : Nat) ∧ (i 1 : Nat) < win0_9.index tL 1 * win0_9.size 1 + win0_9.xsize (grid0.coords tL) 1
                  rw [show win0_9.index tL 1 * win0_9.size 1 = 0 from by decide +kernel, show win0_9.xsize (grid0.coords tL) 1 = 1 from by decide +kernel]; omega⟩

/-- Output 4's array after the run, in closed form. -/
abbrev out10 (c : Dev nD) : Buf (Elt Ideal) ((c : Thread nD τ).loc main_v1_4) := fun _ => obsSum (aR m c) (dist2Diff (aP m c) (aC m c) (aM m c) (aS m c))

theorem flushed10 (c : Dev nD) (t : Fin cfg0.N) (hf : (cfg0.win 10).flush t = true) :
    (dats m 0 c).flushed 10 t = ((cfg0.win 10).blk t).view.read (Elt Ideal) (out10 m c) := by
  have hN : cfg0.N = 64 := N_0
  have h63' : t.val = nL := by rw [nL_eq]; have := (flush0_10 t).mp hf; have := t.isLt; omega
  obtain rfl : t = tL := Fin.ext h63'
  have hi := idxOut tL
  funext j
  show (dats m 0 c).after 10 tL ((cfg0.win 10).xinj (grid0.coords tL) j) = out10 m c (((cfg0.win 10).blk tL).view.emb j)
  rw [after0_10]
  have hj0 : (j 0).val < 1 := (j 0).isLt
  have hj1 : (j 1).val < 1 := (j 1).isLt
  have e1 : (cfg0.win 10).xinj (grid0.coords tL) j = ix2 (0 : Fin 1) (0 : Fin 1) := by
    funext a; apply Fin.ext
    match a with
    | ⟨0, _⟩ => show (j 0).val = 0; omega
    | ⟨1, _⟩ => show (j 1).val = 0; omega
  rw [e1, res10_apply m c]

theorem final10 (c : Dev nD) : (dats m 0 c).arrAt 10 cfg0.N = out10 m c :=
  (dats m 0 c).arrAt_eq_of_cover 10 (out10 m c) (flushed10 m c) fun i =>
    ⟨tL, (flush0_10 tL).mpr (by show nL % 64 = 63; rw [nL_eq]), by
      show i ∈ ((View.whole main_v1_4).slice (win0_10.rect tL)).set
      rw [View.set_slice_whole, Rect.mem_set_unit]
      intro a
      have h0 : (i 0 : Nat) < 1 := (i 0).isLt
      have h1 : (i 1 : Nat) < 1 := (i 1).isLt
      match a with
      | ⟨0, _⟩ => show win0_10.index tL 0 * win0_10.size 0 ≤ (i 0 : Nat) ∧ (i 0 : Nat) < win0_10.index tL 0 * win0_10.size 0 + win0_10.xsize (grid0.coords tL) 0
                  rw [show win0_10.index tL 0 * win0_10.size 0 = 0 from by decide +kernel, show win0_10.xsize (grid0.coords tL) 0 = 1 from by decide +kernel]; omega
      | ⟨1, _⟩ => show win0_10.index tL 1 * win0_10.size 1 ≤ (i 1 : Nat) ∧ (i 1 : Nat) < win0_10.index tL 1 * win0_10.size 1 + win0_10.xsize (grid0.coords tL) 1
                  rw [show win0_10.index tL 1 * win0_10.size 1 = 0 from by decide +kernel, show win0_10.xsize (grid0.coords tL) 1 = 1 from by decide +kernel]; omega⟩

end Cert.KAccum

end
-- ==== Proof.KTail.lean ====
/-
  The host operations after the kernel, read as the loss's four results. They take the five accumulated arrays: each
  of the three [1, 3] arrays is divided by its element count and its three columns are added up, the two [1, 1] arrays
  are read as scalars and divided by theirs, and the results are combined with the fixed weights.
-/
import proofs.«114594_j69492570849790_2_alg».proof.KernelIdeal
import proofs.«114594_j69492570849790_2_alg».proof.Proof.Gen.KernelIdeal
import proofs.«114594_j69492570849790_2_alg».proof.Proof.Spec
import proofs.«114594_j69492570849790_2_alg».proof.Proof.LibSums3
import Idealize.ShloMosaic.Lib.Pipeline.Value
import Idealize.ShloMosaic.Lib.ValueIdx
import Idealize.ShloMosaic.PureOps.Ideal.Laws

noncomputable section

namespace Cert.KTail

open Cert.KernelIdeal Cert.KernelIdeal.Gen Cert.Loss Cert.LibSums3 Idealize.ShloMosaic Idealize.ShloMosaic.ValueIdx

/-- A [1, 3] array divided entrywise by a constant and totalled: the sum over the columns of the quotients. -/
theorem mean_read (o : FVec Ideal S1x3 .f32) (w : BitVec 32) (f : Fin 3 → EReal) (h : ∀ j, o (ix2 (0 : Fin 1) j) = f j) (i : S_.Idx) :
    Host.reduceAdd (Host.divf o (broadcastInDim S1x3 ![] bcast_S_S1x3 (constant (F := Ideal) S_ .f32 w)))
        (constant (F := Ideal) S_ .f32 0x00000000#32) reducesTo_S1x3_S_d0_1 h_S_ i
      = ∑ j : Fin 3, Ideal.div (f j) (Ideal.ofBits .f32 w) := by
  simp only [Host.reduceAdd, Ideal.hostReduceAdd_def]
  rw [Ideal.hostReduceAdd_total reducesTo_S1x3_S_d0_1 (fun b => b.elim0) _ _ i, sum_idx_1a]
  refine (congrArg (· + _) Ideal.ofBits_zero_f32).trans ((zero_add _).trans ?_)
  refine Finset.sum_congr rfl fun j _ => ?_
  show Ideal.div (o (ix2 (0 : Fin 1) j)) (Ideal.ofBits .f32 w) = _
  rw [h j]

variable (P G : Traj) (o6 o7 o8 : FVec Ideal S1x3 .f32) (o9 o10 : FVec Ideal S1x1 .f32) (obs : EReal)

theorem position_tail (h6 : ∀ j, o6 (ix2 (0 : Fin 1) j) = posSum P G j) (h7 : ∀ j, o7 (ix2 (0 : Fin 1) j) = lastSum P G j) (i : S_.Idx) :
    (addf (Host.reduceAdd (Host.divf o6 (broadcastInDim S1x3 ![] bcast_S_S1x3 (constant (F := Ideal) S_ .f32 0x48800000#32))) (constant (F := Ideal) S_ .f32 0x00000000#32) reducesTo_S1x3_S_d0_1 h_S_) (mulf (constant (F := Ideal) S_ .f32 0x41200000#32) (Host.reduceAdd (Host.divf o7 (broadcastInDim S1x3 ![] bcast_S_S1x3 (constant (F := Ideal) S_ .f32 0x42800000#32))) (constant (F := Ideal) S_ .f32 0x00000000#32) reducesTo_S1x3_S_d0_1 h_S_))) i = positionLoss P G := by
  show _ + _ * _ = _
  rw [mean_read o6 _ _ h6 i, mean_read o7 _ _ h7 i]
  rfl

theorem vel_tail (h8 : ∀ j, o8 (ix2 (0 : Fin 1) j) = velSum P G j) (i : S_.Idx) :
    (Host.reduceAdd (Host.divf o8 (broadcastInDim S1x3 ![] bcast_S_S1x3 (constant (F := Ideal) S_ .f32 0x487FF000#32))) (constant (F := Ideal) S_ .f32 0x00000000#32) reducesTo_S1x3_S_d0_1 h_S_) i = velLoss P G :=
  mean_read o8 _ _ h8 i

theorem other_tail (h9 : o9 (ix2 (0 : Fin 1) (0 : Fin 1)) = otherSum P G) (i : S_.Idx) :
    (Host.divf (fun i => shapeCast S_ o9 shapeCasts_S1x1_S_ i) (constant (F := Ideal) S_ .f32 0x4AE80000#32)) i = otherLoss P G := by
  show Ideal.div (shapeCast S_ o9 shapeCasts_S1x1_S_ i) _ = _
  rw [shapeCast_11_scalar_apply, h9]
  rfl

theorem obstacle_tail (h10 : o10 (ix2 (0 : Fin 1) (0 : Fin 1)) = obs) (i : S_.Idx) :
    (Host.divf (fun i => shapeCast S_ o10 shapeCasts_S1x1_S_ i) (constant (F := Ideal) S_ .f32 0x48800000#32)) i = obstacleLoss obs := by
  show Ideal.div (shapeCast S_ o10 shapeCasts_S1x1_S_ i) _ = _
  rw [shapeCast_11_scalar_apply, h10]
  rfl

theorem total_tail (h6 : ∀ j, o6 (ix2 (0 : Fin 1) j) = posSum P G j) (h7 : ∀ j, o7 (ix2 (0 : Fin 1) j) = lastSum P G j)
    (h8 : ∀ j, o8 (ix2 (0 : Fin 1) j) = velSum P G j) (h9 : o9 (ix2 (0 : Fin 1) (0 : Fin 1)) = otherSum P G)
    (h10 : o10 (ix2 (0 : Fin 1) (0 : Fin 1)) = obs) (i : S_.Idx) :
    (addf (addf (addf (mulf (constant (F := Ideal) S_ .f32 0x40000000#32) (addf (Host.reduceAdd (Host.divf o6 (broadcastInDim S1x3 ![] bcast_S_S1x3 (constant (F := Ideal) S_ .f32 0x48800000#32))) (constant (F := Ideal) S_ .f32 0x00000000#32) reducesTo_S1x3_S_d0_1 h_S_) (mulf (constant (F := Ideal) S_ .f32 0x41200000#32) (Host.reduceAdd (Host.divf o7 (broadcastInDim S1x3 ![] bcast_S_S1x3 (constant (F := Ideal) S_ .f32 0x42800000#32))) (constant (F := Ideal) S_ .f32 0x00000000#32) reducesTo_S1x3_S_d0_1 h_S_)))) (mulf (constant (F := Ideal) S_ .f32 0x3F000000#32) (Host.reduceAdd (Host.divf o8 (broadcastInDim S1x3 ![] bcast_S_S1x3 (constant (F := Ideal) S_ .f32 0x487FF000#32))) (constant (F := Ideal) S_ .f32 0x00000000#32) reducesTo_S1x3_S_d0_1 h_S_))) (Host.divf (fun i => shapeCast S_ o9 shapeCasts_S1x1_S_ i) (constant (F := Ideal) S_ .f32 0x4AE80000#32))) (mulf (constant (F := Ideal) S_ .f32 0x41200000#32) (Host.divf (fun i => shapeCast S_ o10 shapeCasts_S1x1_S_ i) (constant (F := Ideal) S_ .f32 0x48800000#32)))) i = totalLoss P G obs := by
  show ((_ * (addf (Host.reduceAdd (Host.divf o6 (broadcastInDim S1x3 ![] bcast_S_S1x3 (constant (F := Ideal) S_ .f32 0x48800000#32))) (constant (F := Ideal) S_ .f32 0x00000000#32) reducesTo_S1x3_S_d0_1 h_S_) (mulf (constant (F := Ideal) S_ .f32 0x41200000#32) (Host.reduceAdd (Host.divf o7 (broadcastInDim S1x3 ![] bcast_S_S1x3 (constant (F := Ideal) S_ .f32 0x42800000#32))) (constant (F := Ideal) S_ .f32 0x00000000#32) reducesTo_S1x3_S_d0_1 h_S_))) i + _ * (Host.reduceAdd (Host.divf o8 (broadcastInDim S1x3 ![] bcast_S_S1x3 (constant (F := Ideal) S_ .f32 0x487FF000#32))) (constant (F := Ideal) S_ .f32 0x00000000#32) reducesTo_S1x3_S_d0_1 h_S_) i) + (Host.divf (fun i => shapeCast S_ o9 shapeCasts_S1x1_S_ i) (constant (F := Ideal) S_ .f32 0x4AE80000#32)) i) + _ * (Host.divf (fun i => shapeCast S_ o10 shapeCasts_S1x1_S_ i) (constant (F := Ideal) S_ .f32 0x48800000#32)) i = _
  rw [position_tail P G o6 o7 h6 h7 i, vel_tail P G o8 h8 i, other_tail P G o9 h9 i, obstacle_tail o10 obs h10 i]
  rfl

end Cert.KTail

end
-- ==== Proof.KRun.lean ====
/-
  The kernel's run, read: the four results of the idealized kernel as the loss's terms. The five output arrays end at
  the sums over the batch; the host operations after the kernel turn them into the position loss, the velocity loss,
  the obstacle loss and the weighted total; and the six argument arrays end unchanged.
-/
import proofs.«114594_j69492570849790_2_alg».proof.Proof.KFinal
import proofs.«114594_j69492570849790_2_alg».proof.Proof.KTail

noncomputable section

open Idealize.ShloMosaic Idealize.ShloMosaic.TcCoe Idealize.SL.Sem Idealize.ShloMosaic.ValueIdx
open Idealize.ShloMosaic.Pipeline (Dat)

namespace Cert.KRun

open Cert.KernelIdeal Cert.KernelIdeal.Gen Cert.Loss Cert.KAccum

variable (m : (ℓ : Loc nD τ sig) → Buf (Elt Ideal) ℓ) (ρ : Dev nD → PrngReg)

/-- The accumulated obstacle sum, with the squared distance as the sum of squared differences. -/
abbrev obsK (c : Dev nD) : EReal := obsSum (aR m c) (dist2Diff (aP m c) (aC m c) (aM m c) (aS m c))

/-! ## The output arrays as the host operations after the kernel find them -/

theorem W6 (c : Dev nD) : Pipeline.withArrays (cfgs 0).spec c (V0 m c) (fun w => (dats m 0 c).arrAt w (cfgs 0).N) (Proc.devRef .tc main_v1_0) = out6 m c :=
  (Pipeline.withArrays_arr spec0 launch0.win.arr_inj c _ _ 6).trans (final6 m c)

theorem W7 (c : Dev nD) : Pipeline.withArrays (cfgs 0).spec c (V0 m c) (fun w => (dats m 0 c).arrAt w (cfgs 0).N) (Proc.devRef .tc main_v1_1) = out7 m c :=
  (Pipeline.withArrays_arr spec0 launch0.win.arr_inj c _ _ 7).trans (final7 m c)

theorem W8 (c : Dev nD) : Pipeline.withArrays (cfgs 0).spec c (V0 m c) (fun w => (dats m 0 c).arrAt w (cfgs 0).N) (Proc.devRef .tc main_v1_2) = out8 m c :=
  (Pipeline.withArrays_arr spec0 launch0.win.arr_inj c _ _ 8).trans (final8 m c)

theorem W9 (c : Dev nD) : Pipeline.withArrays (cfgs 0).spec c (V0 m c) (fun w => (dats m 0 c).arrAt w (cfgs 0).N) (Proc.devRef .tc main_v1_3) = out9 m c :=
  (Pipeline.withArrays_arr spec0 launch0.win.arr_inj c _ _ 9).trans (final9 m c)

theorem W10 (c : Dev nD) : Pipeline.withArrays (cfgs 0).spec c (V0 m c) (fun w => (dats m 0 c).arrAt w (cfgs 0).N) (Proc.devRef .tc main_v1_4) = out10 m c :=
  (Pipeline.withArrays_arr spec0 launch0.win.arr_inj c _ _ 10).trans (final10 m c)

/-! ## The four results -/

theorem tail_total (c : Dev nD) :
    Pipeline.afterTail₀ cfgs (dats m) 0 (V0 m) [hostOps1] c main_v22 = fun _ => totalLoss (aP m c) (aG m c) (obsK m c) := by
  unfold Pipeline.afterTail₀
  show StableHlo.after hostOps1 _ (Proc.devRef .tc main_v22) = _
  after_results_simp
  rw [W6 m c, W7 m c, W8 m c, W9 m c, W10 m c]
  exact funext fun i => Cert.KTail.total_tail (aP m c) (aG m c) (out6 m c) (out7 m c) (out8 m c) (out9 m c) (out10 m c) (obsK m c)
    (fun _ => rfl) (fun _ => rfl) (fun _ => rfl) rfl rfl i

theorem tail_position (c : Dev nD) :
    Pipeline.afterTail₀ cfgs (dats m) 0 (V0 m) [hostOps1] c main_v9 = fun _ => positionLoss (aP m c) (aG m c) := by
  unfold Pipeline.afterTail₀
  show StableHlo.after hostOps1 _ (Proc.devRef .tc main_v9) = _
  after_results_simp
  rw [W6 m c, W7 m c]
  exact funext fun i => Cert.KTail.position_tail (aP m c) (aG m c) (out6 m c) (out7 m c) (fun _ => rfl) (fun _ => rfl) i

theorem tail_vel (c : Dev nD) :
    Pipeline.afterTail₀ cfgs (dats m) 0 (V0 m) [hostOps1] c main_v12 = fun _ => velLoss (aP m c) (aG m c) := by
  unfold Pipeline.afterTail₀
  show StableHlo.after hostOps1 _ (Proc.devRef .tc main_v12) = _
  after_results_simp
  rw [W8 m c]
  exact funext fun i => Cert.KTail.vel_tail (aP m c) (aG m c) (out8 m c) (fun _ => rfl) i

theorem tail_obstacle (c : Dev nD) :
    Pipeline.afterTail₀ cfgs (dats m) 0 (V0 m) [hostOps1] c main_v16 = fun _ => obstacleLoss (obsK m c) := by
  unfold Pipeline.afterTail₀
  show StableHlo.after hostOps1 _ (Proc.devRef .tc main_v16) = _
  after_results_simp
  rw [W10 m c]
  exact funext fun i => Cert.KTail.obstacle_tail (out10 m c) (obsK m c) rfl i

/-! ## The run -/

/-- Every weakly fair execution of the idealized kernel terminates with its four results at the loss's terms of the
    argument arrays, and the argument arrays unchanged. -/
theorem run : θ_run defs (onTc (τ := τ) (main (F := Ideal))) ⟨m, fun _ => 0, ρ⟩ fun r => ∀ c : Dev nD,
      r.2.mem ((c : Thread nD τ).loc main_v22) = (fun _ => totalLoss (aP m c) (aG m c) (obsK m c))
      ∧ r.2.mem ((c : Thread nD τ).loc main_v9) = (fun _ => positionLoss (aP m c) (aG m c))
      ∧ r.2.mem ((c : Thread nD τ).loc main_v12) = (fun _ => velLoss (aP m c) (aG m c))
      ∧ r.2.mem ((c : Thread nD τ).loc main_v16) = (fun _ => obstacleLoss (obsK m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c =>
    ⟨((h c).2 main_v22 (Pipeline.mem_restRefs_of main_v22 (by decide) (by decide))).trans (tail_total m c),
      ((h c).2 main_v9 (Pipeline.mem_restRefs_of main_v9 (by decide) (by decide))).trans (tail_position m c),
      ((h c).2 main_v12 (Pipeline.mem_restRefs_of main_v12 (by decide) (by decide))).trans (tail_vel m c),
      ((h c).2 main_v16 (Pipeline.mem_restRefs_of main_v16 (by decide) (by decide))).trans (tail_obstacle m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end Cert.KRun

end
-- ==== Proof.RefValue.lean ====
/-
  The reference's run, read as the specification's terms.

  The reference computes four numbers from the six argument arrays by slicing, elementwise arithmetic, broadcasts, one
  contraction and sums. Each stage is read here at an index written by coordinates, so that every sum becomes a sum over
  `Fin`-indexed coordinates in the order the specification uses:
  * a sum over the batch and step axes of a `[64, n, 3]` array into `[3]` is, at coordinate `j`, the double sum over
    `(b, s)` of the entries `(b, s, j)`;
  * a total over every index of a rank-3 array is the threefold sum over its coordinates, and finite sums over the extended
    reals commute and re-associate freely, so the centre axis may be summed before the step axis;
  * the concatenation of feature 0 with features 4 … 31 has 29 coordinates on the feature axis: coordinate 0 reads
    feature 0 and coordinate `l + 1` reads feature `l + 4`, so the sum over the 29 splits as 1 + 28;
  * every sum starts from the zero word, which is the extended real 0.
  The squared distance is met in the reference's own spelling, |p|² + |c|² − 2 p·c, with p·c the contraction over the three
  coordinates. No step needs the entries to be finite: only re-indexing, commutativity and associativity of sums are used.
-/
import proofs.«114594_j69492570849790_2_alg».proof.Defs
import proofs.«114594_j69492570849790_2_alg».proof.Proof.Gen.ReferenceIdeal.Run
import proofs.«114594_j69492570849790_2_alg».proof.Proof.Gen.ReferenceIdeal.Read
import proofs.«114594_j69492570849790_2_alg».proof.Proof.Spec
import proofs.«114594_j69492570849790_2_alg».proof.Proof.LibSums3

noncomputable section

namespace Cert.RefValue

open Cert.ReferenceIdeal Cert.ReferenceIdeal.Gen Cert.ReferenceIdeal.Read Idealize.ShloMosaic Idealize.ShloMosaic.ValueIdx Cert.Loss Cert.LibSums3

/-! ## The position and velocity terms -/

section PosVel

variable (x0 x1 : Traj)

/-- The zero word every sum starts from. -/
theorem zero_init (i : S_.Idx) : constant (F := Ideal) S_ .f32 0x00000000#32 i = 0 := Ideal.ofBits_zero_f32

/-- The slice of the three position features, at `(b, s, j)`: feature `j + 1`. -/
theorem idx_posP (b : Fin 64) (s : Fin 4096) (j : Fin 3) : idx_main_v0 (ix3 b s j) = ix3 b s (posF j) :=
  funext fun a => Fin.ext (by
    match a with
    | ⟨0, _⟩ => rfl
    | ⟨1, _⟩ => rfl
    | ⟨2, _⟩ => exact Nat.add_comm 1 j.val)

theorem idx_posG (b : Fin 64) (s : Fin 4096) (j : Fin 3) : idx_main_v1 (ix3 b s j) = ix3 b s (posF j) := idx_posP b s j

/-- The squared position error at `(b, s, j)`. -/
theorem posSq_at (b : Fin 64) (s : Fin 4096) (j : Fin 3) :
    val_main_v3 (F := Ideal) x0 x1 (ix3 b s j) = Loss.sq (err x0 x1 b s (posF j)) := by
  rw [val_main_v3_apply, val_main_v2_apply, val_main_v0_apply, val_main_v1_apply, idx_posP, idx_posG]
  rfl

/-- Summed over the batch and the steps: the position sum of coordinate `j`. -/
theorem posSum_read (j : Fin 3) : val_main_v4 (F := Ideal) x0 x1 (ix1 j) = posSum x0 x1 j := by
  unfold val_main_v4
  simp only [Host.reduceAdd, Ideal.hostReduceAdd_def]
  rw [hostSum_first2of3]
  refine (congrArg (· + _) (zero_init _)).trans ((zero_add _).trans ?_)
  exact Finset.sum_congr rfl fun b _ => Finset.sum_congr rfl fun s _ => posSq_at x0 x1 b s j

/-- Divided by the element count and summed over the coordinates: the mean squared position error. -/
theorem posMse_read (i : S_.Idx) : val_main_v7 (F := Ideal) x0 x1 i = posMse x0 x1 := by
  rw [val_main_v7_apply, sum_idx1]
  refine (congrArg (· + _) (zero_init _)).trans ((zero_add _).trans ?_)
  refine Finset.sum_congr rfl fun j _ => ?_
  rw [val_main_v6_apply, posSum_read, val_main_v5_apply]
  rfl

/-- The last step of the position slice, reshaped to `[64, 3]`, at `(k, j)`: step 4095, feature `j + 1`. -/
theorem idx_last (k : Fin 64) (j : Fin 3) :
    idx_main_v0 (idx_main_v8 (idx_main_v9 (ix2 k j))) = ix3 k lastS (posF j) :=
  funext fun a => Fin.ext (by
    have hj := j.isLt
    match a with
    | ⟨0, _⟩ => show (k.val * 3 + j.val) / 3 = k.val; omega
    | ⟨1, _⟩ => rfl
    | ⟨2, _⟩ => show 1 + (k.val * 3 + j.val) % 3 = j.val + 1; omega)

/-- The squared error at the last step. -/
theorem lastTerm_read (k : Fin 64) (j : Fin 3) :
    val_main_v13 (F := Ideal) x0 x1 (ix2 k j) = lastTerm x0 x1 k j := by
  rw [val_main_v13_apply, val_main_v12_apply, val_main_v9_apply, val_main_v8_apply, val_main_v0_apply,
    val_main_v11_apply, val_main_v10_apply, val_main_v1_apply]
  have e1 : idx_main_v1 (idx_main_v10 (idx_main_v11 (ix2 k j))) = ix3 k lastS (posF j) := idx_last k j
  rw [idx_last, e1]
  rfl

theorem lastSum_read (j : Fin 3) : val_main_v14 (F := Ideal) x0 x1 (ix1 j) = lastSum x0 x1 j := by
  rw [val_main_v14_apply]
  refine (congrArg (· + _) (zero_init _)).trans ((zero_add _).trans ?_)
  refine Finset.sum_congr rfl fun k _ => ?_
  have e : idx_main_v14 (ix1 j) k = ix2 k j := funext fun a => Fin.ext (by
    match a with
    | ⟨0, _⟩ => rfl
    | ⟨1, _⟩ => rfl)
  rw [e, lastTerm_read]

theorem lastMse_read (i : S_.Idx) : val_main_v17 (F := Ideal) x0 x1 i = lastMse x0 x1 := by
  rw [val_main_v17_apply, sum_idx1]
  refine (congrArg (· + _) (zero_init _)).trans ((zero_add _).trans ?_)
  refine Finset.sum_congr rfl fun j _ => ?_
  rw [val_main_v16_apply, lastSum_read, val_main_v15_apply]
  rfl

/-- The reference's position loss is the specification's. -/
theorem positionLoss_read (i : S_.Idx) : val_main_v19 (F := Ideal) x0 x1 i = positionLoss x0 x1 := by
  rw [val_main_v19_apply, val_main_v18_apply, posMse_read, lastMse_read]
  rfl

/-- Steps `s + 1` and `s` of the position slice. -/
theorem idx_next (b : Fin 64) (s : Fin 4095) (j : Fin 3) :
    idx_main_v0 (idx_main_v20 (ix3 b s j)) = ix3 b (nextS s) (posF j) :=
  funext fun a => Fin.ext (by
    match a with
    | ⟨0, _⟩ => rfl
    | ⟨1, _⟩ => exact Nat.add_comm 1 s.val
    | ⟨2, _⟩ => exact Nat.add_comm 1 j.val)

theorem idx_prev (b : Fin 64) (s : Fin 4095) (j : Fin 3) :
    idx_main_v0 (idx_main_v21 (ix3 b s j)) = ix3 b (prevS s) (posF j) :=
  funext fun a => Fin.ext (by
    match a with
    | ⟨0, _⟩ => rfl
    | ⟨1, _⟩ => rfl
    | ⟨2, _⟩ => exact Nat.add_comm 1 j.val)

/-- The squared error of the step-to-step differences at `(b, s, j)`. -/
theorem velSq_at (b : Fin 64) (s : Fin 4095) (j : Fin 3) :
    val_main_v27 (F := Ideal) x0 x1 (ix3 b s j)
      = Loss.sq ((x0 (ix3 b (nextS s) (posF j)) - x0 (ix3 b (prevS s) (posF j)))
          - (x1 (ix3 b (nextS s) (posF j)) - x1 (ix3 b (prevS s) (posF j)))) := by
  rw [val_main_v27_apply, val_main_v26_apply, val_main_v22_apply, val_main_v25_apply, val_main_v20_apply,
    val_main_v21_apply, val_main_v23_apply, val_main_v24_apply, val_main_v0_apply, val_main_v0_apply,
    val_main_v1_apply, val_main_v1_apply]
  have e3 : idx_main_v1 (idx_main_v23 (ix3 b s j)) = ix3 b (nextS s) (posF j) := idx_next b s j
  have e4 : idx_main_v1 (idx_main_v24 (ix3 b s j)) = ix3 b (prevS s) (posF j) := idx_prev b s j
  rw [idx_next, idx_prev, e3, e4]
  rfl

theorem velSum_read (j : Fin 3) : val_main_v28 (F := Ideal) x0 x1 (ix1 j) = velSum x0 x1 j := by
  unfold val_main_v28
  simp only [Host.reduceAdd, Ideal.hostReduceAdd_def]
  rw [hostSum_first2of3]
  refine (congrArg (· + _) (zero_init _)).trans ((zero_add _).trans ?_)
  exact Finset.sum_congr rfl fun b _ => Finset.sum_congr rfl fun s _ => velSq_at x0 x1 b s j

/-- The reference's velocity loss is the specification's. -/
theorem velLoss_read (i : S_.Idx) : val_main_v31 (F := Ideal) x0 x1 i = velLoss x0 x1 := by
  rw [val_main_v31_apply, sum_idx1]
  refine (congrArg (· + _) (zero_init _)).trans ((zero_add _).trans ?_)
  refine Finset.sum_congr rfl fun j _ => ?_
  rw [val_main_v30_apply, velSum_read, val_main_v29_apply]
  rfl

end PosVel

/-! ## The obstacle term -/

section Obstacle

variable (x0 : Traj) (x2 : Centers) (x3 : Radii) (x4 x5 : Stats)

/-- The per-feature statistic broadcast over the batch and the steps, at `(b, s, d)`: its entry for feature `d + 1`. -/
theorem idx_stat (b : Fin 64) (s : Fin 4096) (d : Fin 3) :
    idx_main_v42 (idx_main_v43 (idx_main_v44 (idx_main_v45 (ix3 b s d)))) = ix3 (0 : Fin 1) (0 : Fin 1) (posF d) :=
  funext fun a => Fin.ext (by
    have hd := d.isLt
    match a with
    | ⟨0, _⟩ => rfl
    | ⟨1, _⟩ => rfl
    | ⟨2, _⟩ => show 1 + d.val % 3 = d.val + 1; omega)

/-- The scaled and shifted position at `(b, s, d)`. -/
theorem posDn_read (b : Fin 64) (s : Fin 4096) (d : Fin 3) :
    val_main_v51 (F := Ideal) x0 x4 x5 (ix3 b s d) = posDn x0 x4 x5 b s d := by
  rw [val_main_v51_apply, val_main_v46_apply, val_main_v0_apply, val_main_v45_apply, val_main_v44_apply,
    val_main_v43_apply, val_main_v42_apply, val_main_v50_apply, val_main_v49_apply, val_main_v48_apply,
    val_main_v47_apply]
  have e : idx_main_v47 (idx_main_v48 (idx_main_v49 (idx_main_v50 (ix3 b s d)))) = ix3 (0 : Fin 1) (0 : Fin 1) (posF d) :=
    idx_stat b s d
  rw [idx_posP, idx_stat, e]
  rfl

/-- |p|² at `(b, s)`. -/
theorem normP_read (b : Fin 64) (s : Fin 4096) :
    val_main_v53 (F := Ideal) x0 x4 x5 (ix2 b s) = ∑ d : Fin 3, posDn x0 x4 x5 b s d * posDn x0 x4 x5 b s d := by
  rw [val_main_v53_apply]
  refine (congrArg (· + _) (zero_init _)).trans ((zero_add _).trans ?_)
  refine Finset.sum_congr rfl fun d _ => ?_
  have e : idx_main_v53 (ix2 b s) d = ix3 b s d := funext fun a => Fin.ext (by
    match a with
    | ⟨0, _⟩ => rfl
    | ⟨1, _⟩ => rfl
    | ⟨2, _⟩ => rfl)
  rw [e, val_main_v52_apply, posDn_read]
  rfl

/-- |c|² at `(b, k)`. -/
theorem normC_read (b : Fin 64) (k : Fin 32) :
    val_main_v55 (F := Ideal) x2 (ix2 b k) = ∑ d : Fin 3, x2 (ix3 b k d) * x2 (ix3 b k d) := by
  rw [val_main_v55_apply]
  refine (congrArg (· + _) (zero_init _)).trans ((zero_add _).trans ?_)
  refine Finset.sum_congr rfl fun d _ => ?_
  have e : idx_main_v55 (ix2 b k) d = ix3 b k d := funext fun a => Fin.ext (by
    match a with
    | ⟨0, _⟩ => rfl
    | ⟨1, _⟩ => rfl
    | ⟨2, _⟩ => rfl)
  rw [e, val_main_v54_apply]
  rfl

/-- p·c at `(b, s, k)`: the contraction over the three coordinates. -/
theorem dotPC_read (b : Fin 64) (s : Fin 4096) (k : Fin 32) :
    val_main_v56 (F := Ideal) x0 x2 x4 x5 (ix3 b s k) = ∑ d : Fin 3, posDn x0 x4 x5 b s d * x2 (ix3 b k d) := by
  rw [val_main_v56_apply]
  refine Finset.sum_congr rfl fun d _ => ?_
  have el : lidx_main_v56 (ix3 b s k) d = ix3 b s d := funext fun a => Fin.ext (by
    match a with
    | ⟨0, _⟩ => rfl
    | ⟨1, _⟩ => rfl
    | ⟨2, _⟩ => rfl)
  have er : ridx_main_v56 (ix3 b s k) d = ix3 b k d := funext fun a => Fin.ext (by
    match a with
    | ⟨0, _⟩ => rfl
    | ⟨1, _⟩ => rfl
    | ⟨2, _⟩ => rfl)
  rw [el, er, posDn_read]

/-- The squared distance at `(b, s, k)`, spelt |p|² + |c|² − 2 p·c. -/
theorem dist2_read (b : Fin 64) (s : Fin 4096) (k : Fin 32) :
    val_main_v64 (F := Ideal) x0 x2 x4 x5 (ix3 b s k) = dist2Dot x0 x2 x4 x5 b s k := by
  rw [val_main_v64_apply, val_main_v61_apply, val_main_v59_apply, val_main_v57_apply, val_main_v60_apply,
    val_main_v58_apply, val_main_v63_apply, val_main_v62_apply]
  have e1 : idx_main_v57 (idx_main_v59 (ix3 b s k)) = ix2 b s := funext fun a => Fin.ext (by
    match a with
    | ⟨0, _⟩ => rfl
    | ⟨1, _⟩ => rfl)
  have e2 : idx_main_v58 (idx_main_v60 (ix3 b s k)) = ix2 b k := funext fun a => Fin.ext (by
    match a with
    | ⟨0, _⟩ => rfl
    | ⟨1, _⟩ => rfl)
  rw [e1, e2, normP_read, normC_read, dotPC_read]
  rfl

/-- The squared penalty at `(b, s, k)`. -/
theorem penaltySq_at (b : Fin 64) (s : Fin 4096) (k : Fin 32) :
    val_main_v75 (F := Ideal) x0 x2 x3 x4 x5 (ix3 b s k)
      = Loss.sq (penalty x3 b k (dist2Dot x0 x2 x4 x5 b s k)) := by
  rw [val_main_v75_apply, val_main_v74_apply, val_main_v72_apply, val_main_v71_apply, val_main_v70_apply,
    val_main_v69_apply, val_main_v68_apply, val_main_v67_apply, val_main_v66_apply, dist2_read, val_main_v65_apply,
    val_main_v73_apply]
  have e : idx_main_v68 (idx_main_v71 (ix3 b s k)) = ix2 b k := funext fun a => Fin.ext (by
    match a with
    | ⟨0, _⟩ => rfl
    | ⟨1, _⟩ => rfl)
  have z1 : val_main_cst_14 (F := Ideal) (idx_main_v65 (ix3 b s k)) = 0 := zero_init _
  have z2 : val_main_cst_16 (F := Ideal) (idx_main_v73 (ix3 b s k)) = 0 := zero_init _
  rw [e, z1, z2]
  rfl

/-- The reference's obstacle loss is the specification's, at the |p|² + |c|² − 2 p·c spelling of the distance:
    the total over every index is the sum over the batch, then the centres, then the steps. -/
theorem obstacleLoss_read (i : S_.Idx) :
    val_main_v77 (F := Ideal) x0 x2 x3 x4 x5 i = obstacleLoss (obsSum x3 (dist2Dot x0 x2 x4 x5)) := by
  rw [val_main_v77_apply, val_main_v76_apply, sum_idx3]
  have hs : (val_main_cst_17 (F := Ideal)) (Shape.Idx.first h_S_)
      + ∑ b : Fin 64, ∑ s : Fin 4096, ∑ k : Fin 32, val_main_v75 (F := Ideal) x0 x2 x3 x4 x5 (ix3 b s k)
      = obsSum x3 (dist2Dot x0 x2 x4 x5) := by
    refine (congrArg (· + _) (zero_init _)).trans ((zero_add _).trans ?_)
    refine Finset.sum_congr rfl fun b _ => ?_
    rw [Finset.sum_comm]
    exact Finset.sum_congr rfl fun k _ => Finset.sum_congr rfl fun s _ => penaltySq_at x0 x2 x3 x4 x5 b s k
  rw [hs]
  rfl

end Obstacle

/-! ## The other-features term and the total -/

section Other

variable (x0 x1 : Traj)

/-- The concatenation's first coordinate on the feature axis is feature 0 … -/
theorem catP_zero (x : Traj) (b : Fin 64) (s : Fin 4096) :
    val_main_v34 (F := Ideal) x (ix3 b s (0 : Fin 29)) = x (ix3 b s (0 : Fin 32)) := by
  unfold val_main_v34
  rw [concatenate_pair_apply_left (t := S64x4096x29) (s₁ := S64x4096x1) (s₂ := S64x4096x28) (2 : Fin 3)
    (val_main_v32 (F := Ideal) x) (val_main_v33 (F := Ideal) x) concatenates_S64x4096x1_S64x4096x28_S64x4096x29_d2
    (ix3 b s (0 : Fin 29)) rfl (ix3 b s (0 : Fin 1)) (fun a => by
    match a with
    | ⟨0, _⟩ => rfl
    | ⟨1, _⟩ => rfl
    | ⟨2, _⟩ => rfl), val_main_v32_apply]
  exact congrArg x (funext fun a => Fin.ext (by
    match a with
    | ⟨0, _⟩ => rfl
    | ⟨1, _⟩ => rfl
    | ⟨2, _⟩ => rfl))

/-- … and its coordinate `l + 1` is feature `l + 4`. -/
theorem catP_succ (x : Traj) (b : Fin 64) (s : Fin 4096) (l : Fin 28) :
    val_main_v34 (F := Ideal) x (ix3 b s (l.succ : Fin 29)) = x (ix3 b s (restF l)) := by
  unfold val_main_v34
  rw [concatenate_pair_apply_right (t := S64x4096x29) (s₁ := S64x4096x1) (s₂ := S64x4096x28) (2 : Fin 3)
    (val_main_v32 (F := Ideal) x) (val_main_v33 (F := Ideal) x) concatenates_S64x4096x1_S64x4096x28_S64x4096x29_d2
    (ix3 b s (l.succ : Fin 29)) rfl rfl (ix3 b s l) (fun a ha => by
    match a with
    | ⟨0, _⟩ => rfl
    | ⟨1, _⟩ => rfl
    | ⟨2, _⟩ => exact absurd rfl ha) rfl, val_main_v33_apply]
  exact congrArg x (funext fun a => Fin.ext (by
    match a with
    | ⟨0, _⟩ => rfl
    | ⟨1, _⟩ => rfl
    | ⟨2, _⟩ => exact Nat.add_comm 4 l.val))

theorem catG_zero (x : Traj) (b : Fin 64) (s : Fin 4096) :
    val_main_v37 (F := Ideal) x (ix3 b s (0 : Fin 29)) = x (ix3 b s (0 : Fin 32)) := catP_zero x b s

theorem catG_succ (x : Traj) (b : Fin 64) (s : Fin 4096) (l : Fin 28) :
    val_main_v37 (F := Ideal) x (ix3 b s (l.succ : Fin 29)) = x (ix3 b s (restF l)) := catP_succ x b s l

theorem otherSq_zero (b : Fin 64) (s : Fin 4096) :
    val_main_v39 (F := Ideal) x0 x1 (ix3 b s (0 : Fin 29)) = Loss.sq (err x0 x1 b s 0) := by
  rw [val_main_v39_apply, val_main_v38_apply, catP_zero, catG_zero]
  rfl

theorem otherSq_succ (b : Fin 64) (s : Fin 4096) (l : Fin 28) :
    val_main_v39 (F := Ideal) x0 x1 (ix3 b s (l.succ : Fin 29)) = Loss.sq (err x0 x1 b s (restF l)) := by
  rw [val_main_v39_apply, val_main_v38_apply, catP_succ, catG_succ]
  rfl

/-- The total over every index of the 29 other features, regrouped: per batch entry, feature 0's sum over the steps
    plus, for each of the 28 later features, its sum over the steps. -/
theorem otherSum_read (i : S_.Idx) : val_main_v40 (F := Ideal) x0 x1 i = otherSum x0 x1 := by
  rw [val_main_v40_apply, sum_idx3]
  refine (congrArg (· + _) (zero_init _)).trans ((zero_add _).trans ?_)
  refine Finset.sum_congr rfl fun b _ => ?_
  have h1 : ∀ s : Fin 4096, ∑ f : Fin 29, val_main_v39 (F := Ideal) x0 x1 (ix3 b s f)
      = Loss.sq (err x0 x1 b s 0) + ∑ l : Fin 28, Loss.sq (err x0 x1 b s (restF l)) := fun s => by
    rw [Fin.sum_univ_succ, otherSq_zero]
    exact congrArg (_ + ·) (Finset.sum_congr rfl fun l _ => otherSq_succ x0 x1 b s l)
  rw [Finset.sum_congr rfl fun s _ => h1 s, Finset.sum_add_distrib, Finset.sum_comm]
  rfl

theorem otherLoss_read (i : S_.Idx) : val_main_v41 (F := Ideal) x0 x1 i = otherLoss x0 x1 := by
  rw [val_main_v41_apply, otherSum_read]
  rfl

variable (x2 : Centers) (x3 : Radii) (x4 x5 : Stats)

/-- The reference's total is the specification's weighted combination of the four losses. -/
theorem totalLoss_read (i : S_.Idx) :
    val_main_v83 (F := Ideal) x0 x1 x2 x3 x4 x5 i
      = totalLoss x0 x1 (obsSum x3 (dist2Dot x0 x2 x4 x5)) := by
  rw [val_main_v83_apply, val_main_v81_apply, val_main_v80_apply, val_main_v78_apply, val_main_v79_apply,
    val_main_v82_apply, positionLoss_read, velLoss_read, otherLoss_read, obstacleLoss_read]
  rfl

end Other

/-! ## The run -/

open Idealize.ShloMosaic.TcCoe Idealize.SL.Sem Idealize.ShloMosaic.StableHlo

/-- Every weakly fair execution of the reference terminates with its four results at the specification's four losses of
    the argument arrays, the obstacle term at the |p|² + |c|² − 2 p·c spelling of the squared distance, and the arguments
    unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v83)
          = (fun _ => totalLoss (m ((c.tc : Thread nD τ).loc main_arg0)) (m ((c.tc : Thread nD τ).loc main_arg1))
              (obsSum (m ((c.tc : Thread nD τ).loc main_arg3))
                (dist2Dot (m ((c.tc : Thread nD τ).loc main_arg0)) (m ((c.tc : Thread nD τ).loc main_arg2))
                  (m ((c.tc : Thread nD τ).loc main_arg4)) (m ((c.tc : Thread nD τ).loc main_arg5)))))
      ∧ r.2.mem ((c.tc : Thread nD τ).loc main_v19)
          = (fun _ => positionLoss (m ((c.tc : Thread nD τ).loc main_arg0)) (m ((c.tc : Thread nD τ).loc main_arg1)))
      ∧ r.2.mem ((c.tc : Thread nD τ).loc main_v31)
          = (fun _ => velLoss (m ((c.tc : Thread nD τ).loc main_arg0)) (m ((c.tc : Thread nD τ).loc main_arg1)))
      ∧ r.2.mem ((c.tc : Thread nD τ).loc main_v77)
          = (fun _ => obstacleLoss (obsSum (m ((c.tc : Thread nD τ).loc main_arg3))
                (dist2Dot (m ((c.tc : Thread nD τ).loc main_arg0)) (m ((c.tc : Thread nD τ).loc main_arg2))
                  (m ((c.tc : Thread nD τ).loc main_arg4)) (m ((c.tc : Thread nD τ).loc main_arg5)))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨(h c).1.trans ((val_main_v83_eq m c).trans (funext fun i => totalLoss_read _ _ _ _ _ _ i)),
     (h c).2.1.trans ((val_main_v19_eq _ _).trans (funext fun i => positionLoss_read _ _ i)),
     (h c).2.2.1.trans ((val_main_v31_eq _ _).trans (funext fun i => velLoss_read _ _ i)),
     (h c).2.2.2.1.trans ((val_main_v77_eq m c).trans (funext fun i => obstacleLoss_read _ _ _ _ _ i)),
     (h c).2.2.2.2⟩)
    (Cert.ReferenceIdeal.Value.run (F := Ideal) m ρ)

end Cert.RefValue

end
-- ==== Proof.Algebra.lean ====
/-
  The two spellings of the squared distance agree on finite entries.

  With real numbers p_d (the scaled and shifted position) and c_d (a centre), d = 0, 1, 2,
      ∑ (p_d − c_d)² = ∑ p_d² + ∑ c_d² − 2 ∑ p_d c_d.
  On the extended reals the identity needs every entry to be a real number: with an infinite entry the right-hand side
  would subtract infinities. So the statement is made under `Finite`, the entries are replaced by real witnesses, the
  coercion from the reals is pushed outwards through products, sums and differences, and the identity is closed in the
  reals. The constant 2 of the second spelling is the binary word 0x40000000, whose value is the real number 2.
-/
import proofs.«114594_j69492570849790_2_alg».proof.Proof.Spec

noncomputable section

namespace Cert.LossAlgebra

open Idealize.ShloMosaic Idealize.ShloMosaic.ValueIdx

/-- Every entry of the array is a real number: neither of the two infinities occurs. -/
def Finite {s : Shape} (x : s.Idx → EReal) : Prop := ∀ i, ∃ r : ℝ, x i = (r : EReal)

/-- The word 0x40000000 (sign 0, exponent 128, fraction 0) is 2¹ = 2. -/
theorem two_eq : Cert.Loss.two = ((2 : ℝ) : EReal) := by
  unfold Cert.Loss.two
  simp [Ideal.ofBits, Ideal.ieee, -EReal.coe_mul]; norm_num

/-- The identity over three real coordinates, read in the extended reals. -/
theorem sum_sq_sub (a c : Fin 3 → ℝ) :
    ∑ d : Fin 3, Cert.Loss.sq ((a d : EReal) - (c d : EReal))
      = ((∑ d : Fin 3, (a d : EReal) * (a d : EReal)) + ∑ d : Fin 3, (c d : EReal) * (c d : EReal))
        - ((2 : ℝ) : EReal) * ∑ d : Fin 3, (a d : EReal) * (c d : EReal) := by
  simp only [Cert.Loss.sq, Fin.sum_univ_three, ← EReal.coe_sub, ← EReal.coe_mul, ← EReal.coe_add]
  exact congrArg _ (by ring)

variable (P : Cert.Loss.Traj) (C : Cert.Loss.Centers) (R : Cert.Loss.Radii) (M Sd : Cert.Loss.Stats)

/-- On finite entries the scaled and shifted position is a real number in each coordinate. -/
theorem posDn_real (hP : Finite P) (hM : Finite M) (hSd : Finite Sd) (b : Fin 64) (s : Fin 4096) :
    ∃ a : Fin 3 → ℝ, ∀ d, Cert.Loss.posDn P M Sd b s d = (a d : EReal) := by
  have hP' : ∀ i, ∃ r : ℝ, P i = (r : EReal) := hP
  have hM' : ∀ i, ∃ r : ℝ, M i = (r : EReal) := hM
  have hSd' : ∀ i, ∃ r : ℝ, Sd i = (r : EReal) := hSd
  choose p hp using hP'
  choose mu hmu using hM'
  choose sd hsd using hSd'
  refine ⟨fun d => p (ix3 b s (Cert.Loss.posF d)) * sd (ix3 0 0 (Cert.Loss.posF d))
    + mu (ix3 0 0 (Cert.Loss.posF d)), fun d => ?_⟩
  unfold Cert.Loss.posDn
  rw [hp, hsd, hmu, ← EReal.coe_mul, ← EReal.coe_add]

/-- The sum of the squared coordinate differences is |p|² + |c|² − 2 p·c when every entry is finite. -/
theorem dist2_eq (hP : Finite P) (hC : Finite C) (hM : Finite M) (hSd : Finite Sd)
    (b : Fin 64) (s : Fin 4096) (k : Fin 32) :
    Cert.Loss.dist2Diff P C M Sd b s k = Cert.Loss.dist2Dot P C M Sd b s k := by
  obtain ⟨a, ha⟩ := posDn_real P M Sd hP hM hSd b s
  have hC' : ∀ i, ∃ r : ℝ, C i = (r : EReal) := hC
  choose c hc using hC'
  unfold Cert.Loss.dist2Diff Cert.Loss.dist2Dot
  rw [two_eq]
  simp only [ha, hc]
  exact sum_sq_sub a (fun d => c (ix3 b k d))

/-- Hence the obstacle sums over the two spellings agree: the same identity under the three sums
    (batch entries, centres, steps). -/
theorem obsSum_eq (hP : Finite P) (hC : Finite C) (hM : Finite M) (hSd : Finite Sd) :
    Cert.Loss.obsSum R (Cert.Loss.dist2Diff P C M Sd) = Cert.Loss.obsSum R (Cert.Loss.dist2Dot P C M Sd) := by
  unfold Cert.Loss.obsSum Cert.Loss.obsTerm
  refine Finset.sum_congr rfl fun b _ => Finset.sum_congr rfl fun k _ => Finset.sum_congr rfl fun s _ => ?_
  rw [dist2_eq P C M Sd hP hC hM hSd b s k]

end Cert.LossAlgebra

end
-- ==== Proof.Finite.lean ====
/-
  Finiteness of the inputs, read off the precondition.

  The precondition is a conjunction, over the six argument arrays, of "every entry x has |x| < +∞", each conjunct written
  as a reduction by `and` of the entrywise comparison into a single bit, and the whole stated to be 1. Read backwards:
  the conjunction being 1 makes each reduction 1, a reduction by `and` over every axis being 1 makes the comparison 1 at
  every entry, and max(x, −x) < +∞ on the extended reals excludes both infinities, so the entry is a real number.
  The step from one reduction to the finiteness of its array is stated once for any shape and used for the four arrays
  the squared distance reads: the trajectory, the centres, the means and the deviations.
-/
import proofs.«114594_j69492570849790_2_alg».proof.Defs
import proofs.«114594_j69492570849790_2_alg».proof.Proof.Gen.Pre_finite_inputs
import proofs.«114594_j69492570849790_2_alg».proof.Proof.Algebra
import Idealize.ShloMosaic.Lib.ReduceAll

noncomputable section

namespace Cert.LossFinite

open Idealize.ShloMosaic Idealize.SL.Sem Cert.LossAlgebra

/-- The word 0x7F800000 (exponent all ones, fraction 0, sign 0) is +∞. -/
theorem inf_eq : Ideal.ofBits .f32 0x7F800000#32 = (⊤ : EReal) := by
  simp [Ideal.ofBits, Ideal.ieee]

/-- An extended real whose absolute value max(x, −x) compares below +∞ is a real number. -/
theorem real_of_abs_lt (x : EReal)
    (h : Ideal.cmp .olt (max x (-x)) (Ideal.ofBits .f32 0x7F800000#32) = 1#1) : ∃ r : ℝ, x = (r : EReal) := by
  rw [inf_eq] at h
  induction x using EReal.rec with
  | bot => simp [Ideal.cmp] at h
  | coe r => exact ⟨r, rfl⟩
  | top => simp [Ideal.cmp] at h

instance : Subsingleton (⟨0, ![]⟩ : Shape).Idx := ⟨fun a b => funext fun d => d.elim0⟩

/-- One conjunct of the precondition, for an array of any shape: if the reduction by `and`, over every axis, of the
    entrywise comparison |x| < +∞ is 1, every entry of the array is a real number. -/
theorem finite_of_all {s : Shape} {axes : List (Fin s.rank)}
    (hb : (⟨0, ![]⟩ : Shape).BroadcastsInDim s (![] : Fin 0 → Fin s.rank))
    (hr : s.ReducesTo axes ⟨0, ![]⟩) (hu : 0 < (⟨0, ![]⟩ : Shape).numel)
    (x : FVec Ideal s .f32) (init : IVec ⟨0, ![]⟩ 1) (j : (⟨0, ![]⟩ : Shape).Idx)
    (e : Host.reduce IntOp.andi
          (cmpf (F := Ideal) .olt (Host.absf (F := Ideal) x)
            (broadcastInDim s ![] hb (constant (F := Ideal) ⟨0, ![]⟩ .f32 0x7F800000#32)))
          init hr hu j = 1#1) :
    Finite (s := s) x := by
  intro i
  exact real_of_abs_lt (x i) (Host.reduce_andi_all _ init hr hu j e i)

/-- Under the precondition, on every device, the trajectory, the centres, the means and the deviations have only real
    entries. The precondition's bit is ((((t0 ∧ t1) ∧ t2) ∧ t3) ∧ t4) ∧ t5 with tK the reduction for argument K. -/
theorem finite_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Finite (s := ⟨3, ![64, 4096, 32]⟩)
        (m ((c.tc : Thread Cert.KernelIdeal.nD Cert.KernelIdeal.τ).loc Cert.KernelIdeal.main_arg0))
      ∧ Finite (s := ⟨3, ![64, 32, 3]⟩)
        (m ((c.tc : Thread Cert.KernelIdeal.nD Cert.KernelIdeal.τ).loc Cert.KernelIdeal.main_arg2))
      ∧ Finite (s := ⟨3, ![1, 1, 32]⟩)
        (m ((c.tc : Thread Cert.KernelIdeal.nD Cert.KernelIdeal.τ).loc Cert.KernelIdeal.main_arg4))
      ∧ Finite (s := ⟨3, ![1, 1, 32]⟩)
        (m ((c.tc : Thread Cert.KernelIdeal.nD Cert.KernelIdeal.τ).loc Cert.KernelIdeal.main_arg5)) := by
  have h0 := congrFun (h c) ValueIdx.ix0
  dsimp only [Cert.Pre_finite_inputs.fn, Cert.Pre_finite_inputs.fn_part1] at h0
  obtain ⟨h01234, h5⟩ := IntOp.andi_eq_one.1 h0
  obtain ⟨h0123, h4⟩ := IntOp.andi_eq_one.1 h01234
  obtain ⟨h012, _⟩ := IntOp.andi_eq_one.1 h0123
  obtain ⟨h01, h2⟩ := IntOp.andi_eq_one.1 h012
  obtain ⟨h0', _⟩ := IntOp.andi_eq_one.1 h01
  exact ⟨finite_of_all _ _ _ _ _ _ h0', finite_of_all _ _ _ _ _ _ h2, finite_of_all _ _ _ _ _ _ h4,
    finite_of_all _ _ _ _ _ _ h5⟩

end Cert.LossFinite

end
-- ==== Proof.lean ====
/-
  A trajectory loss: the kernel against its reference, over the extended reals.

  Both programs take a predicted and a true trajectory (64 batch entries of 4096 steps of 32 features), 32 obstacle
  centres and radii per batch entry, and a mean and a deviation per feature, and return four numbers: the position
  loss, the velocity loss, the obstacle loss and their weighted total with the loss of the other features.

  The kernel visits the batch entries one by one and keeps five running sums: squared position errors per coordinate,
  squared errors at the last step, squared errors of step-to-step differences, squared errors of the 29 features that
  are not coordinates, and squared obstacle penalties. After the last entry the sums are divided by their element
  counts and combined. The reference forms the same five sums over whole arrays at once. Every sum is over the
  extended reals, where addition is commutative and associative, so the order and grouping do not matter.

  The one place where the two differ as expressions is the squared distance from a position p to a centre c: the
  kernel adds the squares of the three coordinate differences, the reference computes |p|² + |c|² − 2 p·c. These are
  the same number when the entries are finite, which the precondition gives; everything else agrees term by term.

  The three frame claims are the generated frame of the kernel at the word level and at the ideal values, and the
  reference's run with its results dropped; the idealization rewrote nothing, so there is nothing to preserve.
-/
import proofs.«114594_j69492570849790_2_alg».proof.Defs
import proofs.«114594_j69492570849790_2_alg».proof.Proof.Gen.Kernel
import proofs.«114594_j69492570849790_2_alg».proof.Proof.Gen.Kernel.Skeleton
import proofs.«114594_j69492570849790_2_alg».proof.Proof.Gen.Kernel.Launch
import proofs.«114594_j69492570849790_2_alg».proof.Proof.Gen.Kernel.Points
import proofs.«114594_j69492570849790_2_alg».proof.Proof.Gen.Kernel.Frame
import proofs.«114594_j69492570849790_2_alg».proof.Proof.Gen.KernelIdeal
import proofs.«114594_j69492570849790_2_alg».proof.Proof.Gen.KernelIdeal.Skeleton
import proofs.«114594_j69492570849790_2_alg».proof.Proof.Gen.KernelIdeal.Launch
import proofs.«114594_j69492570849790_2_alg».proof.Proof.Gen.KernelIdeal.Points
import proofs.«114594_j69492570849790_2_alg».proof.Proof.Gen.KernelIdeal.Frame
import proofs.«114594_j69492570849790_2_alg».proof.Proof.Gen.ReferenceIdeal
import proofs.«114594_j69492570849790_2_alg».proof.Proof.Gen.Pre_finite_inputs
import proofs.«114594_j69492570849790_2_alg».proof.Proof.KRun
import proofs.«114594_j69492570849790_2_alg».proof.Proof.RefValue
import proofs.«114594_j69492570849790_2_alg».proof.Proof.Algebra
import proofs.«114594_j69492570849790_2_alg».proof.Proof.Finite
import Idealize.ShloMosaic.Adequacy
import Idealize.ShloMosaic.Init

noncomputable section

namespace Cert.Proof

open Idealize.ShloMosaic Idealize.SL.Sem

/-- The kernel as printed terminates, faults nowhere and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- So does the reference: its run, with the four results dropped. -/
theorem frame_reference : Cert.frame_ReferenceIdeal := fun m ρ _ =>
  (θ_run Cert.ReferenceIdeal.defs _ _).mono (fun _ h c => (h c).2.2.2.2) (Cert.RefValue.run m ρ)

/-- The idealization rewrote no operation. -/
theorem preserves : Cert.preserves_Kernel_KernelIdeal := trivial

/-- From memories that agree on the six arguments, both programs end with the same four numbers: the kernel's obstacle
    sum is spelt with squared differences, the reference's with the expanded square, equal on the finite inputs. -/
theorem algebraic : Cert.algebraic_KernelIdeal_ReferenceIdeal := by
  intro m ρ m' ρ' hpre hagree
  refine ⟨fun c _ => Cert.Loss.totalLoss (m ((c.tc : Thread Cert.KernelIdeal.nD Cert.KernelIdeal.τ).loc Cert.KernelIdeal.main_arg0)) (m ((c.tc : Thread Cert.KernelIdeal.nD Cert.KernelIdeal.τ).loc Cert.KernelIdeal.main_arg1))
        (Cert.Loss.obsSum (m ((c.tc : Thread Cert.KernelIdeal.nD Cert.KernelIdeal.τ).loc Cert.KernelIdeal.main_arg3)) (Cert.Loss.dist2Diff (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)))),
      fun c _ => Cert.Loss.positionLoss (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
      fun c _ => Cert.Loss.velLoss (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
      fun c _ => Cert.Loss.obstacleLoss
        (Cert.Loss.obsSum (m ((c.tc : Thread Cert.KernelIdeal.nD Cert.KernelIdeal.τ).loc Cert.KernelIdeal.main_arg3)) (Cert.Loss.dist2Diff (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)))),
      Cert.KRun.run m ρ, ?_⟩
  refine (θ_run Cert.ReferenceIdeal.defs _ _).mono (fun _ h c => ?_) (Cert.RefValue.run m' ρ')
  obtain ⟨r0, r1, r2, r3, rargs⟩ := h c
  obtain ⟨e0, e1, e2, e3, e4, e5⟩ := hagree c
  obtain ⟨fP, fC, fM, fS⟩ := Cert.LossFinite.finite_of_pre m hpre c
  refine ⟨r0.trans ?_, r1.trans ?_, r2.trans ?_, r3.trans ?_, rargs⟩
  · rw [e0, e1, e2, e3, e4, e5, ← Cert.LossAlgebra.obsSum_eq _ _ _ _ _ fP fC fM fS] <;> rfl
  · rw [e0, e1] <;> rfl
  · rw [e0, e1] <;> rfl
  · rw [e0, e2, e3, e4, e5, ← Cert.LossAlgebra.obsSum_eq _ _ _ _ _ fP fC fM fS] <;> rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
